-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1x256 : Shape := ⟨4, ![4, 4096, 1, 256]⟩
abbrev S256x128 : Shape := ⟨2, ![256, 128]⟩
abbrev S128 : Shape := ⟨1, ![128]⟩
abbrev S128x50 : Shape := ⟨2, ![128, 50]⟩
abbrev S50 : Shape := ⟨1, ![50]⟩
abbrev S128x1 : Shape := ⟨2, ![128, 1]⟩
abbrev S1 : Shape := ⟨1, ![1]⟩
abbrev S_ : Shape := ⟨0, ![]⟩

class Facts : Prop where
  bcast_S_S4x4096x1x256 : S_.BroadcastsInDim S4x4096x1x256 (![] : Fin 0 → Fin S4x4096x1x256.rank)
  reducesTo_S4x4096x1x256_S_d0_1_2_3 : S4x4096x1x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x1 .f32) (main_arg10 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S50 .f32) (main_arg5 : FVec F S256x128 .f32) (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x1x256 .f32) (main_arg1 : FVec F S256x128 .f32) (main_arg2 : FVec F S128 .f32) (main_arg3 : FVec F S128x50 .f32) (main_arg4 : FVec F S50 .f32) (main_arg5 : FVec F S256x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S4x4096x1x256 .f32 := Host.absf main_arg0
  let main_cst : FVec F S_ .f32 := constant S_ .f32 0x7F800000#32
  let main_v1 : FVec F S4x4096x1x256 .f32 := broadcastInDim S4x4096x1x256 ![] bcast_S_S4x4096x1x256 main_cst
  let main_v2 : IVec S4x4096x1x256 1 := cmpf .olt main_v0 main_v1
  let main_c : IVec S_ 1 := constantI S_ 1 1#1
  let main_v3 : IVec S_ 1 := (fun x v => Host.reduce IntOp.andi x v reducesTo_S4x4096x1x256_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x50 .f32 := Host.absf main_arg3
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg4 main_arg5 main_arg6 main_arg7 main_arg8 main_arg9 main_arg10 main_v13 main_v16
-- ==== Kernel.lean ====
abbrev S4x4096x1x256 : Shape := ⟨4, ![4, 4096, 1, 256]⟩
abbrev S256x128 : Shape := ⟨2, ![256, 128]⟩
abbrev S128 : Shape := ⟨1, ![128]⟩
abbrev S128x50 : Shape := ⟨2, ![128, 50]⟩
abbrev S50 : Shape := ⟨1, ![50]⟩
abbrev S128x1 : Shape := ⟨2, ![128, 1]⟩
abbrev S1 : Shape := ⟨1, ![1]⟩
abbrev S4x4096x256 : Shape := ⟨3, ![4, 4096, 256]⟩
abbrev S4x4096x50 : Shape := ⟨3, ![4, 4096, 50]⟩
abbrev S4x4096x128 : Shape := ⟨3, ![4, 4096, 128]⟩
abbrev S4x4096x1 : Shape := ⟨3, ![4, 4096, 1]⟩
abbrev S1x1024x256 : Shape := ⟨3, ![1, 1024, 256]⟩
abbrev S1x1024x50 : Shape := ⟨3, ![1, 1024, 50]⟩
abbrev S1x1024x128 : Shape := ⟨3, ![1, 1024, 128]⟩
abbrev S1x1024x1 : Shape := ⟨3, ![1, 1024, 1]⟩
abbrev S1024x256 : Shape := ⟨2, ![1024, 256]⟩
abbrev S1024x128 : Shape := ⟨2, ![1024, 128]⟩
abbrev S1x128 : Shape := ⟨2, ![1, 128]⟩
abbrev S1024x50 : Shape := ⟨2, ![1024, 50]⟩
abbrev S1x50 : Shape := ⟨2, ![1, 50]⟩
abbrev S1024 : Shape := ⟨1, ![1024]⟩
abbrev S1024x1 : Shape := ⟨2, ![1024, 1]⟩
abbrev S1x1 : Shape := ⟨2, ![1, 1]⟩
abbrev S4x4096x4096 : Shape := ⟨3, ![4, 4096, 4096]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 18
  | .vmem => 28
  | .smem => 0
  | _ => 0

abbrev bufTy : (tb : Table) → Fin (tcTables nBuf tb) → BufTy
  | .hbm, ⟨0, _⟩ => ⟨S4x4096x1x256, .f32⟩
  | .hbm, ⟨1, _⟩ => ⟨S256x128, .f32⟩
  | .hbm, ⟨2, _⟩ => ⟨S128, .f32⟩
  | .hbm, ⟨3, _⟩ => ⟨S128x50, .f32⟩
  | .hbm, ⟨4, _⟩ => ⟨S50, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S4x4096x256, .f32⟩
  | .hbm, ⟨12, _⟩ => ⟨S4x4096x50, .f32⟩
  | .hbm, ⟨13, _⟩ => ⟨S4x4096x50, .f32⟩
  | .hbm, ⟨14, _⟩ => ⟨S4x4096x128, .f32⟩
  | .hbm, ⟨15, _⟩ => ⟨S4x4096x1, .f32⟩
  | .hbm, ⟨16, _⟩ => ⟨S4x4096x1, .f32⟩
  | .hbm, ⟨17, _⟩ => ⟨S4x4096x4096, .f32⟩
  | .local _ .vmem, ⟨0, _⟩ => ⟨S1x1024x256, .f32⟩
  | .local _ .vmem, ⟨1, _⟩ => ⟨S1x1024x256, .f32⟩
  | .local _ .vmem, ⟨2, _⟩ => ⟨S256x128, .f32⟩
  | .local _ .vmem, ⟨3, _⟩ => ⟨S128, .f32⟩
  | .local _ .vmem, ⟨4, _⟩ => ⟨S128x50, .f32⟩
  | .local _ .vmem, ⟨5, _⟩ => ⟨S50, .f32⟩
  | .local _ .vmem, ⟨6, _⟩ => ⟨S256x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S1x1024x50, .f32⟩
  | .local _ .vmem, ⟨13, _⟩ => ⟨S1x1024x50, .f32⟩
  | .local _ .vmem, ⟨14, _⟩ => ⟨S1x1024x50, .f32⟩
  | .local _ .vmem, ⟨15, _⟩ => ⟨S1x1024x50, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x1, .f32⟩
  | .local _ .vmem, ⟨21, _⟩ => ⟨S1x1024x1, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x1024x1024, .f32⟩
  | .local _ .vmem, ⟨27, _⟩ => ⟨S1x1024x1024, .f32⟩
  | _, _ => ⟨S4x4096x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x50 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S4x4096x1x256_S4x4096x256 : S4x4096x1x256.ShapeCasts S4x4096x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x50_S128x50_0_0 : ∀ a, (![0, 0] : Fin 2 → Nat) a + S128x50.size a ≤ S128x50.size a
  h_S128x50 : 0 < S128x50.numel
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  inb_S1x1024x50_S1x1024x50_0_0_0 : ∀ a, (![0, 0, 0] : Fin 3 → Nat) a + S1x1024x50.size a ≤ S1x1024x50.size a
  h_S1x1024x50 : 0 < S1x1024x50.numel
  shapeCasts_S1x1024x50_S1024x50 : S1x1024x50.ShapeCasts S1024x50
  shapeCasts_S1024x50_S1x1024x50 : S1024x50.ShapeCasts S1x1024x50
  reduces_S1024x50_S1024 : S1024x50.Reduces [1] S1024
  shapeCasts_S1024_S1024x1 : S1024.ShapeCasts S1024x1
  broadcasts_S1024x1_S1024x50 : S1024x1.Broadcasts S1024x50
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x128_S1024 : S1024x128.Reduces [1] S1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S256x128_S1024x128_1_0_0_1_n_n_wf : DotDims.WF S1024x256 S256x128 S1024x128 [1] [0] [0] [1] [] []
  dot_S1024x128_S128x50_S1024x50_1_0_0_1_n_n_wf : DotDims.WF S1024x128 S128x50 S1024x50 [1] [0] [0] [1] [] []
  dot_S1024x128_S128x1_S1024x1_1_0_0_1_n_n_wf : DotDims.WF S1024x128 S128x1 S1024x1 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x50.size a ≤ S128x50.size a
  hwx0_3 : ∀ i : grid0.Coords, EltTy.bits .f32 = 32 ∨ (Rect.block (s := S128x50) S128x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x50.size a ≤ S4x4096x50.size a
  hwx0_11 : ∀ i : grid0.Coords, EltTy.bits .f32 = 32 ∨ (Rect.block (s := S4x4096x50) S1x1024x50.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x50.size a ≤ S4x4096x50.size a
  hwx0_12 : ∀ i : grid0.Coords, EltTy.bits .f32 = 32 ∨ (Rect.block (s := S4x4096x50) S1x1024x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1024x128.size a ≤ S4x4096x128.size a
  hwx0_13 : ∀ i : grid0.Coords, EltTy.bits .f32 = 32 ∨ (Rect.block (s := S4x4096x128) S1x1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1024x1.size a ≤ S4x4096x1.size a
  hwx0_14 : ∀ i : grid0.Coords, EltTy.bits .f32 = 32 ∨ (Rect.block (s := S4x4096x1) S1x1024x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x1.size a ≤ S4x4096x1.size a
  hwx0_15 : ∀ i : grid0.Coords, EltTy.bits .f32 = 32 ∨ (Rect.block (s := S4x4096x1) S1x1024x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .f32 = 32 ∨ (Rect.block (s := S4x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .f32 = 32 ∨ (Rect.block (s := S4x4096x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x4096.size a
  hwx1_2 : ∀ i : grid1.Coords, EltTy.bits .f32 = 32 ∨ (Rect.block (s := S4x4096x4096) S1x1024x1024.size (cc1_transform_2 i) (hinb1_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x50_S1024x50_1_0_0_1_n_n : DotDims S1024x128 S128x50 S1024x50 where
  lhsContracting := [1]
  rhsContracting := [0]
  lhsNonContracting := [0]
  rhsNonContracting := [1]
  lhsBatch := []
  rhsBatch := []
  wf := dot_S1024x128_S128x50_S1024x50_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1_0) S1x1024x50.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_1) S1x1024x50.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1_2) S1x1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v1_3) S1x1024x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v1_4) S1x1024x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v1_2) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_2) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1x256 : Shape := ⟨4, ![4, 4096, 1, 256]⟩
abbrev S256x128 : Shape := ⟨2, ![256, 128]⟩
abbrev S128 : Shape := ⟨1, ![128]⟩
abbrev S128x50 : Shape := ⟨2, ![128, 50]⟩
abbrev S50 : Shape := ⟨1, ![50]⟩
abbrev S128x1 : Shape := ⟨2, ![128, 1]⟩
abbrev S1 : Shape := ⟨1, ![1]⟩
abbrev S4x4096x256 : Shape := ⟨3, ![4, 4096, 256]⟩
abbrev S4x4096x128 : Shape := ⟨3, ![4, 4096, 128]⟩
abbrev S1x1x128 : Shape := ⟨3, ![1, 1, 128]⟩
abbrev S4x4096x50 : Shape := ⟨3, ![4, 4096, 50]⟩
abbrev S1x1x50 : Shape := ⟨3, ![1, 1, 50]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1x256, .f32⟩
  | .hbm, ⟨1, _⟩ => ⟨S256x128, .f32⟩
  | .hbm, ⟨2, _⟩ => ⟨S128, .f32⟩
  | .hbm, ⟨3, _⟩ => ⟨S128x50, .f32⟩
  | .hbm, ⟨4, _⟩ => ⟨S50, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S4x4096x256, .f32⟩
  | .hbm, ⟨12, _⟩ => ⟨S4x4096x128, .f32⟩
  | .hbm, ⟨13, _⟩ => ⟨S1x1x128, .f32⟩
  | .hbm, ⟨14, _⟩ => ⟨S4x4096x128, .f32⟩
  | .hbm, ⟨15, _⟩ => ⟨S4x4096x128, .f32⟩
  | .hbm, ⟨16, _⟩ => ⟨S4x4096x50, .f32⟩
  | .hbm, ⟨17, _⟩ => ⟨S1x1x50, .f32⟩
  | .hbm, ⟨18, _⟩ => ⟨S4x4096x50, .f32⟩
  | .hbm, ⟨19, _⟩ => ⟨S4x4096x50, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x50, .f32⟩
  | .hbm, ⟨27, _⟩ => ⟨S4x4096x50, .f32⟩
  | .hbm, ⟨28, _⟩ => ⟨S4x4096x50, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x50, .f32⟩
  | .hbm, ⟨33, _⟩ => ⟨S4x4096x50, .f32⟩
  | .hbm, ⟨34, _⟩ => ⟨S4x4096x128, .f32⟩
  | .hbm, ⟨35, _⟩ => ⟨S1x1x128, .f32⟩
  | .hbm, ⟨36, _⟩ => ⟨S4x4096x128, .f32⟩
  | .hbm, ⟨37, _⟩ => ⟨S4x4096x128, .f32⟩
  | .hbm, ⟨38, _⟩ => ⟨S4x4096x128, .f32⟩
  | .hbm, ⟨39, _⟩ => ⟨S_, .f32⟩
  | .hbm, ⟨40, _⟩ => ⟨S4x4096, .f32⟩
  | .hbm, ⟨41, _⟩ => ⟨S4x4096x4096, .f32⟩
  | .hbm, ⟨42, _⟩ => ⟨S4x4096x1, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x1x4096, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S4x4096x128, .f32⟩
  | .hbm, ⟨58, _⟩ => ⟨S1x1x128, .f32⟩
  | .hbm, ⟨59, _⟩ => ⟨S4x4096x128, .f32⟩
  | .hbm, ⟨60, _⟩ => ⟨S4x4096x128, .f32⟩
  | .hbm, ⟨61, _⟩ => ⟨S4x4096x1, .f32⟩
  | .hbm, ⟨62, _⟩ => ⟨S1x1x1, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | _, _ => ⟨S4x4096x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  shapeCasts_S4x4096x1x256_S4x4096x256 : S4x4096x1x256.ShapeCasts S4x4096x256
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S50_S1x1x50_2 : S50.BroadcastsInDim S1x1x50 (![2] : Fin 1 → Fin S1x1x50.rank)
  bcast_S1x1x50_S4x4096x50_0_1_2 : S1x1x50.BroadcastsInDim S4x4096x50 (![0, 1, 2] : Fin 3 → Fin S4x4096x50.rank)
  reducesTo_S4x4096x50_S4x4096_d2 : S4x4096x50.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x50_0_1_2 : S4x4096x1.BroadcastsInDim S4x4096x50 (![0, 1, 2] : Fin 3 → Fin S4x4096x50.rank)
  reducesTo_S4x4096x128_S4x4096_d2 : S4x4096x128.ReducesTo [2] S4x4096
  bcast_S_S4x4096x4096 : S_.BroadcastsInDim S4x4096x4096 (![] : Fin 0 → Fin S4x4096x4096.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  bcast_S_S4x4096x1 : S_.BroadcastsInDim S4x4096x1 (![] : Fin 0 → Fin S4x4096x1.rank)
  dot_S4x4096x256_S256x128_S4x4096x128_2_0_01_1_n_n_wf : DotDims.WF S4x4096x256 S256x128 S4x4096x128 [2] [0] [0, 1] [1] [] []
  dot_S4x4096x128_S128x50_S4x4096x50_2_0_01_1_n_n_wf : DotDims.WF S4x4096x128 S128x50 S4x4096x50 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x128_S128x1_S4x4096x1_2_0_01_1_n_n_wf : DotDims.WF S4x4096x128 S128x1 S4x4096x1 [2] [0] [0, 1] [1] [] []

variable [Facts₀]

def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x128_S128x50_S4x4096x50_2_0_01_1_n_n : DotDims S4x4096x128 S128x50 S4x4096x50 where
  lhsContracting := [2]
  rhsContracting := [0]
  lhsNonContracting := [0, 1]
  rhsNonContracting := [1]
  lhsBatch := []
  rhsBatch := []
  wf := dot_S4x4096x128_S128x50_S4x4096x50_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x128_S128x1_S4x4096x1_2_0_01_1_n_n : DotDims S4x4096x128 S128x1 S4x4096x1 where
  lhsContracting := [2]
  rhsContracting := [0]
  lhsNonContracting := [0, 1]
  rhsNonContracting := [1]
  lhsBatch := []
  rhsBatch := []
  wf := dot_S4x4096x128_S128x1_S4x4096x1_2_0_01_1_n_n_wf

class Facts : Prop extends Facts₀ where

variable [Facts]
-- ==== Proof.HeadsLaunch.lean ====
/-
  The first launch, one grid point at a time. The grid has 4 × 4 points; point (b, i) is handed rows
  1024·i … 1024·i + 1023 of batch b of the point features (window 0, a [1, 1024, 256] block), the ten weight and bias
  arrays whole (windows 1–10), and five output blocks (windows 11–15) that it overwrites whole: the segment logits,
  the segment probabilities, the similarity features, the confidences and the confidence logits of those 1024 points.
  Here: what the body leaves in each output block as a function of the eleven input blocks, that the body run
  on those blocks does leave it (and leaves the inputs alone), and the bookkeeping the launch rule asks of every
  window at every point. Everything is stated for any float interpretation `F`.
-/
import proofs.«118794_j27084063768631_1_alg».proof.Proof.Gen.KernelIdeal.Launch
import proofs.«118794_j27084063768631_1_alg».proof.Proof.Gen.KernelIdeal.Skeleton
import proofs.«118794_j27084063768631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Heads0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S1x1024x256 := Rect.unit (s := S1x1024x256) ![0, 0, 0] S1x1024x256.size inb_S1x1024x256_S1x1024x256_0_0_0
abbrev rW : Rect S256x128 := Rect.unit (s := S256x128) ![0, 0] S256x128.size inb_S256x128_S256x128_0_0
abbrev rB : Rect S128 := Rect.unit (s := S128) ![0] S128.size inb_S128_S128_0
abbrev rWseg : Rect S128x50 := Rect.unit (s := S128x50) ![0, 0] S128x50.size inb_S128x50_S128x50_0_0
abbrev rBseg : Rect S50 := Rect.unit (s := S50) ![0] S50.size inb_S50_S50_0
abbrev rWcl : Rect S128x1 := Rect.unit (s := S128x1) ![0, 0] S128x1.size inb_S128x1_S128x1_0_0
abbrev rBcl : Rect S1 := Rect.unit (s := S1) ![0] S1.size inb_S1_S1_0
abbrev rSeg : Rect S1x1024x50 := Rect.unit (s := S1x1024x50) ![0, 0, 0] S1x1024x50.size inb_S1x1024x50_S1x1024x50_0_0_0
abbrev rSim : Rect S1x1024x128 := Rect.unit (s := S1x1024x128) ![0, 0, 0] S1x1024x128.size inb_S1x1024x128_S1x1024x128_0_0_0
abbrev rConf : Rect S1x1024x1 := Rect.unit (s := S1x1024x1) ![0, 0, 0] S1x1024x1.size inb_S1x1024x1_S1x1024x1_0_0_0

/-! ## What the body leaves in each output block, from the input blocks -/

/-- Segment logits of the block's 1024 points. -/
def segLogitsBlk (x : Vec F S1x1024x256 .f32) (wsem : Vec F S256x128 .f32) (bsem : Vec F S128 .f32)
    (wseg : Vec F S128x50 .f32) (bseg : Vec F S50 .f32) : Vec F S1x1024x50 .f32 :=
  View.canon [⟨rSeg, k0_pay7 (View.ld x rX) (View.ld wsem rW) (View.ld bsem rB) (View.ld wseg rWseg) (View.ld bseg rBseg)⟩]

/-- Segment probabilities of the block's points. -/
def segProbsBlk (x : Vec F S1x1024x256 .f32) (wsem : Vec F S256x128 .f32) (bsem : Vec F S128 .f32)
    (wseg : Vec F S128x50 .f32) (bseg : Vec F S50 .f32) : Vec F S1x1024x50 .f32 :=
  View.canon [⟨rSeg, k0_pay8 (View.ld x rX) (View.ld wsem rW) (View.ld bsem rB) (View.ld wseg rWseg) (View.ld bseg rBseg)⟩]

/-- Similarity features of the block's points. -/
def simFeatsBlk (x : Vec F S1x1024x256 .f32) (wsim : Vec F S256x128 .f32) (bsim : Vec F S128 .f32) : Vec F S1x1024x128 .f32 :=
  View.canon [⟨rSim, k0_pay1 (k0_pay5 (View.ld x rX)) (View.ld wsim rW) (View.ld bsim rB)⟩]

/-- Confidence logits of the block's points. -/
def confLogitsBlk (x : Vec F S1x1024x256 .f32) (wconf : Vec F S256x128 .f32) (bconf : Vec F S128 .f32)
    (wcl : Vec F S128x1 .f32) (bcl : Vec F S1 .f32) : Vec F S1x1024x1 .f32 :=
  View.canon [⟨rConf, k0_pay3 (k0_pay5 (View.ld x rX)) (View.ld wconf rW) (View.ld bconf rB) (View.ld wcl rWcl) (View.ld bcl rBcl)⟩]

/-- Confidences of the block's points. -/
def confsBlk (x : Vec F S1x1024x256 .f32) (wconf : Vec F S256x128 .f32) (bconf : Vec F S128 .f32)
    (wcl : Vec F S128x1 .f32) (bcl : Vec F S1 .f32) : Vec F S1x1024x1 .f32 :=
  View.canon [⟨rConf, k0_pay4 (k0_pay5 (View.ld x rX)) (View.ld wconf rW) (View.ld bconf rB) (View.ld wcl rWcl) (View.ld bcl rBcl)⟩]

/-- One store through the whole-buffer rectangle covers the buffer. -/
theorem coverSeg (p : Vec F S1x1024x50 .f32) (y : S1x1024x50.Idx) :
    ∃ pc ∈ ([⟨rSeg, p⟩] : List (View.Piece (Elt F) S1x1024x50 .f32)), y ∈ pc.1.set :=
  View.cover_of_tiled [⟨rSeg, p⟩] S1x1024x50.size (by rfl) y
theorem coverSim (p : Vec F S1x1024x128 .f32) (y : S1x1024x128.Idx) :
    ∃ pc ∈ ([⟨rSim, p⟩] : List (View.Piece (Elt F) S1x1024x128 .f32)), y ∈ pc.1.set :=
  View.cover_of_tiled [⟨rSim, p⟩] S1x1024x128.size (by rfl) y
theorem coverConf (p : Vec F S1x1024x1 .f32) (y : S1x1024x1.Idx) :
    ∃ pc ∈ ([⟨rConf, p⟩] : List (View.Piece (Elt F) S1x1024x1 .f32)), y ∈ pc.1.set :=
  View.cover_of_tiled [⟨rConf, p⟩] S1x1024x1.size (by rfl) y

/-! ## The body's triple -/

set_option maxHeartbeats 4000000 in
/-- The body, run on whole staging buffers — the eleven inputs' at contents `x`, `wsem`, …, the five outputs' at
    anything — returns with the inputs' as they were and each output's at its function of the inputs above. -/
theorem body_spec (c : Dev nD) (E : Set ℕ) (i : grid0.Coords)
    (arg2 : Memref sig .tc .vmem S1x1024x256 .f32) (harg2 : arg2.IsWhole) (arg3 : Memref sig .tc .vmem S256x128 .f32) (harg3 : arg3.IsWhole)
    (arg4 : Memref sig .tc .vmem S128 .f32) (harg4 : arg4.IsWhole) (arg5 : Memref sig .tc .vmem S128x50 .f32) (harg5 : arg5.IsWhole)
    (arg6 : Memref sig .tc .vmem S50 .f32) (harg6 : arg6.IsWhole) (arg7 : Memref sig .tc .vmem S256x128 .f32) (harg7 : arg7.IsWhole)
    (arg8 : Memref sig .tc .vmem S128 .f32) (harg8 : arg8.IsWhole) (arg9 : Memref sig .tc .vmem S256x128 .f32) (harg9 : arg9.IsWhole)
    (arg10 : Memref sig .tc .vmem S128 .f32) (harg10 : arg10.IsWhole) (arg11 : Memref sig .tc .vmem S128x1 .f32) (harg11 : arg11.IsWhole)
    (arg12 : Memref sig .tc .vmem S1 .f32) (harg12 : arg12.IsWhole) (arg13 : Memref sig .tc .vmem S1x1024x50 .f32) (harg13 : arg13.IsWhole)
    (arg14 : Memref sig .tc .vmem S1x1024x50 .f32) (harg14 : arg14.IsWhole) (arg15 : Memref sig .tc .vmem S1x1024x128 .f32) (harg15 : arg15.IsWhole)
    (arg16 : Memref sig .tc .vmem S1x1024x1 .f32) (harg16 : arg16.IsWhole) (arg17 : Memref sig .tc .vmem S1x1024x1 .f32) (harg17 : arg17.IsWhole)
    (x : Vec F S1x1024x256 .f32) (wsem : Vec F S256x128 .f32) (bsem : Vec F S128 .f32) (wseg : Vec F S128x50 .f32) (bseg : Vec F S50 .f32)
    (wsim : Vec F S256x128 .f32) (bsim : Vec F S128 .f32) (wconf : Vec F S256x128 .f32) (bconf : Vec F S128 .f32)
    (wcl : Vec F S128x1 .f32) (bcl : Vec F S1 .f32) (K : PUnit → sProp 𝕄) :
    iprop(owns (c : Thread nD τ) arg2 fullShare x ∗ owns (c : Thread nD τ) arg3 fullShare wsem ∗ owns (c : Thread nD τ) arg4 fullShare bsem
        ∗ owns (c : Thread nD τ) arg5 fullShare wseg ∗ owns (c : Thread nD τ) arg6 fullShare bseg
        ∗ owns (c : Thread nD τ) arg7 fullShare wsim ∗ owns (c : Thread nD τ) arg8 fullShare bsim
        ∗ owns (c : Thread nD τ) arg9 fullShare wconf ∗ owns (c : Thread nD τ) arg10 fullShare bconf
        ∗ owns (c : Thread nD τ) arg11 fullShare wcl ∗ owns (c : Thread nD τ) arg12 fullShare bcl
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d)
        ∗ (iprop(owns (c : Thread nD τ) arg2 fullShare x ∗ owns (c : Thread nD τ) arg3 fullShare wsem ∗ owns (c : Thread nD τ) arg4 fullShare bsem
            ∗ owns (c : Thread nD τ) arg5 fullShare wseg ∗ owns (c : Thread nD τ) arg6 fullShare bseg
            ∗ owns (c : Thread nD τ) arg7 fullShare wsim ∗ owns (c : Thread nD τ) arg8 fullShare bsim
            ∗ owns (c : Thread nD τ) arg9 fullShare wconf ∗ owns (c : Thread nD τ) arg10 fullShare bconf
            ∗ owns (c : Thread nD τ) arg11 fullShare wcl ∗ owns (c : Thread nD τ) arg12 fullShare bcl
            ∗ owns (c : Thread nD τ) arg13 fullShare (segLogitsBlk x wsem bsem wseg bseg)
            ∗ owns (c : Thread nD τ) arg14 fullShare (segProbsBlk x wsem bsem wseg bseg)
            ∗ owns (c : Thread nD τ) arg15 fullShare (simFeatsBlk x wsim bsim)
            ∗ owns (c : Thread nD τ) arg16 fullShare (confsBlk x wconf bconf wcl bcl)
            ∗ owns (c : Thread nD τ) arg17 fullShare (confLogitsBlk x wconf bconf wcl bcl)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__proj_kernel_eq_skeleton]; unfold cc0__proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩,
    ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverSeg _)
  isplitl [H14]
  · iexists _; isplitr
    swap; · iexact H14
    ipureintro
    exact View.read_writes_eq_canon _ _ _ (coverSeg _)
  isplitl [H15]
  · iexists _; isplitr
    swap; · iexact H15
    ipureintro
    refine (View.read_writes_eq_canon _ _ _ (coverSim _)).trans ?_
    sl_unfold_run_names
    rfl
  isplitl [H16]
  · iexists _; isplitr
    swap; · iexact H16
    ipureintro
    refine (View.read_writes_eq_canon _ _ _ (coverConf _)).trans ?_
    sl_unfold_run_names
    rfl
  iexists _; isplitr
  swap; · iexact H17
  ipureintro
  refine (View.read_writes_eq_canon _ _ _ (coverConf _)).trans ?_
  sl_unfold_run_names
  rfl

/-! ## The blocks the launch hands the body, and the proof data -/

section Data

-- the core's buffer contents when the launch is entered
variable (V : (c : Dev nD) → (b : Ref sig .tc) → Buf (Elt F) ((c : Thread nD τ).loc b))

/-- Window `w`'s block at point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What each window's staging buffer holds after the body at point `t`: an input's its block, an output's the
    body's function of the eleven input blocks. The arrays are as the launch finds them; the invariant is the scoped
    buffers no window stages and the generator register, untouched; nothing is owed; every array is held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => segLogitsBlk (blk V c 0 t) (blk V c 1 t) (blk V c 2 t) (blk V c 3 t) (blk V c 4 t)
    | ⟨12, _⟩ => segProbsBlk (blk V c 0 t) (blk V c 1 t) (blk V c 2 t) (blk V c 3 t) (blk V c 4 t)
    | ⟨13, _⟩ => simFeatsBlk (blk V c 0 t) (blk V c 5 t) (blk V c 6 t)
    | ⟨14, _⟩ => confsBlk (blk V c 0 t) (blk V c 7 t) (blk V c 8 t) (blk V c 9 t) (blk V c 10 t)
    | ⟨15, _⟩ => confLogitsBlk (blk V c 0 t) (blk V c 7 t) (blk V c 8 t) (blk V c 9 t) (blk V c 10 t)
    | ⟨_ + 16, h⟩ => absurd h (Nat.not_lt.2 (Nat.le_add_left _ _))
  Φ _ := Pipeline.ΦA spec0 c
  q _ := fullShare
  owed _ := 0

theorem dat_A (c : Dev nD) (w : Fin cfg0.W) : (dat V c).A w = V c (Pipeline.arrRef spec0 w) := by dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = blk V c 9 t := by dsimp only [dat]
theorem after_10 (c : Dev nD) (t : Fin cfg0.N) : (dat V c).after 10 t = blk V c 10 t := by dsimp only [dat]
theorem after_11 (c : Dev nD) (t : Fin cfg0.N) : (dat V c).after 11 t = segLogitsBlk (blk V c 0 t) (blk V c 1 t) (blk V c 2 t) (blk V c 3 t) (blk V c 4 t) := by dsimp only [dat]
theorem after_12 (c : Dev nD) (t : Fin cfg0.N) : (dat V c).after 12 t = segProbsBlk (blk V c 0 t) (blk V c 1 t) (blk V c 2 t) (blk V c 3 t) (blk V c 4 t) := by dsimp only [dat]
theorem after_13 (c : Dev nD) (t : Fin cfg0.N) : (dat V c).after 13 t = simFeatsBlk (blk V c 0 t) (blk V c 5 t) (blk V c 6 t) := by dsimp only [dat]
theorem after_14 (c : Dev nD) (t : Fin cfg0.N) : (dat V c).after 14 t = confsBlk (blk V c 0 t) (blk V c 7 t) (blk V c 8 t) (blk V c 9 t) (blk V c 10 t) := by dsimp only [dat]
theorem after_15 (c : Dev nD) (t : Fin cfg0.N) : (dat V c).after 15 t = confLogitsBlk (blk V c 0 t) (blk V c 7 t) (blk V c 8 t) (blk V c 9 t) (blk V c 10 t) := by dsimp only [dat]

/-- An input window's current staging buffer holds its block at every point, whether the point fetches it or not:
    a window whose block index did not move keeps what the earlier fetch brought. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem before_7 (c : Dev nD) (t : Fin cfg0.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)
theorem before_8 (c : Dev nD) (t : Fin cfg0.N) (d) : (dat V c).before 8 t d = blk V c 8 t :=
  ((dat V c).before_in_eq_fetched 8 rfl (fun _ => rfl) (fun _ _ _ => rfl)
    (fun t => by rw [after_8]; unfold Dat.blockOf blk; rw [dat_A]; try rfl) t d).trans
    (by unfold Dat.fetched Dat.blockOf blk; rw [dat_A]; try rfl)
theorem before_9 (c : Dev nD) (t : Fin cfg0.N) (d) : (dat V c).before 9 t d = blk V c 9 t :=
  ((dat V c).before_in_eq_fetched 9 rfl (fun _ => rfl) (fun _ _ _ => rfl)
    (fun t => by rw [after_9]; unfold Dat.blockOf blk; rw [dat_A]; try rfl) t d).trans
    (by unfold Dat.fetched Dat.blockOf blk; rw [dat_A]; try rfl)
theorem before_10 (c : Dev nD) (t : Fin cfg0.N) (d) : (dat V c).before 10 t d = blk V c 10 t :=
  ((dat V c).before_in_eq_fetched 10 rfl (fun _ => rfl) (fun _ _ _ => rfl)
    (fun t => by rw [after_10]; unfold Dat.blockOf blk; rw [dat_A]; try rfl) t d).trans
    (by unfold Dat.fetched Dat.blockOf blk; rw [dat_A]; try rfl)

/-! ## The body obligation -/

set_option maxHeartbeats 2000000 in
/-- The body at any point: handed the inputs' blocks, it leaves what the proof data say; the invariant and the
    core's dues pass through unread. -/
theorem body_at (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d))
      ∗ (∃ d, owns (c : Thread nD τ) (st0_6 t) fullShare ((dat V c).before 6 t d))
      ∗ (∃ d, owns (c : Thread nD τ) (st0_7 t) fullShare ((dat V c).before 7 t d))
      ∗ (∃ d, owns (c : Thread nD τ) (st0_8 t) fullShare ((dat V c).before 8 t d))
      ∗ (∃ d, owns (c : Thread nD τ) (st0_9 t) fullShare ((dat V c).before 9 t d))
      ∗ (∃ d, owns (c : Thread nD τ) (st0_10 t) fullShare ((dat V c).before 10 t d))
      ∗ (∃ d, owns (c : Thread nD τ) (st0_11 t) fullShare ((dat V c).before 11 t d))
      ∗ (∃ d, owns (c : Thread nD τ) (st0_12 t) fullShare ((dat V c).before 12 t d))
      ∗ (∃ d, owns (c : Thread nD τ) (st0_13 t) fullShare ((dat V c).before 13 t d))
      ∗ (∃ d, owns (c : Thread nD τ) (st0_14 t) fullShare ((dat V c).before 14 t d))
      ∗ (∃ d, owns (c : Thread nD τ) (st0_15 t) fullShare ((dat V c).before 15 t d)))
    ⊢ wp frame (wpE (defs₀ (F := F)) Variants.none c none) Set.univ (bodyAt0 t) (fun _ => iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ owns (c : Thread nD τ) (st0_2 t) fullShare ((dat V c).after 2 t)
      ∗ owns (c : Thread nD τ) (st0_3 t) fullShare ((dat V c).after 3 t)
      ∗ owns (c : Thread nD τ) (st0_4 t) fullShare ((dat V c).after 4 t)
      ∗ owns (c : Thread nD τ) (st0_5 t) fullShare ((dat V c).after 5 t)
      ∗ owns (c : Thread nD τ) (st0_6 t) fullShare ((dat V c).after 6 t)
      ∗ owns (c : Thread nD τ) (st0_7 t) fullShare ((dat V c).after 7 t)
      ∗ owns (c : Thread nD τ) (st0_8 t) fullShare ((dat V c).after 8 t)
      ∗ owns (c : Thread nD τ) (st0_9 t) fullShare ((dat V c).after 9 t)
      ∗ owns (c : Thread nD τ) (st0_10 t) fullShare ((dat V c).after 10 t)
      ∗ owns (c : Thread nD τ) (st0_11 t) fullShare ((dat V c).after 11 t)
      ∗ owns (c : Thread nD τ) (st0_12 t) fullShare ((dat V c).after 12 t)
      ∗ owns (c : Thread nD τ) (st0_13 t) fullShare ((dat V c).after 13 t)
      ∗ owns (c : Thread nD τ) (st0_14 t) fullShare ((dat V c).after 14 t)
      ∗ owns (c : Thread nD τ) (st0_15 t) fullShare ((dat V c).after 15 t))) := by
  unfold bodyAt0
  simp only [before_0, before_1, before_2, before_3, before_4, before_5, before_6, before_7, before_8, before_9, before_10]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    ⟨%d11, H11⟩, ⟨%d12, H12⟩, ⟨%d13, H13⟩, ⟨%d14, H14⟩, ⟨%d15, H15⟩⟩
  iapply (body_spec c Set.univ (grid0.coords t) _ _ _ _ _ _ _ _ _ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) (blk V c 9 t) (blk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The launch rule's obligation on the body, at every point. -/
theorem body_obligation (c : Dev nD) : BodyObligation (dat (F := F) V c) (defs₀ (F := F)) Variants.none () Set.univ := fun t => by
  rw [bigSep_W0, bigSep_W0]
  exact body_at V c t

end Data

end Cert.KernelIdeal.Heads0

end
-- ==== Proof.DistLaunch.lean ====
/-
  The second launch, one grid point at a time. The grid has 4 × 4 × 4 points; point (b, i, j) is handed two
  [1, 1024, 128] blocks of ONE array, the similarity features the first launch wrote — rows 1024·i … of batch b
  (window 0) and rows 1024·j … of batch b (window 1) — and one [1, 1024, 1024] output block (window 2) that it
  overwrites whole with the scaled, clamped squared distances between the rows of the two blocks.
  Here: what the body leaves in the output block as a function of the two input blocks, that the body run on those
  blocks does leave it, and the bookkeeping the launch rule asks of every window at every point. The two input
  windows read the same array, so each holds half of the share of it. Stated for any float interpretation `F`.
-/
import proofs.«118794_j27084063768631_1_alg».proof.Proof.Gen.KernelIdeal.Launch
import proofs.«118794_j27084063768631_1_alg».proof.Proof.Gen.KernelIdeal.Skeleton
import proofs.«118794_j27084063768631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Dist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rRows : Rect S1x1024x128 := Rect.unit (s := S1x1024x128) ![0, 0, 0] S1x1024x128.size inb_S1x1024x128_S1x1024x128_0_0_0
abbrev rDist : Rect S1x1024x1024 := Rect.unit (s := S1x1024x1024) ![0, 0, 0] S1x1024x1024.size inb_S1x1024x1024_S1x1024x1024_0_0_0

/-! ## What the body leaves in the output block -/

/-- The distances between the rows of the two blocks. -/
def distBlk (fi fj : Vec F S1x1024x128 .f32) : Vec F S1x1024x1024 .f32 :=
  View.canon [⟨rDist, k1_pay1 (View.ld fi rRows) (View.ld fj rRows)⟩]

/-- One store through the whole-buffer rectangle covers the buffer. -/
theorem coverDist (p : Vec F S1x1024x1024 .f32) (y : S1x1024x1024.Idx) :
    ∃ pc ∈ ([⟨rDist, p⟩] : List (View.Piece (Elt F) S1x1024x1024 .f32)), y ∈ pc.1.set :=
  View.cover_of_tiled [⟨rDist, p⟩] S1x1024x1024.size (by rfl) y

/-! ## The body's triple -/

set_option maxHeartbeats 4000000 in
/-- The body, run on whole staging buffers — the two inputs' at contents `fi`, `fj`, the output's at anything —
    returns with the inputs' as they were and the output's at the distances between their rows. -/
theorem body_spec (c : Dev nD) (E : Set ℕ) (i : grid1.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x1024 .f32) (harg5 : arg5.IsWhole)
    (fi fj : Vec F S1x1024x128 .f32) (K : PUnit → sProp 𝕄) :
    iprop(owns (c : Thread nD τ) arg3 fullShare fi ∗ owns (c : Thread nD τ) arg4 fullShare fj ∗ (∃ d, owns (c : Thread nD τ) arg5 fullShare d)
        ∗ (iprop(owns (c : Thread nD τ) arg3 fullShare fi ∗ owns (c : Thread nD τ) arg4 fullShare fj
            ∗ owns (c : Thread nD τ) arg5 fullShare (distBlk fi fj)) -∗ K ⟨⟩))
      ⊢ wp frame (wpE (defs₀ (F := F)) Variants.none c none) E (cc1__dist_kernel i arg3 harg3 arg4 harg4 arg5 harg5) K := by
  simp only [cc1__dist_kernel_eq_skeleton]; unfold cc1__dist_kernel_skel
  unfold owns
  iintro ⟨⟨%f3, %hf3, H3⟩, ⟨%f4, %hf4, H4⟩, ⟨%d5, %f5, -, H5⟩, Hk⟩
  subst hf3 hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverDist _)

/-! ## The blocks the launch hands the body, and the proof data -/

section Data

-- the core's buffer contents when the launch is entered
variable (V : (c : Dev nD) → (b : Ref sig .tc) → Buf (Elt F) ((c : Thread nD τ).loc b))

/-- Window `w`'s block at point `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t` each input's staging buffer holds its block and the output's the distances between
    the two blocks' rows. The arrays are as the launch finds them; the two input windows read ONE array, of which
    each holds one half of the share, the output's array is held whole; the invariant is the scoped buffers no window
    stages and the generator register, untouched; nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => distBlk (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = distBlk (blk V c 0 t) (blk V c 1 t) := by dsimp only [dat]

/-- The shares: the two readers of the feature array hold its two halves, the output's array is held whole. -/
theorem share_0 (c : Dev nD) : (dat V c).share 0 = fullShare.left := by unfold Dat.share; dsimp only [dat]; rfl
theorem share_1 (c : Dev nD) : (dat V c).share 1 = fullShare.right := by unfold Dat.share; dsimp only [dat]; rfl
theorem share_2 (c : Dev nD) : (dat V c).share 2 = fullShare := by unfold Dat.share; rfl

/-- An input window's current staging buffer holds its block at every point, whether the point fetches it or not:
    the row block moves every fourth point and keeps what the earlier fetch brought in between. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-! ## The body obligation -/

set_option maxHeartbeats 2000000 in
/-- The body at any point: handed the two blocks, it leaves what the proof data say; the invariant and the core's
    dues pass through unread. -/
theorem body_at (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d)))
    ⊢ wp frame (wpE (defs₀ (F := F)) Variants.none c none) Set.univ (bodyAt1 t) (fun _ => iprop((dat V c).Φ t.succ ∗ (dat V c).owesAt () t.succ
      ∗ owns (c : Thread nD τ) (st1_0 t) fullShare ((dat V c).after 0 t)
      ∗ owns (c : Thread nD τ) (st1_1 t) fullShare ((dat V c).after 1 t)
      ∗ owns (c : Thread nD τ) (st1_2 t) fullShare ((dat V c).after 2 t))) := by
  unfold bodyAt1
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (body_spec c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's obligation on the body, at every point. -/
theorem body_obligation (c : Dev nD) : BodyObligation (dat (F := F) V c) (defs₀ (F := F)) Variants.none () Set.univ := fun t => by
  rw [bigSep_W1, bigSep_W1]
  exact body_at V c t

end Data

end Cert.KernelIdeal.Dist1

end
-- ==== Proof.TwoLaunches.lean ====
/-
  The whole program, launch after launch. On every core: one host step (the input [4, 4096, 1, 256] re-laid as
  [4, 4096, 256]), the first launch (the per-point heads: five result arrays, among them the similarity features),
  the second launch (the pairwise distances, read off the similarity features through two windows of that one array).
  Here the buffer contents at each of the four boundaries are named — the launch memory; after the host step; after
  the first launch, its five output arrays at what its sixteen write-backs leave; after the second launch, the
  distance array at what its sixty-four write-backs leave — and the program is shown to run from the first to the
  last: every weakly fair execution terminates, and every unscoped buffer ends at the last boundary's contents.
  Stated for any float interpretation `F`.
-/
import proofs.«118794_j27084063768631_1_alg».proof.Proof.HeadsLaunch
import proofs.«118794_j27084063768631_1_alg».proof.Proof.DistLaunch
import proofs.«118794_j27084063768631_1_alg».proof.Proof.Gen.KernelIdeal.Regions

set_option maxRecDepth 16384

noncomputable section

namespace Cert.KernelIdeal.Launches

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 (c : Dev nD) : Valuation τ sig (Elt F) := fun b => m (c, b)
/-- After the host step. -/
abbrev W1 (c : Dev nD) : Valuation τ sig (Elt F) := StableHlo.after hostOps0 (W0 m c)
/-- The same at the TensorCore's references: what the first launch finds. -/
abbrev atHeads : (c : Dev nD) → (b : Ref sig .tc) → Buf (Elt F) ((c : Thread nD τ).loc b) := fun c b => W1 m c b
/-- After the first launch: each of its windows' arrays at what the launch leaves there (an input's as found, an
    output's after the sixteen write-backs), every other buffer as found. -/
def W2 (c : Dev nD) : Valuation τ sig (Elt F) :=
  Pipeline.withArrays spec0 c (W1 m c) fun w => (Heads0.dat (atHeads m) c).arrAt w cfg0.N
theorem W2_arr (c : Dev nD) (w : Fin cfg0.W) :
    W2 m c (Proc.devRef .tc (Pipeline.arrRef spec0 w)) = (Heads0.dat (atHeads m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references: what the second launch finds. -/
abbrev atDist : (c : Dev nD) → (b : Ref sig .tc) → Buf (Elt F) ((c : Thread nD τ).loc b) := fun c b => W2 m c b
/-- After the second launch: the distance array at what the sixty-four write-backs leave, every other buffer as
    found (the feature array is only read). -/
def W3 (c : Dev nD) : Valuation τ sig (Elt F) :=
  Function.update (W2 m c) (Proc.devRef .tc main_v2) ((Dist1.dat (atDist m) c).arrAt 2 cfg1.N)
theorem W3_dist (c : Dev nD) : W3 m c (Proc.devRef .tc main_v2) = (Dist1.dat (atDist m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..
abbrev atEnd : (c : Dev nD) → (b : Ref sig .tc) → Buf (Elt F) ((c : Thread nD τ).loc b) := fun c b => W3 m c b

/-! ## The arguments end as launched -/

/-- A buffer the host step, the first launch's outputs and the distance array all leave alone ends as launched. -/
theorem W3_kept (c : Dev nD) (b : Ref sig .tc) (h3 : b ≠ main_v2) (h2 : W2 m c (Proc.devRef .tc b) = W1 m c (Proc.devRef .tc b))
    (h1 : b ∉ hostOps0_W) : W3 m c (Proc.devRef .tc b) = m ((c : Thread nD τ).loc b) :=
  (W3_of_ne m c b h3).trans (h2.trans ((V1_of m c b h1).trans rfl))

/-- An input window's array is as the first launch found it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Heads0.dat (atHeads m) c).arrAt_in w hin _).trans (Heads0.dat_A (atHeads m) c w))

theorem W3_main_arg0 (c : Dev nD) : W3 m c (Proc.devRef .tc main_arg0) = m ((c : Thread nD τ).loc main_arg0) :=
  W3_kept m c main_arg0 (by decide) (W2_of_ne m c main_arg0 (by decide)) (by decide)
theorem W3_main_arg1 (c : Dev nD) : W3 m c (Proc.devRef .tc main_arg1) = m ((c : Thread nD τ).loc main_arg1) :=
  W3_kept m c main_arg1 (by decide) (W2_in m c 1 rfl) (by decide)
theorem W3_main_arg2 (c : Dev nD) : W3 m c (Proc.devRef .tc main_arg2) = m ((c : Thread nD τ).loc main_arg2) :=
  W3_kept m c main_arg2 (by decide) (W2_in m c 2 rfl) (by decide)
theorem W3_main_arg3 (c : Dev nD) : W3 m c (Proc.devRef .tc main_arg3) = m ((c : Thread nD τ).loc main_arg3) :=
  W3_kept m c main_arg3 (by decide) (W2_in m c 3 rfl) (by decide)
theorem W3_main_arg4 (c : Dev nD) : W3 m c (Proc.devRef .tc main_arg4) = m ((c : Thread nD τ).loc main_arg4) :=
  W3_kept m c main_arg4 (by decide) (W2_in m c 4 rfl) (by decide)
theorem W3_main_arg5 (c : Dev nD) : W3 m c (Proc.devRef .tc main_arg5) = m ((c : Thread nD τ).loc main_arg5) :=
  W3_kept m c main_arg5 (by decide) (W2_in m c 5 rfl) (by decide)
theorem W3_main_arg6 (c : Dev nD) : W3 m c (Proc.devRef .tc main_arg6) = m ((c : Thread nD τ).loc main_arg6) :=
  W3_kept m c main_arg6 (by decide) (W2_in m c 6 rfl) (by decide)
theorem W3_main_arg7 (c : Dev nD) : W3 m c (Proc.devRef .tc main_arg7) = m ((c : Thread nD τ).loc main_arg7) :=
  W3_kept m c main_arg7 (by decide) (W2_in m c 7 rfl) (by decide)
theorem W3_main_arg8 (c : Dev nD) : W3 m c (Proc.devRef .tc main_arg8) = m ((c : Thread nD τ).loc main_arg8) :=
  W3_kept m c main_arg8 (by decide) (W2_in m c 8 rfl) (by decide)
theorem W3_main_arg9 (c : Dev nD) : W3 m c (Proc.devRef .tc main_arg9) = m ((c : Thread nD τ).loc main_arg9) :=
  W3_kept m c main_arg9 (by decide) (W2_in m c 9 rfl) (by decide)
theorem W3_main_arg10 (c : Dev nD) : W3 m c (Proc.devRef .tc main_arg10) = m ((c : Thread nD τ).loc main_arg10) :=
  W3_kept m c main_arg10 (by decide) (W2_in m c 10 rfl) (by decide)

/-! ## The proof data of both launches, and what rides beside the buffers -/

/-- Each launch's proof data at the contents its launch finds. -/
def pdats : (p : Fin 2) → (c : Dev nD) → Dat τ (Elt F) Unit ℕ (UR sig nD τ) ℕ (Pipeline.pin (pcfgs (F := F)) adm p) c
  | ⟨0, _⟩ => fun c => Heads0.dat (atHeads m) c
  | ⟨1, _⟩ => fun c => Dist1.dat (atDist m) c

abbrev 𝒱₀ : Variants := Variants.none
/-- No core waits for another: no level is assigned. -/
abbrev L : GSem nD τ sig → Finset Unit := fun _ => ∅
abbrev lv : GSem nD τ sig → Unit → ℕ := fun _ _ => 0

/-- Beside the buffers: the core's generator register at some state, and its dues, none. -/
abbrev R (c : Dev nD) : sProp 𝕄 := iprop((∃ r, prngReg c r) ∗ ∃ W, owes (c : Thread nD τ) (0 : CellTallies nD τ sig Unit) W)

/-- The host step as a segment over every unscoped buffer. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the dues. -/
abbrev Tₙ (c : Dev nD) : sProp 𝕄 := iprop(StableHlo.held (c : Thread nD τ) (Pipeline.ucRefs τ sig) (W3 m c) ∗ ∃ r, prngReg c r)

/-! ## The first launch as a segment -/

theorem hF0 (c : Dev nD) (w : Fin cfg0.W) : (Heads0.dat (atHeads m) c).arrAt w cfg0.N = atDist m c (Pipeline.arrRef spec0 w) :=
  (W2_arr m c w).symm
theorem hrest0 (c : Dev nD) : ∀ b, b ∉ Finset.univ.image (Pipeline.arrRef spec0) → atDist m c b = atHeads m c b :=
  fun b hb => W2_of_ne m c b fun w e => hb (Finset.mem_image.mpr ⟨w, Finset.mem_univ _, e⟩)

set_option backward.isDefEq.respectTransparency.types false in
/-- The first launch: entered with every unscoped buffer at the contents after the host step, left with them at
    `W2`. Its sixteen arrays are taken out of the unscoped buffers at entry and put back at exit; the generator
    register goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Heads0.body_obligation (atHeads m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atHeads m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atHeads m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atHeads m c) (atDist m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

/-- ENTRY. The two buffers behind the second launch's arrays, each held whole, are its three windows' arrays at the
    contents the launch finds: the feature array's share is split in two, one half for each of the two windows that
    read it; the distance array stays whole. -/
theorem dist_entry (c : Dev nD) :
    (Pipeline.arrBufs (Ix := Unit) (Name := ℕ) (U := UR sig nD τ) (Lvl := ℕ) spec1 c (atDist m c) : sProp 𝕄)
      ⊢ (Dist1.dat (atDist m) c).arrays ((Dist1.dat (atDist m) c).arrAt · 0) := by
  unfold Pipeline.arrBufs Dat.arrays
  rw [bigSep_eq_bigSepL_of_eq [main_v1_2, main_v2] (by decide) (by decide), bigSep_W1,
    Dist1.share_0, Dist1.share_1, Dist1.share_2,
    (arr_whole1 0).set_eq_univ, (arr_whole1 2).set_eq_univ]
  show iprop((((c : Thread nD τ).loc main_v1_2) ↦{fullShare} atDist m c main_v1_2) ∗ (((c : Thread nD τ).loc main_v2) ↦{fullShare} atDist m c main_v2)) ⊢ _
  iintro ⟨Hf, Hd⟩
  ihave Hs := (pointsTo_share (PosShare.mem_left_op_right fullShare)).1 $$ Hf
  icases Hs with ⟨Hl, Hr⟩
  isplitl [Hl]; · iexact Hl
  isplitl [Hr]; · iexact Hr
  iexact Hd

/-- EXIT. The three windows' arrays after the last write-back — the two halves of the feature array, unchanged, and the
    distance array — are the two buffers behind them held whole at the last boundary's contents. -/
theorem dist_exit (c : Dev nD) :
    (Dist1.dat (atDist m) c).arrays ((Dist1.dat (atDist m) c).arrAt · cfg1.N)
      ⊢ (Pipeline.arrBufs (Ix := Unit) (Name := ℕ) (U := UR sig nD τ) (Lvl := ℕ) spec1 c (atEnd m c) : sProp 𝕄) := by
  unfold Pipeline.arrBufs Dat.arrays
  rw [bigSep_eq_bigSepL_of_eq [main_v1_2, main_v2] (by decide) (by decide), bigSep_W1,
    Dist1.share_0, Dist1.share_1, Dist1.share_2,
    (arr_whole1 0).set_eq_univ, (arr_whole1 2).set_eq_univ]
  beta_reduce
  rw [(Dist1.dat (atDist m) c).arrAt_in 0 rfl, (Dist1.dat (atDist m) c).arrAt_in 1 rfl, Dist1.dat_A, Dist1.dat_A]
  show _ ⊢ iprop((((c : Thread nD τ).loc main_v1_2) ↦{fullShare} atEnd m c main_v1_2) ∗ (((c : Thread nD τ).loc main_v2) ↦{fullShare} atEnd m c main_v2))
  rw [show atEnd m c main_v1_2 = atDist m c main_v1_2 from W3_of_ne m c main_v1_2 (by decide),
    show atEnd m c main_v2 = (Dist1.dat (atDist m) c).arrAt 2 cfg1.N from W3_dist m c]
  iintro ⟨Hl, Hr, Hd⟩
  isplitl [Hl Hr]
  · iapply (pointsTo_share (PosShare.mem_left_op_right fullShare)).2
    isplitl [Hl]; · iexact Hl
    iexact Hr
  iexact Hd

/-- Off the second launch's arrays the last boundary's contents are the ones the launch found. -/
theorem dist_rest (c : Dev nD) :
    (Pipeline.unscopedRest (Ix := Unit) (Name := ℕ) (U := UR sig nD τ) (Lvl := ℕ) spec1 c (atDist m c) : sProp 𝕄)
      = Pipeline.unscopedRest spec1 c (atEnd m c) := by
  unfold Pipeline.unscopedRest
  refine bigSep_congr fun b hb => ?_
  have hne : b ≠ main_v2 := fun e => (Finset.mem_sdiff.mp hb).2 (Finset.mem_image.mpr ⟨2, Finset.mem_univ _, e.symm⟩)
  rw [show atEnd m c b = atDist m c b from W3_of_ne m c b hne]

set_option backward.isDefEq.respectTransparency.types false in
/-- The second launch: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Dist1.body_obligation (atDist m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atDist m c)
  hentry c := by
    rw [Pipeline.ownSems0_none]
    have hsplit : (unscopedBufs c (atDist m c) : sProp 𝕄) ⊢ iprop((Dist1.dat (atDist m) c).arrays ((Dist1.dat (atDist m) c).arrAt · 0)
        ∗ Pipeline.unscopedRest (Ix := Unit) (Name := ℕ) (U := UR sig nD τ) (Lvl := ℕ) spec1 c (atDist m c)) := by
      rw [Pipeline.unscopedBufs_split₀ (cfgs := cfgs) (p := (1 : Fin 2)) winFacts₀1.arr_unscoped c (atDist m c)]
      exact sep_mono (dist_entry m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((Dist1.dat (atDist m) c).arrays ((Dist1.dat (atDist m) c).arrAt · cfg1.N)
        ∗ Pipeline.unscopedRest (Ix := Unit) (Name := ℕ) (U := UR sig nD τ) (Lvl := ℕ) spec1 c (atDist m c)) ⊢ (unscopedBufs c (atEnd m c) : sProp 𝕄) := by
      rw [Pipeline.unscopedBufs_split₀ (cfgs := cfgs) (p := (1 : Fin 2)) winFacts₀1.arr_unscoped c (atEnd m c), dist_rest m c]
      exact sep_mono (dist_exit m c) .rfl
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .host (hostSeg m), .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME. Every weakly fair execution terminates, nothing faulting, and each of the eleven argument arrays ends
    as launched: the run, read at the arguments' buffers. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.KernelIdeal.Launches

end
-- ==== Proof.Bits.HeadsLaunch.lean ====
/-
  The first launch, one grid point at a time. The grid has 4 × 4 points; point (b, i) is handed rows
  1024·i … 1024·i + 1023 of batch b of the point features (window 0, a [1, 1024, 256] block), the ten weight and bias
  arrays whole (windows 1–10), and five output blocks (windows 11–15) that it overwrites whole: the segment logits,
  the segment probabilities, the similarity features, the confidences and the confidence logits of those 1024 points.
  Here: what the body leaves in each output block as a function of the eleven input blocks, that the body run
  on those blocks does leave it (and leaves the inputs alone), and the bookkeeping the launch rule asks of every
  window at every point. Everything is stated for any float interpretation `F`; this copy speaks of the program as printed at the word level.
-/
import proofs.«118794_j27084063768631_1_alg».proof.Proof.Gen.Kernel.Launch
import proofs.«118794_j27084063768631_1_alg».proof.Proof.Gen.Kernel.Skeleton
import proofs.«118794_j27084063768631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Heads0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S1x1024x256 := Rect.unit (s := S1x1024x256) ![0, 0, 0] S1x1024x256.size inb_S1x1024x256_S1x1024x256_0_0_0
abbrev rW : Rect S256x128 := Rect.unit (s := S256x128) ![0, 0] S256x128.size inb_S256x128_S256x128_0_0
abbrev rB : Rect S128 := Rect.unit (s := S128) ![0] S128.size inb_S128_S128_0
abbrev rWseg : Rect S128x50 := Rect.unit (s := S128x50) ![0, 0] S128x50.size inb_S128x50_S128x50_0_0
abbrev rBseg : Rect S50 := Rect.unit (s := S50) ![0] S50.size inb_S50_S50_0
abbrev rWcl : Rect S128x1 := Rect.unit (s := S128x1) ![0, 0] S128x1.size inb_S128x1_S128x1_0_0
abbrev rBcl : Rect S1 := Rect.unit (s := S1) ![0] S1.size inb_S1_S1_0
abbrev rSeg : Rect S1x1024x50 := Rect.unit (s := S1x1024x50) ![0, 0, 0] S1x1024x50.size inb_S1x1024x50_S1x1024x50_0_0_0
abbrev rSim : Rect S1x1024x128 := Rect.unit (s := S1x1024x128) ![0, 0, 0] S1x1024x128.size inb_S1x1024x128_S1x1024x128_0_0_0
abbrev rConf : Rect S1x1024x1 := Rect.unit (s := S1x1024x1) ![0, 0, 0] S1x1024x1.size inb_S1x1024x1_S1x1024x1_0_0_0

/-! ## What the body leaves in each output block, from the input blocks -/

/-- Segment logits of the block's 1024 points. -/
def segLogitsBlk (x : Vec F S1x1024x256 .f32) (wsem : Vec F S256x128 .f32) (bsem : Vec F S128 .f32)
    (wseg : Vec F S128x50 .f32) (bseg : Vec F S50 .f32) : Vec F S1x1024x50 .f32 :=
  View.canon [⟨rSeg, k0_pay7 (View.ld x rX) (View.ld wsem rW) (View.ld bsem rB) (View.ld wseg rWseg) (View.ld bseg rBseg)⟩]

/-- Segment probabilities of the block's points. -/
def segProbsBlk (x : Vec F S1x1024x256 .f32) (wsem : Vec F S256x128 .f32) (bsem : Vec F S128 .f32)
    (wseg : Vec F S128x50 .f32) (bseg : Vec F S50 .f32) : Vec F S1x1024x50 .f32 :=
  View.canon [⟨rSeg, k0_pay8 (View.ld x rX) (View.ld wsem rW) (View.ld bsem rB) (View.ld wseg rWseg) (View.ld bseg rBseg)⟩]

/-- Similarity features of the block's points. -/
def simFeatsBlk (x : Vec F S1x1024x256 .f32) (wsim : Vec F S256x128 .f32) (bsim : Vec F S128 .f32) : Vec F S1x1024x128 .f32 :=
  View.canon [⟨rSim, k0_pay1 (k0_pay5 (View.ld x rX)) (View.ld wsim rW) (View.ld bsim rB)⟩]

/-- Confidence logits of the block's points. -/
def confLogitsBlk (x : Vec F S1x1024x256 .f32) (wconf : Vec F S256x128 .f32) (bconf : Vec F S128 .f32)
    (wcl : Vec F S128x1 .f32) (bcl : Vec F S1 .f32) : Vec F S1x1024x1 .f32 :=
  View.canon [⟨rConf, k0_pay3 (k0_pay5 (View.ld x rX)) (View.ld wconf rW) (View.ld bconf rB) (View.ld wcl rWcl) (View.ld bcl rBcl)⟩]

/-- Confidences of the block's points. -/
def confsBlk (x : Vec F S1x1024x256 .f32) (wconf : Vec F S256x128 .f32) (bconf : Vec F S128 .f32)
    (wcl : Vec F S128x1 .f32) (bcl : Vec F S1 .f32) : Vec F S1x1024x1 .f32 :=
  View.canon [⟨rConf, k0_pay4 (k0_pay5 (View.ld x rX)) (View.ld wconf rW) (View.ld bconf rB) (View.ld wcl rWcl) (View.ld bcl rBcl)⟩]

/-- One store through the whole-buffer rectangle covers the buffer. -/
theorem coverSeg (p : Vec F S1x1024x50 .f32) (y : S1x1024x50.Idx) :
    ∃ pc ∈ ([⟨rSeg, p⟩] : List (View.Piece (Elt F) S1x1024x50 .f32)), y ∈ pc.1.set :=
  View.cover_of_tiled [⟨rSeg, p⟩] S1x1024x50.size (by rfl) y
theorem coverSim (p : Vec F S1x1024x128 .f32) (y : S1x1024x128.Idx) :
    ∃ pc ∈ ([⟨rSim, p⟩] : List (View.Piece (Elt F) S1x1024x128 .f32)), y ∈ pc.1.set :=
  View.cover_of_tiled [⟨rSim, p⟩] S1x1024x128.size (by rfl) y
theorem coverConf (p : Vec F S1x1024x1 .f32) (y : S1x1024x1.Idx) :
    ∃ pc ∈ ([⟨rConf, p⟩] : List (View.Piece (Elt F) S1x1024x1 .f32)), y ∈ pc.1.set :=
  View.cover_of_tiled [⟨rConf, p⟩] S1x1024x1.size (by rfl) y

/-! ## The body's triple -/

set_option maxHeartbeats 4000000 in
/-- The body, run on whole staging buffers — the eleven inputs' at contents `x`, `wsem`, …, the five outputs' at
    anything — returns with the inputs' as they were and each output's at its function of the inputs above. -/
theorem body_spec (c : Dev nD) (E : Set ℕ) (i : grid0.Coords)
    (arg2 : Memref sig .tc .vmem S1x1024x256 .f32) (harg2 : arg2.IsWhole) (arg3 : Memref sig .tc .vmem S256x128 .f32) (harg3 : arg3.IsWhole)
    (arg4 : Memref sig .tc .vmem S128 .f32) (harg4 : arg4.IsWhole) (arg5 : Memref sig .tc .vmem S128x50 .f32) (harg5 : arg5.IsWhole)
    (arg6 : Memref sig .tc .vmem S50 .f32) (harg6 : arg6.IsWhole) (arg7 : Memref sig .tc .vmem S256x128 .f32) (harg7 : arg7.IsWhole)
    (arg8 : Memref sig .tc .vmem S128 .f32) (harg8 : arg8.IsWhole) (arg9 : Memref sig .tc .vmem S256x128 .f32) (harg9 : arg9.IsWhole)
    (arg10 : Memref sig .tc .vmem S128 .f32) (harg10 : arg10.IsWhole) (arg11 : Memref sig .tc .vmem S128x1 .f32) (harg11 : arg11.IsWhole)
    (arg12 : Memref sig .tc .vmem S1 .f32) (harg12 : arg12.IsWhole) (arg13 : Memref sig .tc .vmem S1x1024x50 .f32) (harg13 : arg13.IsWhole)
    (arg14 : Memref sig .tc .vmem S1x1024x50 .f32) (harg14 : arg14.IsWhole) (arg15 : Memref sig .tc .vmem S1x1024x128 .f32) (harg15 : arg15.IsWhole)
    (arg16 : Memref sig .tc .vmem S1x1024x1 .f32) (harg16 : arg16.IsWhole) (arg17 : Memref sig .tc .vmem S1x1024x1 .f32) (harg17 : arg17.IsWhole)
    (x : Vec F S1x1024x256 .f32) (wsem : Vec F S256x128 .f32) (bsem : Vec F S128 .f32) (wseg : Vec F S128x50 .f32) (bseg : Vec F S50 .f32)
    (wsim : Vec F S256x128 .f32) (bsim : Vec F S128 .f32) (wconf : Vec F S256x128 .f32) (bconf : Vec F S128 .f32)
    (wcl : Vec F S128x1 .f32) (bcl : Vec F S1 .f32) (K : PUnit → sProp 𝕄) :
    iprop(owns (c : Thread nD τ) arg2 fullShare x ∗ owns (c : Thread nD τ) arg3 fullShare wsem ∗ owns (c : Thread nD τ) arg4 fullShare bsem
        ∗ owns (c : Thread nD τ) arg5 fullShare wseg ∗ owns (c : Thread nD τ) arg6 fullShare bseg
        ∗ owns (c : Thread nD τ) arg7 fullShare wsim ∗ owns (c : Thread nD τ) arg8 fullShare bsim
        ∗ owns (c : Thread nD τ) arg9 fullShare wconf ∗ owns (c : Thread nD τ) arg10 fullShare bconf
        ∗ owns (c : Thread nD τ) arg11 fullShare wcl ∗ owns (c : Thread nD τ) arg12 fullShare bcl
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d)
        ∗ (iprop(owns (c : Thread nD τ) arg2 fullShare x ∗ owns (c : Thread nD τ) arg3 fullShare wsem ∗ owns (c : Thread nD τ) arg4 fullShare bsem
            ∗ owns (c : Thread nD τ) arg5 fullShare wseg ∗ owns (c : Thread nD τ) arg6 fullShare bseg
            ∗ owns (c : Thread nD τ) arg7 fullShare wsim ∗ owns (c : Thread nD τ) arg8 fullShare bsim
            ∗ owns (c : Thread nD τ) arg9 fullShare wconf ∗ owns (c : Thread nD τ) arg10 fullShare bconf
            ∗ owns (c : Thread nD τ) arg11 fullShare wcl ∗ owns (c : Thread nD τ) arg12 fullShare bcl
            ∗ owns (c : Thread nD τ) arg13 fullShare (segLogitsBlk x wsem bsem wseg bseg)
            ∗ owns (c : Thread nD τ) arg14 fullShare (segProbsBlk x wsem bsem wseg bseg)
            ∗ owns (c : Thread nD τ) arg15 fullShare (simFeatsBlk x wsim bsim)
            ∗ owns (c : Thread nD τ) arg16 fullShare (confsBlk x wconf bconf wcl bcl)
            ∗ owns (c : Thread nD τ) arg17 fullShare (confLogitsBlk x wconf bconf wcl bcl)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__proj_kernel_eq_skeleton]; unfold cc0__proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩,
    ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10 hf11 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverSeg _)
  isplitl [H14]
  · iexists _; isplitr
    swap; · iexact H14
    ipureintro
    exact View.read_writes_eq_canon _ _ _ (coverSeg _)
  isplitl [H15]
  · iexists _; isplitr
    swap; · iexact H15
    ipureintro
    refine (View.read_writes_eq_canon _ _ _ (coverSim _)).trans ?_
    sl_unfold_run_names
    rfl
  isplitl [H16]
  · iexists _; isplitr
    swap; · iexact H16
    ipureintro
    refine (View.read_writes_eq_canon _ _ _ (coverConf _)).trans ?_
    sl_unfold_run_names
    rfl
  iexists _; isplitr
  swap; · iexact H17
  ipureintro
  refine (View.read_writes_eq_canon _ _ _ (coverConf _)).trans ?_
  sl_unfold_run_names
  rfl

/-! ## The blocks the launch hands the body, and the proof data -/

section Data

-- the core's buffer contents when the launch is entered
variable (V : (c : Dev nD) → (b : Ref sig .tc) → Buf (Elt F) ((c : Thread nD τ).loc b))

/-- Window `w`'s block at point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What each window's staging buffer holds after the body at point `t`: an input's its block, an output's the
    body's function of the eleven input blocks. The arrays are as the launch finds them; the invariant is the scoped
    buffers no window stages and the generator register, untouched; nothing is owed; every array is held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => segLogitsBlk (blk V c 0 t) (blk V c 1 t) (blk V c 2 t) (blk V c 3 t) (blk V c 4 t)
    | ⟨12, _⟩ => segProbsBlk (blk V c 0 t) (blk V c 1 t) (blk V c 2 t) (blk V c 3 t) (blk V c 4 t)
    | ⟨13, _⟩ => simFeatsBlk (blk V c 0 t) (blk V c 5 t) (blk V c 6 t)
    | ⟨14, _⟩ => confsBlk (blk V c 0 t) (blk V c 7 t) (blk V c 8 t) (blk V c 9 t) (blk V c 10 t)
    | ⟨15, _⟩ => confLogitsBlk (blk V c 0 t) (blk V c 7 t) (blk V c 8 t) (blk V c 9 t) (blk V c 10 t)
    | ⟨_ + 16, h⟩ => absurd h (Nat.not_lt.2 (Nat.le_add_left _ _))
  Φ _ := Pipeline.ΦA spec0 c
  q _ := fullShare
  owed _ := 0

theorem dat_A (c : Dev nD) (w : Fin cfg0.W) : (dat V c).A w = V c (Pipeline.arrRef spec0 w) := by dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = blk V c 9 t := by dsimp only [dat]
theorem after_10 (c : Dev nD) (t : Fin cfg0.N) : (dat V c).after 10 t = blk V c 10 t := by dsimp only [dat]
theorem after_11 (c : Dev nD) (t : Fin cfg0.N) : (dat V c).after 11 t = segLogitsBlk (blk V c 0 t) (blk V c 1 t) (blk V c 2 t) (blk V c 3 t) (blk V c 4 t) := by dsimp only [dat]
theorem after_12 (c : Dev nD) (t : Fin cfg0.N) : (dat V c).after 12 t = segProbsBlk (blk V c 0 t) (blk V c 1 t) (blk V c 2 t) (blk V c 3 t) (blk V c 4 t) := by dsimp only [dat]
theorem after_13 (c : Dev nD) (t : Fin cfg0.N) : (dat V c).after 13 t = simFeatsBlk (blk V c 0 t) (blk V c 5 t) (blk V c 6 t) := by dsimp only [dat]
theorem after_14 (c : Dev nD) (t : Fin cfg0.N) : (dat V c).after 14 t = confsBlk (blk V c 0 t) (blk V c 7 t) (blk V c 8 t) (blk V c 9 t) (blk V c 10 t) := by dsimp only [dat]
theorem after_15 (c : Dev nD) (t : Fin cfg0.N) : (dat V c).after 15 t = confLogitsBlk (blk V c 0 t) (blk V c 7 t) (blk V c 8 t) (blk V c 9 t) (blk V c 10 t) := by dsimp only [dat]

/-- An input window's current staging buffer holds its block at every point, whether the point fetches it or not:
    a window whose block index did not move keeps what the earlier fetch brought. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem before_7 (c : Dev nD) (t : Fin cfg0.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)
theorem before_8 (c : Dev nD) (t : Fin cfg0.N) (d) : (dat V c).before 8 t d = blk V c 8 t :=
  ((dat V c).before_in_eq_fetched 8 rfl (fun _ => rfl) (fun _ _ _ => rfl)
    (fun t => by rw [after_8]; unfold Dat.blockOf blk; rw [dat_A]; try rfl) t d).trans
    (by unfold Dat.fetched Dat.blockOf blk; rw [dat_A]; try rfl)
theorem before_9 (c : Dev nD) (t : Fin cfg0.N) (d) : (dat V c).before 9 t d = blk V c 9 t :=
  ((dat V c).before_in_eq_fetched 9 rfl (fun _ => rfl) (fun _ _ _ => rfl)
    (fun t => by rw [after_9]; unfold Dat.blockOf blk; rw [dat_A]; try rfl) t d).trans
    (by unfold Dat.fetched Dat.blockOf blk; rw [dat_A]; try rfl)
theorem before_10 (c : Dev nD) (t : Fin cfg0.N) (d) : (dat V c).before 10 t d = blk V c 10 t :=
  ((dat V c).before_in_eq_fetched 10 rfl (fun _ => rfl) (fun _ _ _ => rfl)
    (fun t => by rw [after_10]; unfold Dat.blockOf blk; rw [dat_A]; try rfl) t d).trans
    (by unfold Dat.fetched Dat.blockOf blk; rw [dat_A]; try rfl)

/-! ## The body obligation -/

set_option maxHeartbeats 2000000 in
/-- The body at any point: handed the inputs' blocks, it leaves what the proof data say; the invariant and the
    core's dues pass through unread. -/
theorem body_at (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d))
      ∗ (∃ d, owns (c : Thread nD τ) (st0_6 t) fullShare ((dat V c).before 6 t d))
      ∗ (∃ d, owns (c : Thread nD τ) (st0_7 t) fullShare ((dat V c).before 7 t d))
      ∗ (∃ d, owns (c : Thread nD τ) (st0_8 t) fullShare ((dat V c).before 8 t d))
      ∗ (∃ d, owns (c : Thread nD τ) (st0_9 t) fullShare ((dat V c).before 9 t d))
      ∗ (∃ d, owns (c : Thread nD τ) (st0_10 t) fullShare ((dat V c).before 10 t d))
      ∗ (∃ d, owns (c : Thread nD τ) (st0_11 t) fullShare ((dat V c).before 11 t d))
      ∗ (∃ d, owns (c : Thread nD τ) (st0_12 t) fullShare ((dat V c).before 12 t d))
      ∗ (∃ d, owns (c : Thread nD τ) (st0_13 t) fullShare ((dat V c).before 13 t d))
      ∗ (∃ d, owns (c : Thread nD τ) (st0_14 t) fullShare ((dat V c).before 14 t d))
      ∗ (∃ d, owns (c : Thread nD τ) (st0_15 t) fullShare ((dat V c).before 15 t d)))
    ⊢ wp frame (wpE (defs₀ (F := F)) Variants.none c none) Set.univ (bodyAt0 t) (fun _ => iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ owns (c : Thread nD τ) (st0_2 t) fullShare ((dat V c).after 2 t)
      ∗ owns (c : Thread nD τ) (st0_3 t) fullShare ((dat V c).after 3 t)
      ∗ owns (c : Thread nD τ) (st0_4 t) fullShare ((dat V c).after 4 t)
      ∗ owns (c : Thread nD τ) (st0_5 t) fullShare ((dat V c).after 5 t)
      ∗ owns (c : Thread nD τ) (st0_6 t) fullShare ((dat V c).after 6 t)
      ∗ owns (c : Thread nD τ) (st0_7 t) fullShare ((dat V c).after 7 t)
      ∗ owns (c : Thread nD τ) (st0_8 t) fullShare ((dat V c).after 8 t)
      ∗ owns (c : Thread nD τ) (st0_9 t) fullShare ((dat V c).after 9 t)
      ∗ owns (c : Thread nD τ) (st0_10 t) fullShare ((dat V c).after 10 t)
      ∗ owns (c : Thread nD τ) (st0_11 t) fullShare ((dat V c).after 11 t)
      ∗ owns (c : Thread nD τ) (st0_12 t) fullShare ((dat V c).after 12 t)
      ∗ owns (c : Thread nD τ) (st0_13 t) fullShare ((dat V c).after 13 t)
      ∗ owns (c : Thread nD τ) (st0_14 t) fullShare ((dat V c).after 14 t)
      ∗ owns (c : Thread nD τ) (st0_15 t) fullShare ((dat V c).after 15 t))) := by
  unfold bodyAt0
  simp only [before_0, before_1, before_2, before_3, before_4, before_5, before_6, before_7, before_8, before_9, before_10]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    ⟨%d11, H11⟩, ⟨%d12, H12⟩, ⟨%d13, H13⟩, ⟨%d14, H14⟩, ⟨%d15, H15⟩⟩
  iapply (body_spec c Set.univ (grid0.coords t) _ _ _ _ _ _ _ _ _ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) (blk V c 9 t) (blk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The launch rule's obligation on the body, at every point. -/
theorem body_obligation (c : Dev nD) : BodyObligation (dat (F := F) V c) (defs₀ (F := F)) Variants.none () Set.univ := fun t => by
  rw [bigSep_W0, bigSep_W0]
  exact body_at V c t

end Data

end Cert.Kernel.Heads0

end
-- ==== Proof.Bits.DistLaunch.lean ====
/-
  The second launch, one grid point at a time. The grid has 4 × 4 × 4 points; point (b, i, j) is handed two
  [1, 1024, 128] blocks of ONE array, the similarity features the first launch wrote — rows 1024·i … of batch b
  (window 0) and rows 1024·j … of batch b (window 1) — and one [1, 1024, 1024] output block (window 2) that it
  overwrites whole with the scaled, clamped squared distances between the rows of the two blocks.
  Here: what the body leaves in the output block as a function of the two input blocks, that the body run on those
  blocks does leave it, and the bookkeeping the launch rule asks of every window at every point. The two input
  windows read the same array, so each holds half of the share of it. Stated for any float interpretation `F`; this copy speaks of the program as printed at the word level.
-/
import proofs.«118794_j27084063768631_1_alg».proof.Proof.Gen.Kernel.Launch
import proofs.«118794_j27084063768631_1_alg».proof.Proof.Gen.Kernel.Skeleton
import proofs.«118794_j27084063768631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Dist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rRows : Rect S1x1024x128 := Rect.unit (s := S1x1024x128) ![0, 0, 0] S1x1024x128.size inb_S1x1024x128_S1x1024x128_0_0_0
abbrev rDist : Rect S1x1024x1024 := Rect.unit (s := S1x1024x1024) ![0, 0, 0] S1x1024x1024.size inb_S1x1024x1024_S1x1024x1024_0_0_0

/-! ## What the body leaves in the output block -/

/-- The distances between the rows of the two blocks. -/
def distBlk (fi fj : Vec F S1x1024x128 .f32) : Vec F S1x1024x1024 .f32 :=
  View.canon [⟨rDist, k1_pay1 (View.ld fi rRows) (View.ld fj rRows)⟩]

/-- One store through the whole-buffer rectangle covers the buffer. -/
theorem coverDist (p : Vec F S1x1024x1024 .f32) (y : S1x1024x1024.Idx) :
    ∃ pc ∈ ([⟨rDist, p⟩] : List (View.Piece (Elt F) S1x1024x1024 .f32)), y ∈ pc.1.set :=
  View.cover_of_tiled [⟨rDist, p⟩] S1x1024x1024.size (by rfl) y

/-! ## The body's triple -/

set_option maxHeartbeats 4000000 in
/-- The body, run on whole staging buffers — the two inputs' at contents `fi`, `fj`, the output's at anything —
    returns with the inputs' as they were and the output's at the distances between their rows. -/
theorem body_spec (c : Dev nD) (E : Set ℕ) (i : grid1.Coords)
    (arg3 : Memref sig .tc .vmem S1x1024x128 .f32) (harg3 : arg3.IsWhole) (arg4 : Memref sig .tc .vmem S1x1024x128 .f32) (harg4 : arg4.IsWhole)
    (arg5 : Memref sig .tc .vmem S1x1024x1024 .f32) (harg5 : arg5.IsWhole)
    (fi fj : Vec F S1x1024x128 .f32) (K : PUnit → sProp 𝕄) :
    iprop(owns (c : Thread nD τ) arg3 fullShare fi ∗ owns (c : Thread nD τ) arg4 fullShare fj ∗ (∃ d, owns (c : Thread nD τ) arg5 fullShare d)
        ∗ (iprop(owns (c : Thread nD τ) arg3 fullShare fi ∗ owns (c : Thread nD τ) arg4 fullShare fj
            ∗ owns (c : Thread nD τ) arg5 fullShare (distBlk fi fj)) -∗ K ⟨⟩))
      ⊢ wp frame (wpE (defs₀ (F := F)) Variants.none c none) E (cc1__dist_kernel i arg3 harg3 arg4 harg4 arg5 harg5) K := by
  simp only [cc1__dist_kernel_eq_skeleton]; unfold cc1__dist_kernel_skel
  unfold owns
  iintro ⟨⟨%f3, %hf3, H3⟩, ⟨%f4, %hf4, H4⟩, ⟨%d5, %f5, -, H5⟩, Hk⟩
  subst hf3 hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverDist _)

/-! ## The blocks the launch hands the body, and the proof data -/

section Data

-- the core's buffer contents when the launch is entered
variable (V : (c : Dev nD) → (b : Ref sig .tc) → Buf (Elt F) ((c : Thread nD τ).loc b))

/-- Window `w`'s block at point `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t` each input's staging buffer holds its block and the output's the distances between
    the two blocks' rows. The arrays are as the launch finds them; the two input windows read ONE array, of which
    each holds one half of the share, the output's array is held whole; the invariant is the scoped buffers no window
    stages and the generator register, untouched; nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => distBlk (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = distBlk (blk V c 0 t) (blk V c 1 t) := by dsimp only [dat]

/-- The shares: the two readers of the feature array hold its two halves, the output's array is held whole. -/
theorem share_0 (c : Dev nD) : (dat V c).share 0 = fullShare.left := by unfold Dat.share; dsimp only [dat]; rfl
theorem share_1 (c : Dev nD) : (dat V c).share 1 = fullShare.right := by unfold Dat.share; dsimp only [dat]; rfl
theorem share_2 (c : Dev nD) : (dat V c).share 2 = fullShare := by unfold Dat.share; rfl

/-- An input window's current staging buffer holds its block at every point, whether the point fetches it or not:
    the row block moves every fourth point and keeps what the earlier fetch brought in between. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-! ## The body obligation -/

set_option maxHeartbeats 2000000 in
/-- The body at any point: handed the two blocks, it leaves what the proof data say; the invariant and the core's
    dues pass through unread. -/
theorem body_at (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d)))
    ⊢ wp frame (wpE (defs₀ (F := F)) Variants.none c none) Set.univ (bodyAt1 t) (fun _ => iprop((dat V c).Φ t.succ ∗ (dat V c).owesAt () t.succ
      ∗ owns (c : Thread nD τ) (st1_0 t) fullShare ((dat V c).after 0 t)
      ∗ owns (c : Thread nD τ) (st1_1 t) fullShare ((dat V c).after 1 t)
      ∗ owns (c : Thread nD τ) (st1_2 t) fullShare ((dat V c).after 2 t))) := by
  unfold bodyAt1
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (body_spec c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's obligation on the body, at every point. -/
theorem body_obligation (c : Dev nD) : BodyObligation (dat (F := F) V c) (defs₀ (F := F)) Variants.none () Set.univ := fun t => by
  rw [bigSep_W1, bigSep_W1]
  exact body_at V c t

end Data

end Cert.Kernel.Dist1

end
-- ==== Proof.Bits.TwoLaunches.lean ====
/-
  The whole program, launch after launch. On every core: one host step (the input [4, 4096, 1, 256] re-laid as
  [4, 4096, 256]), the first launch (the per-point heads: five result arrays, among them the similarity features),
  the second launch (the pairwise distances, read off the similarity features through two windows of that one array).
  Here the buffer contents at each of the four boundaries are named — the launch memory; after the host step; after
  the first launch, its five output arrays at what its sixteen write-backs leave; after the second launch, the
  distance array at what its sixty-four write-backs leave — and the program is shown to run from the first to the
  last: every weakly fair execution terminates, and every unscoped buffer ends at the last boundary's contents.
  Stated for any float interpretation `F`; this copy speaks of the program as printed at the word level.
-/
import proofs.«118794_j27084063768631_1_alg».proof.Proof.Bits.HeadsLaunch
import proofs.«118794_j27084063768631_1_alg».proof.Proof.Bits.DistLaunch
import proofs.«118794_j27084063768631_1_alg».proof.Proof.Gen.Kernel.Regions

set_option maxRecDepth 16384

noncomputable section

namespace Cert.Kernel.Launches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 (c : Dev nD) : Valuation τ sig (Elt F) := fun b => m (c, b)
/-- After the host step. -/
abbrev W1 (c : Dev nD) : Valuation τ sig (Elt F) := StableHlo.after hostOps0 (W0 m c)
/-- The same at the TensorCore's references: what the first launch finds. -/
abbrev atHeads : (c : Dev nD) → (b : Ref sig .tc) → Buf (Elt F) ((c : Thread nD τ).loc b) := fun c b => W1 m c b
/-- After the first launch: each of its windows' arrays at what the launch leaves there (an input's as found, an
    output's after the sixteen write-backs), every other buffer as found. -/
def W2 (c : Dev nD) : Valuation τ sig (Elt F) :=
  Pipeline.withArrays spec0 c (W1 m c) fun w => (Heads0.dat (atHeads m) c).arrAt w cfg0.N
theorem W2_arr (c : Dev nD) (w : Fin cfg0.W) :
    W2 m c (Proc.devRef .tc (Pipeline.arrRef spec0 w)) = (Heads0.dat (atHeads m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references: what the second launch finds. -/
abbrev atDist : (c : Dev nD) → (b : Ref sig .tc) → Buf (Elt F) ((c : Thread nD τ).loc b) := fun c b => W2 m c b
/-- After the second launch: the distance array at what the sixty-four write-backs leave, every other buffer as
    found (the feature array is only read). -/
def W3 (c : Dev nD) : Valuation τ sig (Elt F) :=
  Function.update (W2 m c) (Proc.devRef .tc main_v2) ((Dist1.dat (atDist m) c).arrAt 2 cfg1.N)
theorem W3_dist (c : Dev nD) : W3 m c (Proc.devRef .tc main_v2) = (Dist1.dat (atDist m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..
abbrev atEnd : (c : Dev nD) → (b : Ref sig .tc) → Buf (Elt F) ((c : Thread nD τ).loc b) := fun c b => W3 m c b

/-! ## The arguments end as launched -/

/-- A buffer the host step, the first launch's outputs and the distance array all leave alone ends as launched. -/
theorem W3_kept (c : Dev nD) (b : Ref sig .tc) (h3 : b ≠ main_v2) (h2 : W2 m c (Proc.devRef .tc b) = W1 m c (Proc.devRef .tc b))
    (h1 : b ∉ hostOps0_W) : W3 m c (Proc.devRef .tc b) = m ((c : Thread nD τ).loc b) :=
  (W3_of_ne m c b h3).trans (h2.trans ((V1_of m c b h1).trans rfl))

/-- An input window's array is as the first launch found it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Heads0.dat (atHeads m) c).arrAt_in w hin _).trans (Heads0.dat_A (atHeads m) c w))

theorem W3_main_arg0 (c : Dev nD) : W3 m c (Proc.devRef .tc main_arg0) = m ((c : Thread nD τ).loc main_arg0) :=
  W3_kept m c main_arg0 (by decide) (W2_of_ne m c main_arg0 (by decide)) (by decide)
theorem W3_main_arg1 (c : Dev nD) : W3 m c (Proc.devRef .tc main_arg1) = m ((c : Thread nD τ).loc main_arg1) :=
  W3_kept m c main_arg1 (by decide) (W2_in m c 1 rfl) (by decide)
theorem W3_main_arg2 (c : Dev nD) : W3 m c (Proc.devRef .tc main_arg2) = m ((c : Thread nD τ).loc main_arg2) :=
  W3_kept m c main_arg2 (by decide) (W2_in m c 2 rfl) (by decide)
theorem W3_main_arg3 (c : Dev nD) : W3 m c (Proc.devRef .tc main_arg3) = m ((c : Thread nD τ).loc main_arg3) :=
  W3_kept m c main_arg3 (by decide) (W2_in m c 3 rfl) (by decide)
theorem W3_main_arg4 (c : Dev nD) : W3 m c (Proc.devRef .tc main_arg4) = m ((c : Thread nD τ).loc main_arg4) :=
  W3_kept m c main_arg4 (by decide) (W2_in m c 4 rfl) (by decide)
theorem W3_main_arg5 (c : Dev nD) : W3 m c (Proc.devRef .tc main_arg5) = m ((c : Thread nD τ).loc main_arg5) :=
  W3_kept m c main_arg5 (by decide) (W2_in m c 5 rfl) (by decide)
theorem W3_main_arg6 (c : Dev nD) : W3 m c (Proc.devRef .tc main_arg6) = m ((c : Thread nD τ).loc main_arg6) :=
  W3_kept m c main_arg6 (by decide) (W2_in m c 6 rfl) (by decide)
theorem W3_main_arg7 (c : Dev nD) : W3 m c (Proc.devRef .tc main_arg7) = m ((c : Thread nD τ).loc main_arg7) :=
  W3_kept m c main_arg7 (by decide) (W2_in m c 7 rfl) (by decide)
theorem W3_main_arg8 (c : Dev nD) : W3 m c (Proc.devRef .tc main_arg8) = m ((c : Thread nD τ).loc main_arg8) :=
  W3_kept m c main_arg8 (by decide) (W2_in m c 8 rfl) (by decide)
theorem W3_main_arg9 (c : Dev nD) : W3 m c (Proc.devRef .tc main_arg9) = m ((c : Thread nD τ).loc main_arg9) :=
  W3_kept m c main_arg9 (by decide) (W2_in m c 9 rfl) (by decide)
theorem W3_main_arg10 (c : Dev nD) : W3 m c (Proc.devRef .tc main_arg10) = m ((c : Thread nD τ).loc main_arg10) :=
  W3_kept m c main_arg10 (by decide) (W2_in m c 10 rfl) (by decide)

/-! ## The proof data of both launches, and what rides beside the buffers -/

/-- Each launch's proof data at the contents its launch finds. -/
def pdats : (p : Fin 2) → (c : Dev nD) → Dat τ (Elt F) Unit ℕ (UR sig nD τ) ℕ (Pipeline.pin (pcfgs (F := F)) adm p) c
  | ⟨0, _⟩ => fun c => Heads0.dat (atHeads m) c
  | ⟨1, _⟩ => fun c => Dist1.dat (atDist m) c

abbrev 𝒱₀ : Variants := Variants.none
/-- No core waits for another: no level is assigned. -/
abbrev L : GSem nD τ sig → Finset Unit := fun _ => ∅
abbrev lv : GSem nD τ sig → Unit → ℕ := fun _ _ => 0

/-- Beside the buffers: the core's generator register at some state, and its dues, none. -/
abbrev R (c : Dev nD) : sProp 𝕄 := iprop((∃ r, prngReg c r) ∗ ∃ W, owes (c : Thread nD τ) (0 : CellTallies nD τ sig Unit) W)

/-- The host step as a segment over every unscoped buffer. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the dues. -/
abbrev Tₙ (c : Dev nD) : sProp 𝕄 := iprop(StableHlo.held (c : Thread nD τ) (Pipeline.ucRefs τ sig) (W3 m c) ∗ ∃ r, prngReg c r)

/-! ## The first launch as a segment -/

theorem hF0 (c : Dev nD) (w : Fin cfg0.W) : (Heads0.dat (atHeads m) c).arrAt w cfg0.N = atDist m c (Pipeline.arrRef spec0 w) :=
  (W2_arr m c w).symm
theorem hrest0 (c : Dev nD) : ∀ b, b ∉ Finset.univ.image (Pipeline.arrRef spec0) → atDist m c b = atHeads m c b :=
  fun b hb => W2_of_ne m c b fun w e => hb (Finset.mem_image.mpr ⟨w, Finset.mem_univ _, e⟩)

set_option backward.isDefEq.respectTransparency.types false in
/-- The first launch: entered with every unscoped buffer at the contents after the host step, left with them at
    `W2`. Its sixteen arrays are taken out of the unscoped buffers at entry and put back at exit; the generator
    register goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Heads0.body_obligation (atHeads m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atHeads m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atHeads m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atHeads m c) (atDist m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

/-- ENTRY. The two buffers behind the second launch's arrays, each held whole, are its three windows' arrays at the
    contents the launch finds: the feature array's share is split in two, one half for each of the two windows that
    read it; the distance array stays whole. -/
theorem dist_entry (c : Dev nD) :
    (Pipeline.arrBufs (Ix := Unit) (Name := ℕ) (U := UR sig nD τ) (Lvl := ℕ) spec1 c (atDist m c) : sProp 𝕄)
      ⊢ (Dist1.dat (atDist m) c).arrays ((Dist1.dat (atDist m) c).arrAt · 0) := by
  unfold Pipeline.arrBufs Dat.arrays
  rw [bigSep_eq_bigSepL_of_eq [main_v1_2, main_v2] (by decide) (by decide), bigSep_W1,
    Dist1.share_0, Dist1.share_1, Dist1.share_2,
    (arr_whole1 0).set_eq_univ, (arr_whole1 2).set_eq_univ]
  show iprop((((c : Thread nD τ).loc main_v1_2) ↦{fullShare} atDist m c main_v1_2) ∗ (((c : Thread nD τ).loc main_v2) ↦{fullShare} atDist m c main_v2)) ⊢ _
  iintro ⟨Hf, Hd⟩
  ihave Hs := (pointsTo_share (PosShare.mem_left_op_right fullShare)).1 $$ Hf
  icases Hs with ⟨Hl, Hr⟩
  isplitl [Hl]; · iexact Hl
  isplitl [Hr]; · iexact Hr
  iexact Hd

/-- EXIT. The three windows' arrays after the last write-back — the two halves of the feature array, unchanged, and the
    distance array — are the two buffers behind them held whole at the last boundary's contents. -/
theorem dist_exit (c : Dev nD) :
    (Dist1.dat (atDist m) c).arrays ((Dist1.dat (atDist m) c).arrAt · cfg1.N)
      ⊢ (Pipeline.arrBufs (Ix := Unit) (Name := ℕ) (U := UR sig nD τ) (Lvl := ℕ) spec1 c (atEnd m c) : sProp 𝕄) := by
  unfold Pipeline.arrBufs Dat.arrays
  rw [bigSep_eq_bigSepL_of_eq [main_v1_2, main_v2] (by decide) (by decide), bigSep_W1,
    Dist1.share_0, Dist1.share_1, Dist1.share_2,
    (arr_whole1 0).set_eq_univ, (arr_whole1 2).set_eq_univ]
  beta_reduce
  rw [(Dist1.dat (atDist m) c).arrAt_in 0 rfl, (Dist1.dat (atDist m) c).arrAt_in 1 rfl, Dist1.dat_A, Dist1.dat_A]
  show _ ⊢ iprop((((c : Thread nD τ).loc main_v1_2) ↦{fullShare} atEnd m c main_v1_2) ∗ (((c : Thread nD τ).loc main_v2) ↦{fullShare} atEnd m c main_v2))
  rw [show atEnd m c main_v1_2 = atDist m c main_v1_2 from W3_of_ne m c main_v1_2 (by decide),
    show atEnd m c main_v2 = (Dist1.dat (atDist m) c).arrAt 2 cfg1.N from W3_dist m c]
  iintro ⟨Hl, Hr, Hd⟩
  isplitl [Hl Hr]
  · iapply (pointsTo_share (PosShare.mem_left_op_right fullShare)).2
    isplitl [Hl]; · iexact Hl
    iexact Hr
  iexact Hd

/-- Off the second launch's arrays the last boundary's contents are the ones the launch found. -/
theorem dist_rest (c : Dev nD) :
    (Pipeline.unscopedRest (Ix := Unit) (Name := ℕ) (U := UR sig nD τ) (Lvl := ℕ) spec1 c (atDist m c) : sProp 𝕄)
      = Pipeline.unscopedRest spec1 c (atEnd m c) := by
  unfold Pipeline.unscopedRest
  refine bigSep_congr fun b hb => ?_
  have hne : b ≠ main_v2 := fun e => (Finset.mem_sdiff.mp hb).2 (Finset.mem_image.mpr ⟨2, Finset.mem_univ _, e.symm⟩)
  rw [show atEnd m c b = atDist m c b from W3_of_ne m c b hne]

set_option backward.isDefEq.respectTransparency.types false in
/-- The second launch: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Dist1.body_obligation (atDist m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atDist m c)
  hentry c := by
    rw [Pipeline.ownSems0_none]
    have hsplit : (unscopedBufs c (atDist m c) : sProp 𝕄) ⊢ iprop((Dist1.dat (atDist m) c).arrays ((Dist1.dat (atDist m) c).arrAt · 0)
        ∗ Pipeline.unscopedRest (Ix := Unit) (Name := ℕ) (U := UR sig nD τ) (Lvl := ℕ) spec1 c (atDist m c)) := by
      rw [Pipeline.unscopedBufs_split₀ (cfgs := cfgs) (p := (1 : Fin 2)) winFacts₀1.arr_unscoped c (atDist m c)]
      exact sep_mono (dist_entry m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((Dist1.dat (atDist m) c).arrays ((Dist1.dat (atDist m) c).arrAt · cfg1.N)
        ∗ Pipeline.unscopedRest (Ix := Unit) (Name := ℕ) (U := UR sig nD τ) (Lvl := ℕ) spec1 c (atDist m c)) ⊢ (unscopedBufs c (atEnd m c) : sProp 𝕄) := by
      rw [Pipeline.unscopedBufs_split₀ (cfgs := cfgs) (p := (1 : Fin 2)) winFacts₀1.arr_unscoped c (atEnd m c), dist_rest m c]
      exact sep_mono (dist_exit m c) .rfl
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .host (hostSeg m), .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME. Every weakly fair execution terminates, nothing faulting, and each of the eleven argument arrays ends
    as launched: the run, read at the arguments' buffers. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.Kernel.Launches

end
-- ==== Proof.Heads.lean ====
/-
  The five result arrays of the point-cloud output heads as functions of the eleven argument arrays, index by
  index, on the extended reals. A point (b, n) has features x = X[b, n, 0, ·], 256 of them.
    a dense layer          dense x W β d = (∑ₖ x k · W[k, d]) + β[d]
    segment logits         z = dense (dense x W_sem b_sem) W_seg b_seg, 50 channels
    segment probabilities  exp (z g − M) / ∑ g', exp (z g' − M), where M = max (−∞) (the maximum of z from −∞)
    similarity features    f = dense x W_sim b_sim, 128 channels; squared length r = ∑ d, f d · f d
    pairwise distances     max (10 · ((r(n) − 2 · ∑ d, f(n) d · f(m) d) + r(m))) 0 for two points n, m of one batch
    confidence logit       ℓ = dense (dense x W_conf b_conf) W_cl b_cl, one channel; confidence 1 / (1 + e^(−ℓ))
  The constants −∞, 0, 2 and 10 stay the f32 words both programs spell; nothing here evaluates them.
-/
import Idealize.ShloMosaic.PureOps.Ideal
import Idealize.ShloMosaic.Lib.ValueIdx

noncomputable section

namespace Cert.Heads

open Idealize.ShloMosaic Idealize.ShloMosaic.ValueIdx

/-- The word of −∞, of 0, of 2 and of 10 in f32, read on the extended reals. -/
abbrev negInf : EReal := Ideal.ofBits .f32 0xFF800000#32
abbrev zero : EReal := Ideal.ofBits .f32 0x00000000#32
abbrev two : EReal := Ideal.ofBits .f32 0x40000000#32
abbrev ten : EReal := Ideal.ofBits .f32 0x41200000#32

/-- The argument arrays' and the result arrays' index types. -/
abbrev XIdx : Type := (⟨4, ![4, 4096, 1, 256]⟩ : Shape).Idx
abbrev MatIdx (K D : Nat) : Type := (⟨2, ![K, D]⟩ : Shape).Idx
abbrev VecIdx (D : Nat) : Type := (⟨1, ![D]⟩ : Shape).Idx
abbrev PtIdx (D : Nat) : Type := (⟨3, ![4, 4096, D]⟩ : Shape).Idx

/-- The features of point (b, n). -/
def feat (X : XIdx → EReal) (b : Fin 4) (n : Fin 4096) : Fin 256 → EReal := fun k => X (ix4 b n (0 : Fin 1) k)

/-- One dense layer on one point: channel `d` of `x · W + β`. -/
def dense {K D : Nat} (x : Fin K → EReal) (W : MatIdx K D → EReal) (β : VecIdx D → EReal) : Fin D → EReal :=
  fun d => (∑ k : Fin K, x k * W (ix2 k d)) + β (ix1 d)

/-- A hidden layer of 128 channels at point (b, n): the semantic, the similarity or the confidence features,
    according to the weights. -/
def hidden (X : XIdx → EReal) (W : MatIdx 256 128 → EReal) (β : VecIdx 128 → EReal) (b : Fin 4) (n : Fin 4096) :
    Fin 128 → EReal :=
  dense (feat X b n) W β

/-- The segment logits of point (b, n). -/
def segLogit (X : XIdx → EReal) (Wsem : MatIdx 256 128 → EReal) (bsem : VecIdx 128 → EReal)
    (Wseg : MatIdx 128 50 → EReal) (bseg : VecIdx 50 → EReal) (b : Fin 4) (n : Fin 4096) : Fin 50 → EReal :=
  dense (hidden X Wsem bsem b n) Wseg bseg

/-- The maximum of finitely many extended reals, taken from −∞. -/
def maxFrom {n : Nat} (z : Fin n → EReal) : EReal := (Finset.univ : Finset (Fin n)).fold max negInf z

/-- The softmax of a row of logits, shifted by the row's maximum. -/
def softmaxRow {n : Nat} (z : Fin n → EReal) : Fin n → EReal :=
  fun g => Ideal.div (Ideal.exp (z g - max negInf (maxFrom z))) (∑ g' : Fin n, Ideal.exp (z g' - max negInf (maxFrom z)))

/-- The squared length of a feature vector, and the inner product of two. -/
def sqLen {n : Nat} (f : Fin n → EReal) : EReal := ∑ d : Fin n, f d * f d
def inner {n : Nat} (f g : Fin n → EReal) : EReal := ∑ d : Fin n, f d * g d

/-- The scaled, clamped squared distance between two feature vectors. -/
def dist {n : Nat} (f g : Fin n → EReal) : EReal := max (ten * ((sqLen f - two * inner f g) + sqLen g)) zero

/-- The confidence logit of point (b, n). -/
def confLogit (X : XIdx → EReal) (Wconf : MatIdx 256 128 → EReal) (bconf : VecIdx 128 → EReal)
    (Wcl : MatIdx 128 1 → EReal) (bcl : VecIdx 1 → EReal) (b : Fin 4) (n : Fin 4096) : EReal :=
  dense (hidden X Wconf bconf b n) Wcl bcl (0 : Fin 1)

/-! ## The result arrays -/

/-- Segment logits, [4, 4096, 50]. -/
def segLogits (X : XIdx → EReal) (Wsem : MatIdx 256 128 → EReal) (bsem : VecIdx 128 → EReal)
    (Wseg : MatIdx 128 50 → EReal) (bseg : VecIdx 50 → EReal) : PtIdx 50 → EReal :=
  fun i => segLogit X Wsem bsem Wseg bseg (i 0) (i 1) (i 2)

/-- Segment probabilities, [4, 4096, 50]. -/
def segProbs (X : XIdx → EReal) (Wsem : MatIdx 256 128 → EReal) (bsem : VecIdx 128 → EReal)
    (Wseg : MatIdx 128 50 → EReal) (bseg : VecIdx 50 → EReal) : PtIdx 50 → EReal :=
  fun i => softmaxRow (segLogit X Wsem bsem Wseg bseg (i 0) (i 1)) (i 2)

/-- Similarity features, [4, 4096, 128] (what the first launch hands the second). -/
def simFeats (X : XIdx → EReal) (Wsim : MatIdx 256 128 → EReal) (bsim : VecIdx 128 → EReal) : PtIdx 128 → EReal :=
  fun i => hidden X Wsim bsim (i 0) (i 1) (i 2)

/-- Pairwise distances, [4, 4096, 4096]. -/
def simDists (X : XIdx → EReal) (Wsim : MatIdx 256 128 → EReal) (bsim : VecIdx 128 → EReal) :
    (⟨3, ![4, 4096, 4096]⟩ : Shape).Idx → EReal :=
  fun i => dist (hidden X Wsim bsim (i 0) (i 1)) (hidden X Wsim bsim (i 0) (i 2))

/-- Confidence logits and confidences, [4, 4096, 1]. -/
def confLogits (X : XIdx → EReal) (Wconf : MatIdx 256 128 → EReal) (bconf : VecIdx 128 → EReal)
    (Wcl : MatIdx 128 1 → EReal) (bcl : VecIdx 1 → EReal) : PtIdx 1 → EReal :=
  fun i => confLogit X Wconf bconf Wcl bcl (i 0) (i 1)
def confs (X : XIdx → EReal) (Wconf : MatIdx 256 128 → EReal) (bconf : VecIdx 128 → EReal)
    (Wcl : MatIdx 128 1 → EReal) (bcl : VecIdx 1 → EReal) : PtIdx 1 → EReal :=
  fun i => Ideal.logistic (confLogit X Wconf bconf Wcl bcl (i 0) (i 1))

/-! ## The same, at explicit coordinates -/

theorem segLogits_ix (X Wsem bsem Wseg bseg) (b : Fin 4) (n : Fin 4096) (g : Fin 50) :
    segLogits X Wsem bsem Wseg bseg (ix3 b n g) = segLogit X Wsem bsem Wseg bseg b n g := rfl
theorem segProbs_ix (X Wsem bsem Wseg bseg) (b : Fin 4) (n : Fin 4096) (g : Fin 50) :
    segProbs X Wsem bsem Wseg bseg (ix3 b n g) = softmaxRow (segLogit X Wsem bsem Wseg bseg b n) g := rfl
theorem simFeats_ix (X Wsim bsim) (b : Fin 4) (n : Fin 4096) (d : Fin 128) :
    simFeats X Wsim bsim (ix3 b n d) = hidden X Wsim bsim b n d := rfl
theorem simDists_ix (X Wsim bsim) (b : Fin 4) (n m : Fin 4096) :
    simDists X Wsim bsim (ix3 b n m) = dist (hidden X Wsim bsim b n) (hidden X Wsim bsim b m) := rfl
theorem confLogits_ix (X Wconf bconf Wcl bcl) (b : Fin 4) (n : Fin 4096) (o : Fin 1) :
    confLogits X Wconf bconf Wcl bcl (ix3 b n o) = confLogit X Wconf bconf Wcl bcl b n := rfl
theorem confs_ix (X Wconf bconf Wcl bcl) (b : Fin 4) (n : Fin 4096) (o : Fin 1) :
    confs X Wconf bconf Wcl bcl (ix3 b n o) = Ideal.logistic (confLogit X Wconf bconf Wcl bcl b n) := rfl

end Cert.Heads

end
-- ==== Proof.PayHeads.lean ====
/-
  The values the two kernel bodies store, read at one index on the extended reals.

  The first kernel works on a block of 1024 points. Point `r` of the block has the 256 features `x r`; every stored value at
  `(r, ·)` depends on row `r` of the block alone:
    a dense layer               (∑ₖ x k · W[k, d]) + β[d]                    (`Cert.Heads.dense`)
    similarity features         dense x W_sim b_sim
    segment logits              z = dense (dense x W_sem b_sem) W_seg b_seg
    segment probabilities       exp (z g − M) / ∑ g', exp (z g' − M),  M = max (−∞) (the maximum of z from −∞)
    confidence logit, confidence   ℓ = dense (dense x W_conf b_conf) W_cl b_cl at its one channel,  1 / (1 + e^(−ℓ))
  The second kernel takes two blocks of 1024 feature rows and stores, at `(r, s)`,
    max (10 · ((|f r|² − 2 · ⟨f r, g s⟩) + |g s|²)) 0.
  On the extended reals a change of float format is the identity, a matrix product into the zero block is the plain sum over
  the contracted axis, a lane sum is the sum over the lane and a lane maximum is the fold of `max` from the accumulator's word.
  What is left is bookkeeping of indices: which entry of which operand each layout step (adding or dropping a unit axis, turning
  a vector into a column, a column into a row, spreading a row or a column over a block) reads.
-/
import proofs.«118794_j27084063768631_1_alg».proof.Proof.Heads
import proofs.«118794_j27084063768631_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

/-! ## Layout steps at explicit coordinates -/

/-- A vector `[a]` cast to a column `[a, 1]` reads, at `(i, u)`, the vector at `i`: the two row-major positions are
    `i` and `i · 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column at `p`: the row coordinate is kept (when
    `a = 1` it is `0` anyway), the unit axis reads `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions along a row -/

/-- The sum over the 128 lanes of row `r`. -/
theorem rowSum128_apply (src : FVec Ideal S1024x128 .f32) (r : Fin 1024) :
    multiReduction .add [1] S1024 src 0x00000000#32 reduces_S1024x128_S1024 (.inl rfl) rfl (ix1 r)
      = ∑ d : Fin 128, src (ix2 r d) := by
  refine (Ideal.multiReduction_add_single src 0x00000000#32 reduces_S1024x128_S1024 (.inl rfl) rfl (ix1 r)).trans ?_
  show ∑ d : Fin 128, src (reduces_S1024x128_S1024.lift (ix1 r) d) = _
  refine Finset.sum_congr rfl fun d _ => congrArg src (funext fun a => Fin.ext ?_)
  match a with
  | ⟨0, _⟩ => rfl
  | ⟨1, _⟩ => rfl

/-- The sum over the 50 lanes of row `r`. -/
theorem rowSum50_apply (src : FVec Ideal S1024x50 .f32) (r : Fin 1024) :
    multiReduction .add [1] S1024 src 0x00000000#32 reduces_S1024x50_S1024 (.inl rfl) rfl (ix1 r)
      = ∑ g : Fin 50, src (ix2 r g) := by
  refine (Ideal.multiReduction_add_single src 0x00000000#32 reduces_S1024x50_S1024 (.inl rfl) rfl (ix1 r)).trans ?_
  show ∑ g : Fin 50, src (reduces_S1024x50_S1024.lift (ix1 r) g) = _
  refine Finset.sum_congr rfl fun g _ => congrArg src (funext fun a => Fin.ext ?_)
  match a with
  | ⟨0, _⟩ => rfl
  | ⟨1, _⟩ => rfl

/-- The maximum over the 50 lanes of row `r`, folded from the word of −∞. -/
theorem rowMax50_apply (src : FVec Ideal S1024x50 .f32) (r : Fin 1024) :
    multiReduction .maximumf [1] S1024 src 0xFF800000#32 reduces_S1024x50_S1024 (.inl rfl) rfl (ix1 r)
      = Cert.Heads.maxFrom (fun g : Fin 50 => src (ix2 r g)) := by
  refine (Ideal.multiReduction_maximumf_single src 0xFF800000#32 reduces_S1024x50_S1024 (.inl rfl) rfl (ix1 r)).trans ?_
  show (Finset.univ : Finset (Fin 50)).fold max (Ideal.ofBits .f32 0xFF800000#32)
      (fun g => src (reduces_S1024x50_S1024.lift (ix1 r) g)) = _
  unfold Cert.Heads.maxFrom
  refine congrArg (fun z : Fin 50 → EReal => (Finset.univ : Finset (Fin 50)).fold max Cert.Heads.negInf z)
    (funext fun g => congrArg src (funext fun a => Fin.ext ?_))
  match a with
  | ⟨0, _⟩ => rfl
  | ⟨1, _⟩ => rfl

/-! ## The matrix products at an entry

Each product accumulates into the zero block, so an entry is the sum over the contraction index of the operands' products.
The contraction index has one axis; through `contrEquiv1` the sum runs over that axis's coordinate. What remains is to say
which entry of each operand the dimension numbers pick: on a free axis the result's coordinate, on the contracted axis the
summation variable. -/

/-! ### 256 input channels to 128 -/

theorem first_lhs0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem first_lhs1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem first_rhs0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem first_rhs1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- Entry `(r, c)` of the first layer's product: row `r` of the block against column `c` of the weights. -/
theorem mm256x128_apply (x : FVec Ideal S1024x256 .bf16) (w : FVec Ideal S256x128 .bf16) (r : Fin 1024) (c : Fin 128) :
    matmul dot_S1024x256_S256x128_S1024x128_1_0_0_1_n_n none x w (constant (F := Ideal) S1024x128 .f32 0x00000000#32) (ix2 r c)
      = ∑ k : Fin 256, x (ix2 r k) * w (ix2 k c) := by
  show FloatOps.matmul dot_S1024x256_S256x128_S1024x128_1_0_0_1_n_n none x w
      (constant (F := Ideal) S1024x128 .f32 0x00000000#32) (ix2 r c) = _
  rw [Ideal.matmul_constant_zero_apply,
    ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r c)
      ((contrEquiv1 dot_S1024x256_S256x128_S1024x128_1_0_0_1_n_n 256 rfl rfl).symm k) = ix2 r k :=
    funext fun a => Fin.ext (by
      match a with
      | ⟨0, _⟩ => exact first_lhs0 _ _
      | ⟨1, _⟩ => exact (first_lhs1 _ _).trans hk)
  have er : dot_S1024x256_S256x128_S1024x128_1_0_0_1_n_n.rhsIdx (ix2 r c)
      ((contrEquiv1 dot_S1024x256_S256x128_S1024x128_1_0_0_1_n_n 256 rfl rfl).symm k) = ix2 k c :=
    funext fun a => Fin.ext (by
      match a with
      | ⟨0, _⟩ => exact (first_rhs0 _ _).trans hk
      | ⟨1, _⟩ => exact first_rhs1 _ _)
  rw [el, er]

/-! ### 128 hidden channels to the 50 segment channels -/

theorem seg_lhs0 (i : S1024x50.Idx) (q : dot_S1024x128_S128x50_S1024x50_1_0_0_1_n_n.contr.Idx) :
    (dot_S1024x128_S128x50_S1024x50_1_0_0_1_n_n.lhsIdx i q 0).val = (i 0).val := by
  unfold DotDims.lhsIdx
  rw [dif_neg (show ¬(0 : Fin S1024x128.rank) ∈ dot_S1024x128_S128x50_S1024x50_1_0_0_1_n_n.lhsBatch by decide),
    dif_pos (show (0 : Fin S1024x128.rank) ∈ dot_S1024x128_S128x50_S1024x50_1_0_0_1_n_n.lhsNonContracting by decide)]
  rfl
theorem seg_lhs1 (i : S1024x50.Idx) (q : dot_S1024x128_S128x50_S1024x50_1_0_0_1_n_n.contr.Idx) :
    (dot_S1024x128_S128x50_S1024x50_1_0_0_1_n_n.lhsIdx i q 1).val = (q ⟨0, by decide⟩).val :=
  dot_S1024x128_S128x50_S1024x50_1_0_0_1_n_n.lhsIdx_val_of_single rfl i q
theorem seg_rhs0 (i : S1024x50.Idx) (q : dot_S1024x128_S128x50_S1024x50_1_0_0_1_n_n.contr.Idx) :
    (dot_S1024x128_S128x50_S1024x50_1_0_0_1_n_n.rhsIdx i q 0).val = (q ⟨0, by decide⟩).val :=
  dot_S1024x128_S128x50_S1024x50_1_0_0_1_n_n.rhsIdx_val_of_single rfl i q
theorem seg_rhs1 (i : S1024x50.Idx) (q : dot_S1024x128_S128x50_S1024x50_1_0_0_1_n_n.contr.Idx) :
    (dot_S1024x128_S128x50_S1024x50_1_0_0_1_n_n.rhsIdx i q 1).val = (i 1).val := by
  unfold DotDims.rhsIdx
  rw [dif_neg (show ¬(1 : Fin S128x50.rank) ∈ dot_S1024x128_S128x50_S1024x50_1_0_0_1_n_n.rhsBatch by decide),
    dif_pos (show (1 : Fin S128x50.rank) ∈ dot_S1024x128_S128x50_S1024x50_1_0_0_1_n_n.rhsNonContracting by decide)]
  rfl

/-- Entry `(r, c)` of the segment head's product. -/
theorem mm128x50_apply (x : FVec Ideal S1024x128 .bf16) (w : FVec Ideal S128x50 .bf16) (r : Fin 1024) (c : Fin 50) :
    matmul dot_S1024x128_S128x50_S1024x50_1_0_0_1_n_n none x w (constant (F := Ideal) S1024x50 .f32 0x00000000#32) (ix2 r c)
      = ∑ k : Fin 128, x (ix2 r k) * w (ix2 k c) := by
  show FloatOps.matmul dot_S1024x128_S128x50_S1024x50_1_0_0_1_n_n none x w
      (constant (F := Ideal) S1024x50 .f32 0x00000000#32) (ix2 r c) = _
  rw [Ideal.matmul_constant_zero_apply,
    ← Equiv.sum_comp (contrEquiv1 dot_S1024x128_S128x50_S1024x50_1_0_0_1_n_n 128 rfl rfl).symm]
  refine Finset.sum_congr rfl fun k _ => ?_
  have hk := contrEquiv1_symm_val dot_S1024x128_S128x50_S1024x50_1_0_0_1_n_n 128 rfl rfl k
  have el : dot_S1024x128_S128x50_S1024x50_1_0_0_1_n_n.lhsIdx (ix2 r c)
      ((contrEquiv1 dot_S1024x128_S128x50_S1024x50_1_0_0_1_n_n 128 rfl rfl).symm k) = ix2 r k :=
    funext fun a => Fin.ext (by
      match a with
      | ⟨0, _⟩ => exact seg_lhs0 _ _
      | ⟨1, _⟩ => exact (seg_lhs1 _ _).trans hk)
  have er : dot_S1024x128_S128x50_S1024x50_1_0_0_1_n_n.rhsIdx (ix2 r c)
      ((contrEquiv1 dot_S1024x128_S128x50_S1024x50_1_0_0_1_n_n 128 rfl rfl).symm k) = ix2 k c :=
    funext fun a => Fin.ext (by
      match a with
      | ⟨0, _⟩ => exact (seg_rhs0 _ _).trans hk
      | ⟨1, _⟩ => exact seg_rhs1 _ _)
  rw [el, er]

/-! ### 128 hidden channels to the one confidence channel -/

theorem conf_lhs0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl
theorem conf_lhs1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem conf_rhs0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem conf_rhs1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-- Entry `(r, c)` of the confidence head's product (`c` is the one column). -/
theorem mm128x1_apply (x : FVec Ideal S1024x128 .bf16) (w : FVec Ideal S128x1 .bf16) (r : Fin 1024) (c : Fin 1) :
    matmul dot_S1024x128_S128x1_S1024x1_1_0_0_1_n_n none x w (constant (F := Ideal) S1024x1 .f32 0x00000000#32) (ix2 r c)
      = ∑ k : Fin 128, x (ix2 r k) * w (ix2 k c) := by
  show FloatOps.matmul dot_S1024x128_S128x1_S1024x1_1_0_0_1_n_n none x w
      (constant (F := Ideal) S1024x1 .f32 0x00000000#32) (ix2 r c) = _
  rw [Ideal.matmul_constant_zero_apply,
    ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 r c)
      ((contrEquiv1 dot_S1024x128_S128x1_S1024x1_1_0_0_1_n_n 128 rfl rfl).symm k) = ix2 r k :=
    funext fun a => Fin.ext (by
      match a with
      | ⟨0, _⟩ => exact conf_lhs0 _ _
      | ⟨1, _⟩ => exact (conf_lhs1 _ _).trans hk)
  have er : dot_S1024x128_S128x1_S1024x1_1_0_0_1_n_n.rhsIdx (ix2 r c)
      ((contrEquiv1 dot_S1024x128_S128x1_S1024x1_1_0_0_1_n_n 128 rfl rfl).symm k) = ix2 k c :=
    funext fun a => Fin.ext (by
      match a with
      | ⟨0, _⟩ => exact (conf_rhs0 _ _).trans hk
      | ⟨1, _⟩ => exact conf_rhs1 _ _)
  rw [el, er]

/-! ### Rows against rows: the second kernel's product contracts the last axis of both operands -/

theorem gram_lhs0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem gram_lhs1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem gram_rhs0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem gram_rhs1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry `(r, s)`: the sum over the 128 features of row `r` of the left block times row `s` of the right block. -/
theorem gram_apply (x w : FVec Ideal S1024x128 .bf16) (r s : Fin 1024) :
    matmul dot_S1024x128_S1024x128_S1024x1024_1_1_0_0_n_n none x w (constant (F := Ideal) S1024x1024 .f32 0x00000000#32) (ix2 r s)
      = ∑ d : Fin 128, x (ix2 r d) * w (ix2 s d) := by
  show FloatOps.matmul dot_S1024x128_S1024x128_S1024x1024_1_1_0_0_n_n none x w
      (constant (F := Ideal) S1024x1024 .f32 0x00000000#32) (ix2 r s) = _
  rw [Ideal.matmul_constant_zero_apply,
    ← Equiv.sum_comp (contrEquiv1 dot_S1024x128_S1024x128_S1024x1024_1_1_0_0_n_n 128 rfl rfl).symm]
  refine Finset.sum_congr rfl fun d _ => ?_
  have hd := contrEquiv1_symm_val dot_S1024x128_S1024x128_S1024x1024_1_1_0_0_n_n 128 rfl rfl d
  have el : dot_S1024x128_S1024x128_S1024x1024_1_1_0_0_n_n.lhsIdx (ix2 r s)
      ((contrEquiv1 dot_S1024x128_S1024x128_S1024x1024_1_1_0_0_n_n 128 rfl rfl).symm d) = ix2 r d :=
    funext fun a => Fin.ext (by
      match a with
      | ⟨0, _⟩ => exact gram_lhs0 _ _
      | ⟨1, _⟩ => exact (gram_lhs1 _ _).trans hd)
  have er : dot_S1024x128_S1024x128_S1024x1024_1_1_0_0_n_n.rhsIdx (ix2 r s)
      ((contrEquiv1 dot_S1024x128_S1024x128_S1024x1024_1_1_0_0_n_n 128 rfl rfl).symm d) = ix2 s d :=
    funext fun a => Fin.ext (by
      match a with
      | ⟨0, _⟩ => exact gram_rhs0 _ _
      | ⟨1, _⟩ => exact (gram_rhs1 _ _).trans hd)
  rw [el, er]

/-! ## One dense layer on the block

The layer's weights go through a format change (the identity here), the product accumulates into zero, and the bias vector,
made a row `[1, D]` and spread over the 1024 points, is added. At `(r, d)` that is `dense` of row `r`. -/

/-- 256 input channels to 128, from a block already in the narrow format. -/
theorem dense256_block (x : FVec Ideal S1024x256 .bf16) (W : Vec Ideal S256x128 .f32) (β : Vec Ideal S128 .f32)
    (r : Fin 1024) (d : Fin 128) :
    addf (matmul dot_S1024x256_S256x128_S1024x128_1_0_0_1_n_n none x (truncf .bf16 W bitsLt_bf16_f32)
          (constant (F := Ideal) S1024x128 .f32 0x00000000#32))
        (broadcastTo S1024x128 (shapeCast S1x128 β shapeCasts_S128_S1x128) broadcasts_S1x128_S1024x128) (ix2 r d)
      = Cert.Heads.dense (fun k => x (ix2 r k)) W β d := by
  refine (addf_apply _ _ _).trans ?_
  unfold Cert.Heads.dense
  refine congrArg₂ (· + ·) ?_ ?_
  · exact mm256x128_apply x _ r d
  · exact (broadcastTo_1b_ab_apply _ _ r d).trans (shapeCast_a_1a_apply _ _ 0 d)

/-- 128 hidden channels to the 50 segment channels. -/
theorem dense128x50_block (h : FVec Ideal S1024x128 .f32) (W : Vec Ideal S128x50 .f32) (β : Vec Ideal S50 .f32)
    (r : Fin 1024) (g : Fin 50) :
    addf (matmul dot_S1024x128_S128x50_S1024x50_1_0_0_1_n_n none (truncf .bf16 h bitsLt_bf16_f32)
          (truncf .bf16 W bitsLt_bf16_f32) (constant (F := Ideal) S1024x50 .f32 0x00000000#32))
        (broadcastTo S1024x50 (shapeCast S1x50 β shapeCasts_S50_S1x50) broadcasts_S1x50_S1024x50) (ix2 r g)
      = Cert.Heads.dense (fun k => h (ix2 r k)) W β g := by
  refine (addf_apply _ _ _).trans ?_
  unfold Cert.Heads.dense
  refine congrArg₂ (· + ·) ?_ ?_
  · exact mm128x50_apply _ _ r g
  · exact (broadcastTo_1b_ab_apply _ _ r g).trans (shapeCast_a_1a_apply _ _ 0 g)

/-- 128 hidden channels to the one confidence channel. -/
theorem dense128x1_block (h : FVec Ideal S1024x128 .f32) (W : Vec Ideal S128x1 .f32) (β : Vec Ideal S1 .f32)
    (r : Fin 1024) (o : Fin 1) :
    addf (matmul dot_S1024x128_S128x1_S1024x1_1_0_0_1_n_n none (truncf .bf16 h bitsLt_bf16_f32)
          (truncf .bf16 W bitsLt_bf16_f32) (constant (F := Ideal) S1024x1 .f32 0x00000000#32))
        (broadcastTo S1024x1 (shapeCast S1x1 β shapeCasts_S1_S1x1) broadcasts_S1x1_S1024x1) (ix2 r o)
      = Cert.Heads.dense (fun k => h (ix2 r k)) W β o := by
  refine (addf_apply _ _ _).trans ?_
  unfold Cert.Heads.dense
  refine congrArg₂ (· + ·) ?_ ?_
  · exact mm128x1_apply _ _ r o
  · exact (broadcastTo_1b_ab_apply _ _ r o).trans (shapeCast_a_1a_apply _ _ 0 o)

/-! ## The first kernel's stored values -/

/-- The block of points with its unit axis dropped (and its format changed): point `r`, feature `k`. -/
theorem pay5_apply (v0 : Vec Ideal S1x1024x256 .f32) (r : Fin 1024) (k : Fin 256) :
    k0_pay5 (F := Ideal) v0 (ix2 r k) = v0 (ix3 (0 : Fin 1) r k) := by
  unfold k0_pay5
  exact shapeCast_1ab_ab_apply v0 _ r k

/-- The similarity features: one dense layer of the block's row `r`. -/
theorem pay1_apply (v2 : FVec Ideal S1024x256 .bf16) (v35 : Vec Ideal S256x128 .f32) (v38 : Vec Ideal S128 .f32)
    (r : Fin 1024) (d : Fin 128) :
    k0_pay1 (F := Ideal) v2 v35 v38 (ix3 (0 : Fin 1) r d) = Cert.Heads.dense (fun k => v2 (ix2 r k)) v35 v38 d := by
  unfold k0_pay1
  refine (shapeCast_ab_1ab_apply _ _ 0 r d).trans ?_
  exact dense256_block v2 v35 v38 r d

/-- The segment logits: the semantic layer, then the segment layer, of point `r`'s features. -/
theorem pay6_apply (v0 : Vec Ideal S1x1024x256 .f32) (v3 : Vec Ideal S256x128 .f32) (v6 : Vec Ideal S128 .f32)
    (v10 : Vec Ideal S128x50 .f32) (v14 : Vec Ideal S50 .f32) (r : Fin 1024) (g : Fin 50) :
    k0_pay6 (F := Ideal) v0 v3 v6 v10 v14 (ix2 r g)
      = Cert.Heads.dense (Cert.Heads.dense (fun k : Fin 256 => v0 (ix3 (0 : Fin 1) r k)) v3 v6) v10 v14 g := by
  unfold k0_pay6
  refine (dense128x50_block _ v10 v14 r g).trans ?_
  refine congrArg (fun h => Cert.Heads.dense h v10 v14 g) (funext fun k => ?_)
  refine (dense256_block (k0_pay5 v0) v3 v6 r k).trans ?_
  exact congrArg (fun x => Cert.Heads.dense x v3 v6 k) (funext fun k' => pay5_apply v0 r k')

/-- The stored segment logits: the same, under a leading unit axis. -/
theorem pay7_apply (v0 : Vec Ideal S1x1024x256 .f32) (v3 : Vec Ideal S256x128 .f32) (v6 : Vec Ideal S128 .f32)
    (v10 : Vec Ideal S128x50 .f32) (v14 : Vec Ideal S50 .f32) (r : Fin 1024) (g : Fin 50) :
    k0_pay7 (F := Ideal) v0 v3 v6 v10 v14 (ix3 (0 : Fin 1) r g)
      = Cert.Heads.dense (Cert.Heads.dense (fun k : Fin 256 => v0 (ix3 (0 : Fin 1) r k)) v3 v6) v10 v14 g := by
  unfold k0_pay7
  exact (shapeCast_ab_1ab_apply _ _ 0 r g).trans (pay6_apply v0 v3 v6 v10 v14 r g)

/-- The confidence logit: the confidence layer, then its one-channel head, of the block's row `r`. -/
theorem pay2_apply (v2 : FVec Ideal S1024x256 .bf16) (v45 : Vec Ideal S256x128 .f32) (v48 : Vec Ideal S128 .f32)
    (v52 : Vec Ideal S128x1 .f32) (v56 : Vec Ideal S1 .f32) (r : Fin 1024) (o : Fin 1) :
    k0_pay2 (F := Ideal) v2 v45 v48 v52 v56 (ix2 r o)
      = Cert.Heads.dense (Cert.Heads.dense (fun k => v2 (ix2 r k)) v45 v48) v52 v56 0 := by
  obtain rfl : o = 0 := Subsingleton.elim _ _
  unfold k0_pay2
  refine (dense128x1_block _ v52 v56 r 0).trans ?_
  exact congrArg (fun h => Cert.Heads.dense h v52 v56 0) (funext fun k => dense256_block v2 v45 v48 r k)

/-- The stored confidence logit. -/
theorem pay3_apply (v2 : FVec Ideal S1024x256 .bf16) (v45 : Vec Ideal S256x128 .f32) (v48 : Vec Ideal S128 .f32)
    (v52 : Vec Ideal S128x1 .f32) (v56 : Vec Ideal S1 .f32) (r : Fin 1024) (o : Fin 1) :
    k0_pay3 (F := Ideal) v2 v45 v48 v52 v56 (ix3 (0 : Fin 1) r o)
      = Cert.Heads.dense (Cert.Heads.dense (fun k => v2 (ix2 r k)) v45 v48) v52 v56 0 := by
  unfold k0_pay3
  exact (shapeCast_ab_1ab_apply _ _ 0 r o).trans (pay2_apply v2 v45 v48 v52 v56 r o)

/-- The stored confidence: the logistic function of the logit. -/
theorem pay4_apply (v2 : FVec Ideal S1024x256 .bf16) (v45 : Vec Ideal S256x128 .f32) (v48 : Vec Ideal S128 .f32)
    (v52 : Vec Ideal S128x1 .f32) (v56 : Vec Ideal S1 .f32) (r : Fin 1024) (o : Fin 1) :
    k0_pay4 (F := Ideal) v2 v45 v48 v52 v56 (ix3 (0 : Fin 1) r o)
      = Ideal.logistic (Cert.Heads.dense (Cert.Heads.dense (fun k => v2 (ix2 r k)) v45 v48) v52 v56 0) := by
  unfold k0_pay4
  refine (shapeCast_ab_1ab_apply _ _ 0 r o).trans ?_
  exact congrArg Ideal.logistic (pay2_apply v2 v45 v48 v52 v56 r o)

/-! ## The softmax along the rows of a block of logits -/

/-- The row maxima (from −∞, and once more against −∞), as a column spread back over the 50 channels. -/
abbrev rowMaxB (y : FVec Ideal S1024x50 .f32) : FVec Ideal S1024x50 .f32 :=
  broadcastTo S1024x50
    (shapeCast S1024x1
      (maximumf (broadcast S1024 (Scalar.ofBits (F := Ideal) .f32 0xFF800000#32))
        (multiReduction .maximumf [1] S1024 y 0xFF800000#32 reduces_S1024x50_S1024 (.inl rfl) rfl))
      shapeCasts_S1024_S1024x1)
    broadcasts_S1024x1_S1024x50

theorem rowMaxB_apply (y : FVec Ideal S1024x50 .f32) (r : Fin 1024) (g : Fin 50) :
    rowMaxB y (ix2 r g) = max Cert.Heads.negInf (Cert.Heads.maxFrom fun g' : Fin 50 => y (ix2 r g')) := by
  refine (broadcastTo_a1_ab_apply _ _ r g).trans ?_
  refine (shapeCast_a_a1_apply _ _ r 0).trans ?_
  refine (maximumf_apply _ _ _).trans ?_
  exact congrArg (max Cert.Heads.negInf) (rowMax50_apply y r)

/-- The row sums, as a column spread back over the 50 channels. -/
abbrev rowSumB (e : FVec Ideal S1024x50 .f32) : FVec Ideal S1024x50 .f32 :=
  broadcastTo S1024x50
    (shapeCast S1024x1 (multiReduction .add [1] S1024 e 0x00000000#32 reduces_S1024x50_S1024 (.inl rfl) rfl)
      shapeCasts_S1024_S1024x1)
    broadcasts_S1024x1_S1024x50

theorem rowSumB_apply (e : FVec Ideal S1024x50 .f32) (r : Fin 1024) (g : Fin 50) :
    rowSumB e (ix2 r g) = ∑ g' : Fin 50, e (ix2 r g') :=
  (broadcastTo_a1_ab_apply _ _ r g).trans ((shapeCast_a_a1_apply _ _ r 0).trans (rowSum50_apply e r))

/-- Shift each row by its maximum, exponentiate, divide by the row's sum: at `(r, g)` the softmax of row `r`. -/
theorem softmax_block (y : FVec Ideal S1024x50 .f32) (r : Fin 1024) (g : Fin 50) :
    divf (exp (subf y (rowMaxB y))) (rowSumB (exp (subf y (rowMaxB y)))) (ix2 r g)
      = Cert.Heads.softmaxRow (fun g' : Fin 50 => y (ix2 r g')) g := by
  have hsh : ∀ g' : Fin 50, exp (subf y (rowMaxB y)) (ix2 r g')
      = Ideal.exp (y (ix2 r g') - max Cert.Heads.negInf (Cert.Heads.maxFrom fun g'' : Fin 50 => y (ix2 r g''))) :=
    fun g' => congrArg Ideal.exp ((subf_apply _ _ _).trans (congrArg (y (ix2 r g') - ·) (rowMaxB_apply y r g')))
  refine (divf_apply _ _ _).trans ?_
  unfold Cert.Heads.softmaxRow
  refine congrArg₂ Ideal.div (hsh g) ?_
  exact (rowSumB_apply _ r g).trans (Finset.sum_congr rfl fun g' _ => hsh g')

/-- The stored segment probabilities: the softmax of point `r`'s segment logits. -/
theorem pay8_apply (v0 : Vec Ideal S1x1024x256 .f32) (v3 : Vec Ideal S256x128 .f32) (v6 : Vec Ideal S128 .f32)
    (v10 : Vec Ideal S128x50 .f32) (v14 : Vec Ideal S50 .f32) (r : Fin 1024) (g : Fin 50) :
    k0_pay8 (F := Ideal) v0 v3 v6 v10 v14 (ix3 (0 : Fin 1) r g)
      = Cert.Heads.softmaxRow
          (Cert.Heads.dense (Cert.Heads.dense (fun k : Fin 256 => v0 (ix3 (0 : Fin 1) r k)) v3 v6) v10 v14) g := by
  unfold k0_pay8
  refine (shapeCast_ab_1ab_apply _ _ 0 r g).trans ?_
  refine (softmax_block (k0_pay6 v0 v3 v6 v10 v14) r g).trans ?_
  exact congrArg (fun z => Cert.Heads.softmaxRow z g) (funext fun g' => pay6_apply v0 v3 v6 v10 v14 r g')

/-! ## The second kernel's stored value -/

/-- The squared lengths of a block's rows, as a column spread over the 1024 columns. -/
abbrev sqCol (a : FVec Ideal S1024x128 .f32) : FVec Ideal S1024x1024 .f32 :=
  broadcastTo S1024x1024
    (shapeCast S1024x1 (multiReduction .add [1] S1024 (mulf a a) 0x00000000#32 reduces_S1024x128_S1024 (.inl rfl) rfl)
      shapeCasts_S1024_S1024x1)
    broadcasts_S1024x1_S1024x1024

theorem sqCol_apply (a : FVec Ideal S1024x128 .f32) (r s : Fin 1024) :
    sqCol a (ix2 r s) = ∑ d : Fin 128, a (ix2 r d) * a (ix2 r d) :=
  (broadcastTo_a1_ab_apply _ _ r s).trans ((shapeCast_a_a1_apply _ _ r 0).trans (rowSum128_apply (mulf a a) r))

/-- The same column turned into a row and spread over the 1024 rows: at `(r, s)` it reads row `s`. -/
abbrev sqRow (b : FVec Ideal S1024x128 .f32) : FVec Ideal S1024x1024 .f32 :=
  broadcastTo S1024x1024
    (transpose S1x1024 [1, 0]
      (shapeCast S1024x1 (multiReduction .add [1] S1024 (mulf b b) 0x00000000#32 reduces_S1024x128_S1024 (.inl rfl) rfl)
        shapeCasts_S1024_S1024x1)
      transposes_S1024x1_p1_0_S1x1024)
    broadcasts_S1x1024_S1024x1024

theorem sqRow_apply (b : FVec Ideal S1024x128 .f32) (r s : Fin 1024) :
    sqRow b (ix2 r s) = ∑ d : Fin 128, b (ix2 s d) * b (ix2 s d) :=
  (broadcastTo_1b_ab_apply _ _ r s).trans ((transpose_ix2_apply _ _ 0 s).trans
    ((shapeCast_a_a1_apply _ _ s 0).trans (rowSum128_apply (mulf b b) s)))

/-- Entry `(r, s)` of the stored block: the scaled, clamped squared distance between row `r` of the first block and row
    `s` of the second. -/
theorem dist_apply (v0 v2 : Vec Ideal S1x1024x128 .f32) (r s : Fin 1024) :
    k1_pay1 (F := Ideal) v0 v2 (ix3 (0 : Fin 1) r s)
      = Cert.Heads.dist (fun d : Fin 128 => v0 (ix3 (0 : Fin 1) r d)) (fun d : Fin 128 => v2 (ix3 (0 : Fin 1) s d)) := by
  unfold k1_pay1
  refine (shapeCast_ab_1ab_apply _ _ 0 r s).trans ?_
  have ha : ∀ d : Fin 128, shapeCast S1024x128 v0 shapeCasts_S1x1024x128_S1024x128 (ix2 r d) = v0 (ix3 (0 : Fin 1) r d) :=
    fun d => shapeCast_1ab_ab_apply v0 _ r d
  have hb : ∀ d : Fin 128, shapeCast S1024x128 v2 shapeCasts_S1x1024x128_S1024x128 (ix2 s d) = v2 (ix3 (0 : Fin 1) s d) :=
    fun d => shapeCast_1ab_ab_apply v2 _ s d
  show max (Cert.Heads.ten * ((sqCol (shapeCast S1024x128 v0 shapeCasts_S1x1024x128_S1024x128) (ix2 r s)
        - Cert.Heads.two * matmul dot_S1024x128_S1024x128_S1024x1024_1_1_0_0_n_n none
            (truncf .bf16 (shapeCast S1024x128 v0 shapeCasts_S1x1024x128_S1024x128) bitsLt_bf16_f32)
            (truncf .bf16 (shapeCast S1024x128 v2 shapeCasts_S1x1024x128_S1024x128) bitsLt_bf16_f32)
            (constant (F := Ideal) S1024x1024 .f32 0x00000000#32) (ix2 r s))
        + sqRow (shapeCast S1024x128 v2 shapeCasts_S1x1024x128_S1024x128) (ix2 r s))) Cert.Heads.zero = _
  rw [sqCol_apply, sqRow_apply, gram_apply]
  unfold Cert.Heads.dist Cert.Heads.sqLen Cert.Heads.inner
  simp only [truncf_apply, ha, hb]

end Cert.KernelIdeal.PayValue

end
-- ==== Proof.HeadsArrays.lean ====
/-
  The first launch's result arrays as whole-array functions of the arrays the launch found: the similarity features
  and the segment logits. Grid point t = 4·b + i writes rows 1024·i … 1024·i + 1023 of batch b of each result array
  from the result's block; entry (0, r, g) of that block is a function of row r of the point-feature block, which is
  the feature row of point (b, 1024·i + r), and of the weight and bias arrays whole. So every write-back is the block
  of ONE function of the array index, and the sixteen blocks tile the array.
-/
import proofs.«118794_j27084063768631_1_alg».proof.Proof.HeadsLaunch
import proofs.«118794_j27084063768631_1_alg».proof.Proof.Heads
import proofs.«118794_j27084063768631_1_alg».proof.Proof.PayHeads
import Idealize.ShloMosaic.Lib.Pipeline.Value
import Idealize.ShloMosaic.Lib.ValueIdx

set_option maxRecDepth 16384

noncomputable section

namespace Cert.KernelIdeal.HeadsArrays

open Cert.KernelIdeal Cert.KernelIdeal.Gen Cert.KernelIdeal.Heads0
open Idealize.ShloMosaic Idealize.ShloMosaic.TcCoe Idealize.ShloMosaic.ValueIdx
open Idealize.SL.Sem
open Idealize.ShloMosaic.Pipeline (Dat)

/-! ## The zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Where the windows sit at a grid point -/

/-- Point t = 4·b + i has the point features' block, the similarity features' and the segment logits' at block
    index (b, i, 0). -/
theorem idx_facts : ∀ t : Fin cfg0.N,
    (win0_0.index t (0 : Fin 3) = t.val / 4 ∧ win0_0.index t (1 : Fin 3) = t.val % 4 ∧ win0_0.index t (2 : Fin 3) = 0)
    ∧ (win0_11.index t (0 : Fin 3) = t.val / 4 ∧ win0_11.index t (1 : Fin 3) = t.val % 4 ∧ win0_11.index t (2 : Fin 3) = 0)
    ∧ (win0_13.index t (0 : Fin 3) = t.val / 4 ∧ win0_13.index t (1 : Fin 3) = t.val % 4 ∧ win0_13.index t (2 : Fin 3) = 0) :=
  (by decide +kernel : ∀ t : Fin grid0.N, _)

/-- The weight and bias windows of the two heads are whole arrays: block index 0 at every point. -/
theorem idx_whole : ∀ t : Fin cfg0.N,
    (win0_1.index t (0 : Fin 2) = 0 ∧ win0_1.index t (1 : Fin 2) = 0) ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0 :=
  (by decide +kernel : ∀ t : Fin grid0.N, _)

section Blocks

variable (V : (c : Dev nD) → (b : Ref sig .tc) → Buf (Elt Ideal) ((c : Thread nD τ).loc b))

/-! ## The input blocks, read off the arrays -/

/-- Row r of the point features' block at point t is row 1024·(t mod 4) + r of batch t / 4 of the array. -/
theorem xblk_apply (c : Dev nD) (t : Fin cfg0.N) (r : Fin 1024) (k : Fin 256) (b : Fin 4) (n : Fin 4096)
    (hb : b.val = t.val / 4) (hn : n.val = 1024 * (t.val % 4) + r.val) :
    (blk V c 0 t : S1x1024x256.Idx → EReal) (ix3 (0 : Fin 1) r k) = (V c main_v0 : S4x4096x256.Idx → EReal) (ix3 b n k) := by
  obtain ⟨⟨e0, e1, e2⟩, -⟩ := idx_facts t
  show (V c main_v0 : S4x4096x256.Idx → EReal) (((cfg0.win 0).blk t).view.emb (ix3 (0 : Fin 1) r k)) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 256 + 1 * k.val = k.val; omega

/-- A whole window's block is its array. -/
theorem wblk_1 (c : Dev nD) (t : Fin cfg0.N) : (blk V c 1 t : S256x128.Idx → EReal) = V c main_arg1 := by
  obtain ⟨⟨e0, e1⟩, -⟩ := idx_whole t
  funext y
  show (V c main_arg1 : S256x128.Idx → EReal) (((cfg0.win 1).blk t).view.emb y) = _
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem wblk_2 (c : Dev nD) (t : Fin cfg0.N) : (blk V c 2 t : S128.Idx → EReal) = V c main_arg2 := by
  obtain ⟨-, e0, -⟩ := idx_whole t
  funext y
  show (V c main_arg2 : S128.Idx → EReal) (((cfg0.win 2).blk t).view.emb y) = _
  refine congrArg _ (funext fun a => Fin.ext ?_)
  match a with
  | ⟨0, _⟩ => show win0_2.index t (0 : Fin 1) * 128 + 1 * (y 0).val = (y 0).val; omega
theorem wblk_3 (c : Dev nD) (t : Fin cfg0.N) : (blk V c 3 t : S128x50.Idx → EReal) = V c main_arg3 := by
  obtain ⟨-, -, ⟨e0, e1⟩, -⟩ := idx_whole t
  funext y
  show (V c main_arg3 : S128x50.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 50 + 1 * (y 1).val = (y 1).val; omega
theorem wblk_4 (c : Dev nD) (t : Fin cfg0.N) : (blk V c 4 t : S50.Idx → EReal) = V c main_arg4 := by
  obtain ⟨-, -, -, e0, -⟩ := idx_whole t
  funext y
  show (V c main_arg4 : S50.Idx → EReal) (((cfg0.win 4).blk t).view.emb y) = _
  refine congrArg _ (funext fun a => Fin.ext ?_)
  match a with
  | ⟨0, _⟩ => show win0_4.index t (0 : Fin 1) * 50 + 1 * (y 0).val = (y 0).val; omega
theorem wblk_5 (c : Dev nD) (t : Fin cfg0.N) : (blk V c 5 t : S256x128.Idx → EReal) = V c main_arg5 := by
  obtain ⟨-, -, -, -, ⟨e0, e1⟩, -⟩ := idx_whole t
  funext y
  show (V c main_arg5 : S256x128.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega
theorem wblk_6 (c : Dev nD) (t : Fin cfg0.N) : (blk V c 6 t : S128.Idx → EReal) = V c main_arg6 := by
  obtain ⟨-, -, -, -, -, e0⟩ := idx_whole t
  funext y
  show (V c main_arg6 : S128.Idx → EReal) (((cfg0.win 6).blk t).view.emb y) = _
  refine congrArg _ (funext fun a => Fin.ext ?_)
  match a with
  | ⟨0, _⟩ => show win0_6.index t (0 : Fin 1) * 128 + 1 * (y 0).val = (y 0).val; omega

end Blocks

/-! ## One entry of a result block -/

/-- Entry (0, r, d) of the similarity features' block is the similarity feature d of the point whose features row r
    of the point-feature block holds. -/
theorem simFeats_entry (X : Cert.Heads.XIdx → EReal) (x : Vec Ideal S1x1024x256 .f32) (W : Vec Ideal S256x128 .f32)
    (β : Vec Ideal S128 .f32) (b : Fin 4) (n : Fin 4096) (r : Fin 1024) (d : Fin 128)
    (y : S1x1024x128.Idx) (i : S4x4096x128.Idx)
    (hy1 : (y 1).val = r.val) (hy2 : (y 2).val = d.val)
    (hi0 : (i 0).val = b.val) (hi1 : (i 1).val = n.val) (hi2 : (i 2).val = d.val)
    (hx : ∀ k : Fin 256, x (ix3 (0 : Fin 1) r k) = X (ix4 b n (0 : Fin 1) k)) :
    k0_pay1 (F := Ideal) (k0_pay5 x) W β y = Cert.Heads.simFeats X W β i := by
  obtain rfl : y = ix3 (0 : Fin 1) r d := by
    funext a; apply Fin.ext
    match a with
    | ⟨0, _⟩ => show (y 0).val = 0; have h : (y 0).val < 1 := (y 0).isLt; omega
    | ⟨1, _⟩ => exact hy1
    | ⟨2, _⟩ => exact hy2
  obtain rfl : i = ix3 b n d := by
    funext a; apply Fin.ext
    match a with
    | ⟨0, _⟩ => exact hi0
    | ⟨1, _⟩ => exact hi1
    | ⟨2, _⟩ => exact hi2
  refine (PayValue.pay1_apply (k0_pay5 x) W β r d).trans ?_
  refine (congrArg (fun f : Fin 256 → EReal => Cert.Heads.dense f W β d) (funext fun k => ?_)).trans
    (Cert.Heads.simFeats_ix X W β b n d).symm
  exact (PayValue.pay5_apply x r k).trans (hx k)

/-- Entry (0, r, g) of the segment logits' block is the segment logit g of that point. -/
theorem segLogits_entry (X : Cert.Heads.XIdx → EReal) (x : Vec Ideal S1x1024x256 .f32) (Wsem : Vec Ideal S256x128 .f32)
    (bsem : Vec Ideal S128 .f32) (Wseg : Vec Ideal S128x50 .f32) (bseg : Vec Ideal S50 .f32)
    (b : Fin 4) (n : Fin 4096) (r : Fin 1024) (g : Fin 50)
    (y : S1x1024x50.Idx) (i : S4x4096x50.Idx)
    (hy1 : (y 1).val = r.val) (hy2 : (y 2).val = g.val)
    (hi0 : (i 0).val = b.val) (hi1 : (i 1).val = n.val) (hi2 : (i 2).val = g.val)
    (hx : ∀ k : Fin 256, x (ix3 (0 : Fin 1) r k) = X (ix4 b n (0 : Fin 1) k)) :
    k0_pay7 (F := Ideal) x Wsem bsem Wseg bseg y = Cert.Heads.segLogits X Wsem bsem Wseg bseg i := by
  obtain rfl : y = ix3 (0 : Fin 1) r g := by
    funext a; apply Fin.ext
    match a with
    | ⟨0, _⟩ => show (y 0).val = 0; have h : (y 0).val < 1 := (y 0).isLt; omega
    | ⟨1, _⟩ => exact hy1
    | ⟨2, _⟩ => exact hy2
  obtain rfl : i = ix3 b n g := by
    funext a; apply Fin.ext
    match a with
    | ⟨0, _⟩ => exact hi0
    | ⟨1, _⟩ => exact hi1
    | ⟨2, _⟩ => exact hi2
  refine (PayValue.pay7_apply x Wsem bsem Wseg bseg r g).trans ?_
  refine (congrArg (fun f : Fin 256 → EReal => Cert.Heads.dense (Cert.Heads.dense f Wsem bsem) Wseg bseg g)
    (funext fun k => hx k)).trans (Cert.Heads.segLogits_ix X Wsem bsem Wseg bseg b n g).symm

/-! ## What a point writes back, the tiling, and the arrays after the launch -/

section Arrays

variable (V : (c : Dev nD) → (b : Ref sig .tc) → Buf (Elt Ideal) ((c : Thread nD τ).loc b))
variable (X : Cert.Heads.XIdx → EReal)

/-- Point t writes back block t of the similarity features of the whole point cloud. -/
theorem simFeats_flushed (c : Dev nD)
    (hX : ∀ (b : Fin 4) (n : Fin 4096) (k : Fin 256), V c main_v0 (ix3 b n k) = X (ix4 b n (0 : Fin 1) k))
    (t : Fin cfg0.N) :
    (dat (F := Ideal) V c).flushed 13 t
      = ((cfg0.win 13).blk t).view.read (Elt Ideal) (Cert.Heads.simFeats X (V c main_arg5) (V c main_arg6)) := by
  show (cfg0.win 13).cut (grid0.coords t) ((dat V c).after 13 t) = _
  rw [after_13, wblk_5, wblk_6]
  unfold simFeatsBlk
  rw [View.canon_unit_zero hz3]
  simp only [View.ld_unit_zero (S := S1x1024x256) hz3, View.ld_unit_zero (S := S256x128) hz2, View.ld_unit_zero (S := S128) hz1]
  obtain ⟨-, -, ⟨e0, e1, e2⟩⟩ := idx_facts t
  have ht : t.val < grid0.N := t.isLt
  rw [N_0] at ht
  funext j
  have hj0 : (j 0).val < 1 := (j 0).isLt
  have hj1 : (j 1).val < 1024 := (j 1).isLt
  have hj2 : (j 2).val < 128 := (j 2).isLt
  refine simFeats_entry X (blk V c 0 t) (V c main_arg5) (V c main_arg6) ⟨t.val / 4, by omega⟩
    ⟨1024 * (t.val % 4) + (j 1).val, by omega⟩ ⟨(j 1).val, hj1⟩ ⟨(j 2).val, hj2⟩ _ (((cfg0.win 13).blk t).view.emb j)
    rfl rfl ?_ ?_ ?_ (fun k => ?_)
  · show win0_13.index t (0 : Fin 3) * 1 + 1 * (j 0).val = t.val / 4; omega
  · show win0_13.index t (1 : Fin 3) * 1024 + 1 * (j 1).val = 1024 * (t.val % 4) + (j 1).val; omega
  · show win0_13.index t (2 : Fin 3) * 128 + 1 * (j 2).val = (j 2).val; omega
  · exact (xblk_apply V c t _ k _ _ rfl rfl).trans (hX _ _ k)

/-- An index of the similarity features' array lies in point t's block iff each coordinate lies in the block's range. -/
theorem mem_blk13 (t : Fin cfg0.N) (i : S4x4096x128.Idx) :
    i ∈ ((cfg0.win 13).blk t).view.set ↔ ∀ a : Fin 3, win0_13.index t a * S1x1024x128.size a ≤ (i a).val
      ∧ (i a).val < win0_13.index t a * S1x1024x128.size a + S1x1024x128.size a := by
  show i ∈ ((View.whole main_v1_2).slice (win0_13.rect t)).set ↔ _
  rw [View.set_slice_whole, Rect.mem_set_unit]
  exact Iff.rfl

/-- The sixteen blocks tile the array: index (b, n, d) lies in the block of point 4·b + n / 1024. -/
theorem cover13 (i : S4x4096x128.Idx) :
    ∃ t : Fin cfg0.N, (cfg0.win 13).flush t = true ∧ i ∈ ((cfg0.win 13).blk t).view.set := by
  have hi0 : (i 0).val < 4 := (i 0).isLt
  have hi1 : (i 1).val < 4096 := (i 1).isLt
  have hi2 : (i 2).val < 128 := (i 2).isLt
  have hN : grid0.N = 16 := N_0
  obtain ⟨t, ht⟩ : ∃ t : Fin cfg0.N, t.val = 4 * (i 0).val + (i 1).val / 1024 :=
    ⟨⟨4 * (i 0).val + (i 1).val / 1024, by show _ < grid0.N; omega⟩, rfl⟩
  obtain ⟨-, -, ⟨e0, e1, e2⟩⟩ := idx_facts t
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 1024 ≤ (i 1).val ∧ (i 1).val < win0_13.index t (1 : Fin 3) * 1024 + 1024; omega
  | ⟨2, _⟩ => show win0_13.index t (2 : Fin 3) * 128 ≤ (i 2).val ∧ (i 2).val < win0_13.index t (2 : Fin 3) * 128 + 128; omega

/-- THE SIMILARITY FEATURES after the launch: the whole-array function of the point features and the similarity
    head's weights, as the launch found them. -/
theorem simFeats_final (c : Dev nD)
    (hX : ∀ (b : Fin 4) (n : Fin 4096) (k : Fin 256), V c main_v0 (ix3 b n k) = X (ix4 b n (0 : Fin 1) k)) :
    (dat (F := Ideal) V c).arrAt 13 cfg0.N = Cert.Heads.simFeats X (V c main_arg5) (V c main_arg6) :=
  (dat (F := Ideal) V c).arrAt_eq_of_cover 13 (Cert.Heads.simFeats X (V c main_arg5) (V c main_arg6))
    (fun t _ => simFeats_flushed V X c hX t) cover13

/-- Point t writes back block t of the segment logits of the whole point cloud. -/
theorem segLogits_flushed (c : Dev nD)
    (hX : ∀ (b : Fin 4) (n : Fin 4096) (k : Fin 256), V c main_v0 (ix3 b n k) = X (ix4 b n (0 : Fin 1) k))
    (t : Fin cfg0.N) :
    (dat (F := Ideal) V c).flushed 11 t
      = ((cfg0.win 11).blk t).view.read (Elt Ideal)
          (Cert.Heads.segLogits X (V c main_arg1) (V c main_arg2) (V c main_arg3) (V c main_arg4)) := by
  show (cfg0.win 11).cut (grid0.coords t) ((dat V c).after 11 t) = _
  rw [after_11, wblk_1, wblk_2, wblk_3, wblk_4]
  unfold segLogitsBlk
  rw [View.canon_unit_zero hz3]
  simp only [View.ld_unit_zero (S := S1x1024x256) hz3, View.ld_unit_zero (S := S256x128) hz2, View.ld_unit_zero (S := S128) hz1,
    View.ld_unit_zero (S := S128x50) hz2, View.ld_unit_zero (S := S50) hz1]
  obtain ⟨-, ⟨e0, e1, e2⟩, -⟩ := idx_facts t
  have ht : t.val < grid0.N := t.isLt
  rw [N_0] at ht
  funext j
  have hj0 : (j 0).val < 1 := (j 0).isLt
  have hj1 : (j 1).val < 1024 := (j 1).isLt
  have hj2 : (j 2).val < 50 := (j 2).isLt
  refine segLogits_entry X (blk V c 0 t) (V c main_arg1) (V c main_arg2) (V c main_arg3) (V c main_arg4) ⟨t.val / 4, by omega⟩
    ⟨1024 * (t.val % 4) + (j 1).val, by omega⟩ ⟨(j 1).val, hj1⟩ ⟨(j 2).val, hj2⟩ _ (((cfg0.win 11).blk t).view.emb j)
    rfl rfl ?_ ?_ ?_ (fun k => ?_)
  · show win0_11.index t (0 : Fin 3) * 1 + 1 * (j 0).val = t.val / 4; omega
  · show win0_11.index t (1 : Fin 3) * 1024 + 1 * (j 1).val = 1024 * (t.val % 4) + (j 1).val; omega
  · show win0_11.index t (2 : Fin 3) * 50 + 1 * (j 2).val = (j 2).val; omega
  · exact (xblk_apply V c t _ k _ _ rfl rfl).trans (hX _ _ k)

/-- An index of the segment logits' array lies in point t's block iff each coordinate lies in the block's range. -/
theorem mem_blk11 (t : Fin cfg0.N) (i : S4x4096x50.Idx) :
    i ∈ ((cfg0.win 11).blk t).view.set ↔ ∀ a : Fin 3, win0_11.index t a * S1x1024x50.size a ≤ (i a).val
      ∧ (i a).val < win0_11.index t a * S1x1024x50.size a + S1x1024x50.size a := by
  show i ∈ ((View.whole main_v1_0).slice (win0_11.rect t)).set ↔ _
  rw [View.set_slice_whole, Rect.mem_set_unit]
  exact Iff.rfl

/-- The sixteen blocks tile the array: index (b, n, g) lies in the block of point 4·b + n / 1024. -/
theorem cover11 (i : S4x4096x50.Idx) :
    ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 50 := (i 2).isLt
  have hN : grid0.N = 16 := N_0
  obtain ⟨t, ht⟩ : ∃ t : Fin cfg0.N, t.val = 4 * (i 0).val + (i 1).val / 1024 :=
    ⟨⟨4 * (i 0).val + (i 1).val / 1024, by show _ < grid0.N; omega⟩, rfl⟩
  obtain ⟨-, ⟨e0, e1, e2⟩, -⟩ := idx_facts t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1024 ≤ (i 1).val ∧ (i 1).val < win0_11.index t (1 : Fin 3) * 1024 + 1024; omega
  | ⟨2, _⟩ => show win0_11.index t (2 : Fin 3) * 50 ≤ (i 2).val ∧ (i 2).val < win0_11.index t (2 : Fin 3) * 50 + 50; omega

/-- THE SEGMENT LOGITS after the launch: the whole-array function of the point features and the segmentation
    head's weights, as the launch found them. -/
theorem segLogits_final (c : Dev nD)
    (hX : ∀ (b : Fin 4) (n : Fin 4096) (k : Fin 256), V c main_v0 (ix3 b n k) = X (ix4 b n (0 : Fin 1) k)) :
    (dat (F := Ideal) V c).arrAt 11 cfg0.N
      = Cert.Heads.segLogits X (V c main_arg1) (V c main_arg2) (V c main_arg3) (V c main_arg4) :=
  (dat (F := Ideal) V c).arrAt_eq_of_cover 11
    (Cert.Heads.segLogits X (V c main_arg1) (V c main_arg2) (V c main_arg3) (V c main_arg4))
    (fun t _ => segLogits_flushed V X c hX t) cover11

end Arrays

end Cert.KernelIdeal.HeadsArrays

end
-- ==== Proof.HeadsArraysB.lean ====
/-
  From blocks to arrays, for three of the first launch's outputs: the confidence logits, the confidences and the segment
  probabilities.

  The grid has 4 × 4 points. Point `t` = (b, i) = (t / 4, t % 4) is handed rows 1024·i … 1024·i + 1023 of batch `b` of the
  point features and all of every weight and bias array, and writes back block (b, i, 0) of each output array. Entry
  `(0, r, ·)` of an output block is a function of row `r` of the feature block and of the weights; row `r` of the block is
  point `n = 1024·i + r` of batch `b`, and the entry lands at `(b, n, ·)` of the array. So every write-back is the matching
  block of ONE function of the whole arrays, the per-point head of `Cert.Heads`; the sixteen blocks tile the array (index
  `(b, n, ·)` lies in the block of point `4·b + n / 1024`); hence the array ends holding that function.
-/
import proofs.«118794_j27084063768631_1_alg».proof.Proof.HeadsLaunch
import proofs.«118794_j27084063768631_1_alg».proof.Proof.Heads
import proofs.«118794_j27084063768631_1_alg».proof.Proof.PayHeads
import Idealize.ShloMosaic.Lib.Pipeline.Value
import Idealize.ShloMosaic.Lib.ValueIdx

noncomputable section

namespace Cert.KernelIdeal.HeadsArraysB

open Cert.KernelIdeal Cert.KernelIdeal.Gen Cert.KernelIdeal.Heads0 Cert.KernelIdeal.PayValue
open Idealize.ShloMosaic Idealize.ShloMosaic.TcCoe Idealize.ShloMosaic.ValueIdx Idealize.SL.Sem
open Idealize.ShloMosaic.Pipeline (Dat)

/-! ## The index maps, decided once over the grid -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The feature window and the three output windows have block indices `(t / 4, t % 4, 0)` at point `t`. -/
theorem idx_rows : ∀ t : Fin cfg0.N,
    win0_0.index t (0 : Fin 3) = t.val / 4 ∧ win0_0.index t (1 : Fin 3) = t.val % 4 ∧ win0_0.index t (2 : Fin 3) = 0
    ∧ win0_12.index t (0 : Fin 3) = t.val / 4 ∧ win0_12.index t (1 : Fin 3) = t.val % 4 ∧ win0_12.index t (2 : Fin 3) = 0
    ∧ win0_14.index t (0 : Fin 3) = t.val / 4 ∧ win0_14.index t (1 : Fin 3) = t.val % 4 ∧ win0_14.index t (2 : Fin 3) = 0
    ∧ win0_15.index t (0 : Fin 3) = t.val / 4 ∧ win0_15.index t (1 : Fin 3) = t.val % 4 ∧ win0_15.index t (2 : Fin 3) = 0 :=
  (by decide +kernel : ∀ t : Fin grid0.N, _)

/-- The weight and bias windows these heads read have block index 0 on every axis at every point. -/
theorem idx_whole : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0 :=
  (by decide +kernel : ∀ t : Fin grid0.N, _)

/-! ## The input blocks, read off the arrays -/

section Blocks
variable (V : (c : Dev nD) → (b : Ref sig .tc) → Buf (Elt Ideal) ((c : Thread nD τ).loc b))

/-- Row `r` of the feature block at point `t` is point `1024·(t % 4) + r` of batch `t / 4`: a block's coordinate is the block
    index times the block size plus the coordinate inside the block. -/
theorem xblk_apply (c : Dev nD) (t : Fin cfg0.N) (r : Fin 1024) (k : Fin 256) (b : Fin 4) (n : Fin 4096)
    (hb : b.val = t.val / 4) (hn : n.val = 1024 * (t.val % 4) + r.val) :
    (blk V c 0 t : Vec Ideal S1x1024x256 .f32) (ix3 (0 : Fin 1) r k)
      = (V c main_v0 : S4x4096x256.Idx → EReal) (ix3 b n k) := by
  obtain ⟨e0, e1, e2, -⟩ := idx_rows t
  unfold blk
  rw [View.read_apply]
  show V c main_v0 (((cfg0.win 0).blk t).view.emb (ix3 (0 : Fin 1) r k)) = V c main_v0 (ix3 b n k)
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 256 + 1 * k.val = k.val; omega

/-- A window over a whole array (block index 0) hands the body the array itself. -/
theorem wblk1 (c : Dev nD) (t : Fin cfg0.N) : (blk V c 1 t : Vec Ideal S256x128 .f32) = V c main_arg1 := by
  obtain ⟨e0, e1, -⟩ := idx_whole t
  funext y
  unfold blk
  rw [View.read_apply]
  show V c main_arg1 (((cfg0.win 1).blk t).view.emb y) = V c main_arg1 y
  refine congrArg (V c main_arg1) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem wblk2 (c : Dev nD) (t : Fin cfg0.N) : (blk V c 2 t : Vec Ideal S128 .f32) = V c main_arg2 := by
  obtain ⟨-, -, e0, -⟩ := idx_whole t
  funext y
  unfold blk
  rw [View.read_apply]
  show V c main_arg2 (((cfg0.win 2).blk t).view.emb y) = V c main_arg2 y
  refine congrArg (V c main_arg2) (funext fun a => Fin.ext ?_)
  match a with
  | ⟨0, _⟩ => show win0_2.index t (0 : Fin 1) * 128 + 1 * (y 0).val = (y 0).val; omega
theorem wblk3 (c : Dev nD) (t : Fin cfg0.N) : (blk V c 3 t : Vec Ideal S128x50 .f32) = V c main_arg3 := by
  obtain ⟨-, -, -, e0, e1, -⟩ := idx_whole t
  funext y
  unfold blk
  rw [View.read_apply]
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 50 + 1 * (y 1).val = (y 1).val; omega
theorem wblk4 (c : Dev nD) (t : Fin cfg0.N) : (blk V c 4 t : Vec Ideal S50 .f32) = V c main_arg4 := by
  obtain ⟨-, -, -, -, -, e0, -⟩ := idx_whole t
  funext y
  unfold blk
  rw [View.read_apply]
  show V c main_arg4 (((cfg0.win 4).blk t).view.emb y) = V c main_arg4 y
  refine congrArg (V c main_arg4) (funext fun a => Fin.ext ?_)
  match a with
  | ⟨0, _⟩ => show win0_4.index t (0 : Fin 1) * 50 + 1 * (y 0).val = (y 0).val; omega
theorem wblk7 (c : Dev nD) (t : Fin cfg0.N) : (blk V c 7 t : Vec Ideal S256x128 .f32) = V c main_arg7 := by
  obtain ⟨-, -, -, -, -, -, e0, e1, -⟩ := idx_whole t
  funext y
  unfold blk
  rw [View.read_apply]
  show V c main_arg7 (((cfg0.win 7).blk t).view.emb y) = V c main_arg7 y
  refine congrArg (V c main_arg7) (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega
theorem wblk8 (c : Dev nD) (t : Fin cfg0.N) : (blk V c 8 t : Vec Ideal S128 .f32) = V c main_arg8 := by
  obtain ⟨-, -, -, -, -, -, -, -, e0, -⟩ := idx_whole t
  funext y
  unfold blk
  rw [View.read_apply]
  show V c main_arg8 (((cfg0.win 8).blk t).view.emb y) = V c main_arg8 y
  refine congrArg (V c main_arg8) (funext fun a => Fin.ext ?_)
  match a with
  | ⟨0, _⟩ => show win0_8.index t (0 : Fin 1) * 128 + 1 * (y 0).val = (y 0).val; omega
theorem wblk9 (c : Dev nD) (t : Fin cfg0.N) : (blk V c 9 t : Vec Ideal S128x1 .f32) = V c main_arg9 := by
  obtain ⟨-, -, -, -, -, -, -, -, -, e0, e1, -⟩ := idx_whole t
  funext y
  unfold blk
  rw [View.read_apply]
  show V c main_arg9 (((cfg0.win 9).blk t).view.emb y) = V c main_arg9 y
  refine congrArg (V c main_arg9) (funext fun a => Fin.ext ?_)
  match a with
  | ⟨0, _⟩ => show win0_9.index t (0 : Fin 2) * 128 + 1 * (y 0).val = (y 0).val; omega
  | ⟨1, _⟩ => show win0_9.index t (1 : Fin 2) * 1 + 1 * (y 1).val = (y 1).val; omega
theorem wblk10 (c : Dev nD) (t : Fin cfg0.N) : (blk V c 10 t : Vec Ideal S1 .f32) = V c main_arg10 := by
  obtain ⟨-, -, -, -, -, -, -, -, -, -, -, e0⟩ := idx_whole t
  funext y
  unfold blk
  rw [View.read_apply]
  show V c main_arg10 (((cfg0.win 10).blk t).view.emb y) = V c main_arg10 y
  refine congrArg (V c main_arg10) (funext fun a => Fin.ext ?_)
  match a with
  | ⟨0, _⟩ => show win0_10.index t (0 : Fin 1) * 1 + 1 * (y 0).val = (y 0).val; omega

end Blocks

/-! ## One entry of an output block, from one row of the feature block

Stated over variables: a feature block `x`, weights and biases, and coordinates. The body's single store through the
whole-buffer rectangle leaves its payload, and the loads through whole-buffer rectangles read the blocks themselves. -/

/-- The confidence-logit block at `(0, r, o)`. -/
theorem confLogitsBlk_apply (x : Vec Ideal S1x1024x256 .f32) (W : Vec Ideal S256x128 .f32) (β : Vec Ideal S128 .f32)
    (W' : Vec Ideal S128x1 .f32) (β' : Vec Ideal S1 .f32) (r : Fin 1024) (o : Fin 1) :
    confLogitsBlk x W β W' β' (ix3 (0 : Fin 1) r o)
      = Cert.Heads.dense (Cert.Heads.dense (fun k : Fin 256 => x (ix3 (0 : Fin 1) r k)) W β) W' β' 0 := by
  unfold confLogitsBlk
  rw [View.canon_unit_zero hz3]
  simp only [View.ld_unit_zero (S := S1x1024x256) hz3, View.ld_unit_zero (S := S256x128) hz2,
    View.ld_unit_zero (S := S128) hz1, View.ld_unit_zero (S := S128x1) hz2, View.ld_unit_zero (S := S1) hz1]
  refine (pay3_apply _ W β W' β' r o).trans ?_
  exact congrArg (fun f => Cert.Heads.dense (Cert.Heads.dense f W β) W' β' 0) (funext fun k => pay5_apply x r k)

/-- The confidence block at `(0, r, o)`. -/
theorem confsBlk_apply (x : Vec Ideal S1x1024x256 .f32) (W : Vec Ideal S256x128 .f32) (β : Vec Ideal S128 .f32)
    (W' : Vec Ideal S128x1 .f32) (β' : Vec Ideal S1 .f32) (r : Fin 1024) (o : Fin 1) :
    confsBlk x W β W' β' (ix3 (0 : Fin 1) r o)
      = Ideal.logistic (Cert.Heads.dense (Cert.Heads.dense (fun k : Fin 256 => x (ix3 (0 : Fin 1) r k)) W β) W' β' 0) := by
  unfold confsBlk
  rw [View.canon_unit_zero hz3]
  simp only [View.ld_unit_zero (S := S1x1024x256) hz3, View.ld_unit_zero (S := S256x128) hz2,
    View.ld_unit_zero (S := S128) hz1, View.ld_unit_zero (S := S128x1) hz2, View.ld_unit_zero (S := S1) hz1]
  refine (pay4_apply _ W β W' β' r o).trans ?_
  exact congrArg (fun f => Ideal.logistic (Cert.Heads.dense (Cert.Heads.dense f W β) W' β' 0))
    (funext fun k => pay5_apply x r k)

/-- The segment-probability block at `(0, r, g)`. -/
theorem segProbsBlk_apply (x : Vec Ideal S1x1024x256 .f32) (W : Vec Ideal S256x128 .f32) (β : Vec Ideal S128 .f32)
    (W' : Vec Ideal S128x50 .f32) (β' : Vec Ideal S50 .f32) (r : Fin 1024) (g : Fin 50) :
    segProbsBlk x W β W' β' (ix3 (0 : Fin 1) r g)
      = Cert.Heads.softmaxRow
          (Cert.Heads.dense (Cert.Heads.dense (fun k : Fin 256 => x (ix3 (0 : Fin 1) r k)) W β) W' β') g := by
  unfold segProbsBlk
  rw [View.canon_unit_zero hz3]
  simp only [View.ld_unit_zero (S := S1x1024x256) hz3, View.ld_unit_zero (S := S256x128) hz2,
    View.ld_unit_zero (S := S128) hz1, View.ld_unit_zero (S := S128x50) hz2, View.ld_unit_zero (S := S50) hz1]
  exact pay8_apply x W β W' β' r g

/-! ### … which is the array's function at the point the row is

When row `r` of the block is point `(b, n)` of the features and the blocks of weights are the weight arrays, the block's entry
is the head of point `(b, n)`. -/

theorem confLogits_point (X : Cert.Heads.XIdx → EReal) (x : Vec Ideal S1x1024x256 .f32)
    (W W₀ : Vec Ideal S256x128 .f32) (β β₀ : Vec Ideal S128 .f32) (W' W₀' : Vec Ideal S128x1 .f32) (β' β₀' : Vec Ideal S1 .f32)
    (b : Fin 4) (n : Fin 4096) (r : Fin 1024) (o : Fin 1)
    (hx : ∀ k : Fin 256, x (ix3 (0 : Fin 1) r k) = X (ix4 b n (0 : Fin 1) k))
    (hW : W = W₀) (hβ : β = β₀) (hW' : W' = W₀') (hβ' : β' = β₀') :
    confLogitsBlk x W β W' β' (ix3 (0 : Fin 1) r o) = Cert.Heads.confLogits X W₀ β₀ W₀' β₀' (ix3 b n o) := by
  subst hW hβ hW' hβ'
  refine (confLogitsBlk_apply x W β W' β' r o).trans ?_
  exact congrArg (fun f => Cert.Heads.dense (Cert.Heads.dense f W β) W' β' 0) (funext hx)

theorem confs_point (X : Cert.Heads.XIdx → EReal) (x : Vec Ideal S1x1024x256 .f32)
    (W W₀ : Vec Ideal S256x128 .f32) (β β₀ : Vec Ideal S128 .f32) (W' W₀' : Vec Ideal S128x1 .f32) (β' β₀' : Vec Ideal S1 .f32)
    (b : Fin 4) (n : Fin 4096) (r : Fin 1024) (o : Fin 1)
    (hx : ∀ k : Fin 256, x (ix3 (0 : Fin 1) r k) = X (ix4 b n (0 : Fin 1) k))
    (hW : W = W₀) (hβ : β = β₀) (hW' : W' = W₀') (hβ' : β' = β₀') :
    confsBlk x W β W' β' (ix3 (0 : Fin 1) r o) = Cert.Heads.confs X W₀ β₀ W₀' β₀' (ix3 b n o) := by
  subst hW hβ hW' hβ'
  refine (confsBlk_apply x W β W' β' r o).trans ?_
  exact congrArg (fun f => Ideal.logistic (Cert.Heads.dense (Cert.Heads.dense f W β) W' β' 0)) (funext hx)

theorem segProbs_point (X : Cert.Heads.XIdx → EReal) (x : Vec Ideal S1x1024x256 .f32)
    (W W₀ : Vec Ideal S256x128 .f32) (β β₀ : Vec Ideal S128 .f32) (W' W₀' : Vec Ideal S128x50 .f32) (β' β₀' : Vec Ideal S50 .f32)
    (b : Fin 4) (n : Fin 4096) (r : Fin 1024) (g : Fin 50)
    (hx : ∀ k : Fin 256, x (ix3 (0 : Fin 1) r k) = X (ix4 b n (0 : Fin 1) k))
    (hW : W = W₀) (hβ : β = β₀) (hW' : W' = W₀') (hβ' : β' = β₀') :
    segProbsBlk x W β W' β' (ix3 (0 : Fin 1) r g) = Cert.Heads.segProbs X W₀ β₀ W₀' β₀' (ix3 b n g) := by
  subst hW hβ hW' hβ'
  refine (segProbsBlk_apply x W β W' β' r g).trans ?_
  exact congrArg (fun f => Cert.Heads.softmaxRow (Cert.Heads.dense (Cert.Heads.dense f W β) W' β') g) (funext hx)

/-! ## The write-backs, the cover, the arrays -/

section Arrays
variable (V : (c : Dev nD) → (b : Ref sig .tc) → Buf (Elt Ideal) ((c : Thread nD τ).loc b))
  (X : Cert.Heads.XIdx → EReal)

/-! ### The confidence logits (window 15) -/

/-- Entry `(0, r, o)` of point `t`'s block lands at `(t / 4, 1024·(t % 4) + r, o)` of the array. -/
theorem emb15 (t : Fin cfg0.N) (r : Fin 1024) (o : Fin 1) (b : Fin 4) (n : Fin 4096)
    (hb : b.val = t.val / 4) (hn : n.val = 1024 * (t.val % 4) + r.val) :
    ((cfg0.win 15).blk t).view.emb (ix3 (0 : Fin 1) r o) = (ix3 b n o : S4x4096x1.Idx) := by
  obtain ⟨-, -, -, -, -, -, -, -, -, e0, e1, e2⟩ := idx_rows t
  funext a; apply Fin.ext
  match a with
  | ⟨0, _⟩ => show win0_15.index t (0 : Fin 3) * 1 + 1 * 0 = b.val; omega
  | ⟨1, _⟩ => show win0_15.index t (1 : Fin 3) * 1024 + 1 * r.val = n.val; omega
  | ⟨2, _⟩ => show win0_15.index t (2 : Fin 3) * 1 + 1 * o.val = o.val; omega

/-- What point `t` writes back is block `t` of the confidence logits of the whole arrays. -/
theorem confLogits_flushed (c : Dev nD)
    (hX : ∀ (b : Fin 4) (n : Fin 4096) (k : Fin 256), V c main_v0 (ix3 b n k) = X (ix4 b n (0 : Fin 1) k))
    (t : Fin cfg0.N) :
    (dat V c).flushed 15 t = ((cfg0.win 15).blk t).view.read (Elt Ideal)
      (Cert.Heads.confLogits X (V c main_arg7) (V c main_arg8) (V c main_arg9) (V c main_arg10)) := by
  show (cfg0.win 15).cut (grid0.coords t) ((dat V c).after 15 t) = _
  rw [after_15]
  refine funext fun (j : S1x1024x1.Idx) => ?_
  obtain ⟨u, r, o, rfl⟩ : ∃ (u : Fin 1) (r : Fin 1024) (o : Fin 1), j = ix3 u r o := ⟨j 0, j 1, j 2, eq_ix3 j⟩
  obtain rfl : u = 0 := Subsingleton.elim _ _
  have hN : cfg0.N = 16 := N_0
  have ht : t.val < 16 := hN ▸ t.isLt
  obtain ⟨b, hb⟩ : ∃ b : Fin 4, b.val = t.val / 4 := ⟨⟨t.val / 4, by omega⟩, rfl⟩
  obtain ⟨n, hn⟩ : ∃ n : Fin 4096, n.val = 1024 * (t.val % 4) + r.val := ⟨⟨1024 * (t.val % 4) + r.val, by omega⟩, rfl⟩
  show confLogitsBlk (blk V c 0 t) (blk V c 7 t) (blk V c 8 t) (blk V c 9 t) (blk V c 10 t) (ix3 (0 : Fin 1) r o)
      = Cert.Heads.confLogits X (V c main_arg7) (V c main_arg8) (V c main_arg9) (V c main_arg10)
          (((cfg0.win 15).blk t).view.emb (ix3 (0 : Fin 1) r o))
  refine (confLogits_point X (blk V c 0 t) (blk V c 7 t) (V c main_arg7) (blk V c 8 t) (V c main_arg8)
    (blk V c 9 t) (V c main_arg9) (blk V c 10 t) (V c main_arg10) b n r o
    (fun k => (xblk_apply V c t r k b n hb hn).trans (hX b n k))
    (wblk7 V c t) (wblk8 V c t) (wblk9 V c t) (wblk10 V c t)).trans ?_
  exact (congrArg (Cert.Heads.confLogits X (V c main_arg7) (V c main_arg8) (V c main_arg9) (V c main_arg10))
    (emb15 t r o b n hb hn)).symm

/-- An index of the array is in point `t`'s block iff each coordinate is in the block's range on its axis. -/
theorem mem_blk15 (t : Fin cfg0.N) (i : S4x4096x1.Idx) :
    i ∈ ((cfg0.win 15).blk t).view.set ↔ ∀ a : Fin 3, win0_15.index t a * S1x1024x1.size a ≤ (i a).val
      ∧ (i a).val < win0_15.index t a * S1x1024x1.size a + S1x1024x1.size a := by
  show i ∈ ((View.whole main_v1_4).slice (win0_15.rect t)).set ↔ _
  rw [View.set_slice_whole, Rect.mem_set_unit]
  exact Iff.rfl

/-- Index `(b, n, o)` lies in the block of point `4·b + n / 1024`, which writes back. -/
theorem cover15 (i : S4x4096x1.Idx) :
    ∃ t : Fin cfg0.N, (cfg0.win 15).flush t = true ∧ i ∈ ((cfg0.win 15).blk t).view.set := by
  have h0 : (i 0).val < 4 := (i 0).isLt
  have h1 : (i 1).val < 4096 := (i 1).isLt
  have h2 : (i 2).val < 1 := (i 2).isLt
  have hN : cfg0.N = 16 := N_0
  obtain ⟨t, ht⟩ : ∃ t : Fin cfg0.N, t.val = 4 * (i 0).val + (i 1).val / 1024 :=
    ⟨⟨4 * (i 0).val + (i 1).val / 1024, by rw [hN]; omega⟩, rfl⟩
  obtain ⟨-, -, -, -, -, -, -, -, -, e0, e1, e2⟩ := idx_rows t
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; omega
  | ⟨1, _⟩ => show win0_15.index t (1 : Fin 3) * 1024 ≤ (i 1).val ∧ (i 1).val < win0_15.index t (1 : Fin 3) * 1024 + 1024; omega
  | ⟨2, _⟩ => show win0_15.index t (2 : Fin 3) * 1 ≤ (i 2).val ∧ (i 2).val < win0_15.index t (2 : Fin 3) * 1 + 1; omega

/-- The confidence-logit array after the launch. -/
theorem confLogits_final (c : Dev nD)
    (hX : ∀ (b : Fin 4) (n : Fin 4096) (k : Fin 256), V c main_v0 (ix3 b n k) = X (ix4 b n (0 : Fin 1) k)) :
    (dat (F := Ideal) V c).arrAt 15 cfg0.N
      = Cert.Heads.confLogits X (V c main_arg7) (V c main_arg8) (V c main_arg9) (V c main_arg10) :=
  (dat V c).arrAt_eq_of_cover 15 _ (fun t _ => confLogits_flushed V X c hX t) cover15

/-! ### The confidences (window 14) -/

theorem emb14 (t : Fin cfg0.N) (r : Fin 1024) (o : Fin 1) (b : Fin 4) (n : Fin 4096)
    (hb : b.val = t.val / 4) (hn : n.val = 1024 * (t.val % 4) + r.val) :
    ((cfg0.win 14).blk t).view.emb (ix3 (0 : Fin 1) r o) = (ix3 b n o : S4x4096x1.Idx) := by
  obtain ⟨-, -, -, -, -, -, e0, e1, e2, -⟩ := idx_rows t
  funext a; apply Fin.ext
  match a with
  | ⟨0, _⟩ => show win0_14.index t (0 : Fin 3) * 1 + 1 * 0 = b.val; omega
  | ⟨1, _⟩ => show win0_14.index t (1 : Fin 3) * 1024 + 1 * r.val = n.val; omega
  | ⟨2, _⟩ => show win0_14.index t (2 : Fin 3) * 1 + 1 * o.val = o.val; omega

/-- What point `t` writes back is block `t` of the confidences of the whole arrays. -/
theorem confs_flushed (c : Dev nD)
    (hX : ∀ (b : Fin 4) (n : Fin 4096) (k : Fin 256), V c main_v0 (ix3 b n k) = X (ix4 b n (0 : Fin 1) k))
    (t : Fin cfg0.N) :
    (dat V c).flushed 14 t = ((cfg0.win 14).blk t).view.read (Elt Ideal)
      (Cert.Heads.confs X (V c main_arg7) (V c main_arg8) (V c main_arg9) (V c main_arg10)) := by
  show (cfg0.win 14).cut (grid0.coords t) ((dat V c).after 14 t) = _
  rw [after_14]
  refine funext fun (j : S1x1024x1.Idx) => ?_
  obtain ⟨u, r, o, rfl⟩ : ∃ (u : Fin 1) (r : Fin 1024) (o : Fin 1), j = ix3 u r o := ⟨j 0, j 1, j 2, eq_ix3 j⟩
  obtain rfl : u = 0 := Subsingleton.elim _ _
  have hN : cfg0.N = 16 := N_0
  have ht : t.val < 16 := hN ▸ t.isLt
  obtain ⟨b, hb⟩ : ∃ b : Fin 4, b.val = t.val / 4 := ⟨⟨t.val / 4, by omega⟩, rfl⟩
  obtain ⟨n, hn⟩ : ∃ n : Fin 4096, n.val = 1024 * (t.val % 4) + r.val := ⟨⟨1024 * (t.val % 4) + r.val, by omega⟩, rfl⟩
  show confsBlk (blk V c 0 t) (blk V c 7 t) (blk V c 8 t) (blk V c 9 t) (blk V c 10 t) (ix3 (0 : Fin 1) r o)
      = Cert.Heads.confs X (V c main_arg7) (V c main_arg8) (V c main_arg9) (V c main_arg10)
          (((cfg0.win 14).blk t).view.emb (ix3 (0 : Fin 1) r o))
  refine (confs_point X (blk V c 0 t) (blk V c 7 t) (V c main_arg7) (blk V c 8 t) (V c main_arg8)
    (blk V c 9 t) (V c main_arg9) (blk V c 10 t) (V c main_arg10) b n r o
    (fun k => (xblk_apply V c t r k b n hb hn).trans (hX b n k))
    (wblk7 V c t) (wblk8 V c t) (wblk9 V c t) (wblk10 V c t)).trans ?_
  exact (congrArg (Cert.Heads.confs X (V c main_arg7) (V c main_arg8) (V c main_arg9) (V c main_arg10))
    (emb14 t r o b n hb hn)).symm

theorem mem_blk14 (t : Fin cfg0.N) (i : S4x4096x1.Idx) :
    i ∈ ((cfg0.win 14).blk t).view.set ↔ ∀ a : Fin 3, win0_14.index t a * S1x1024x1.size a ≤ (i a).val
      ∧ (i a).val < win0_14.index t a * S1x1024x1.size a + S1x1024x1.size a := by
  show i ∈ ((View.whole main_v1_3).slice (win0_14.rect t)).set ↔ _
  rw [View.set_slice_whole, Rect.mem_set_unit]
  exact Iff.rfl

theorem cover14 (i : S4x4096x1.Idx) :
    ∃ t : Fin cfg0.N, (cfg0.win 14).flush t = true ∧ i ∈ ((cfg0.win 14).blk t).view.set := by
  have h0 : (i 0).val < 4 := (i 0).isLt
  have h1 : (i 1).val < 4096 := (i 1).isLt
  have h2 : (i 2).val < 1 := (i 2).isLt
  have hN : cfg0.N = 16 := N_0
  obtain ⟨t, ht⟩ : ∃ t : Fin cfg0.N, t.val = 4 * (i 0).val + (i 1).val / 1024 :=
    ⟨⟨4 * (i 0).val + (i 1).val / 1024, by rw [hN]; omega⟩, rfl⟩
  obtain ⟨-, -, -, -, -, -, e0, e1, e2, -⟩ := idx_rows t
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 1024 ≤ (i 1).val ∧ (i 1).val < win0_14.index t (1 : Fin 3) * 1024 + 1024; omega
  | ⟨2, _⟩ => show win0_14.index t (2 : Fin 3) * 1 ≤ (i 2).val ∧ (i 2).val < win0_14.index t (2 : Fin 3) * 1 + 1; omega

/-- The confidence array after the launch. -/
theorem confs_final (c : Dev nD)
    (hX : ∀ (b : Fin 4) (n : Fin 4096) (k : Fin 256), V c main_v0 (ix3 b n k) = X (ix4 b n (0 : Fin 1) k)) :
    (dat (F := Ideal) V c).arrAt 14 cfg0.N
      = Cert.Heads.confs X (V c main_arg7) (V c main_arg8) (V c main_arg9) (V c main_arg10) :=
  (dat V c).arrAt_eq_of_cover 14 _ (fun t _ => confs_flushed V X c hX t) cover14

/-! ### The segment probabilities (window 12) -/

theorem emb12 (t : Fin cfg0.N) (r : Fin 1024) (g : Fin 50) (b : Fin 4) (n : Fin 4096)
    (hb : b.val = t.val / 4) (hn : n.val = 1024 * (t.val % 4) + r.val) :
    ((cfg0.win 12).blk t).view.emb (ix3 (0 : Fin 1) r g) = (ix3 b n g : S4x4096x50.Idx) := by
  obtain ⟨-, -, -, e0, e1, e2, -⟩ := idx_rows t
  funext a; apply Fin.ext
  match a with
  | ⟨0, _⟩ => show win0_12.index t (0 : Fin 3) * 1 + 1 * 0 = b.val; omega
  | ⟨1, _⟩ => show win0_12.index t (1 : Fin 3) * 1024 + 1 * r.val = n.val; omega
  | ⟨2, _⟩ => show win0_12.index t (2 : Fin 3) * 50 + 1 * g.val = g.val; omega

/-- What point `t` writes back is block `t` of the segment probabilities of the whole arrays. -/
theorem segProbs_flushed (c : Dev nD)
    (hX : ∀ (b : Fin 4) (n : Fin 4096) (k : Fin 256), V c main_v0 (ix3 b n k) = X (ix4 b n (0 : Fin 1) k))
    (t : Fin cfg0.N) :
    (dat V c).flushed 12 t = ((cfg0.win 12).blk t).view.read (Elt Ideal)
      (Cert.Heads.segProbs X (V c main_arg1) (V c main_arg2) (V c main_arg3) (V c main_arg4)) := by
  show (cfg0.win 12).cut (grid0.coords t) ((dat V c).after 12 t) = _
  rw [after_12]
  refine funext fun (j : S1x1024x50.Idx) => ?_
  obtain ⟨u, r, g, rfl⟩ : ∃ (u : Fin 1) (r : Fin 1024) (g : Fin 50), j = ix3 u r g := ⟨j 0, j 1, j 2, eq_ix3 j⟩
  obtain rfl : u = 0 := Subsingleton.elim _ _
  have hN : cfg0.N = 16 := N_0
  have ht : t.val < 16 := hN ▸ t.isLt
  obtain ⟨b, hb⟩ : ∃ b : Fin 4, b.val = t.val / 4 := ⟨⟨t.val / 4, by omega⟩, rfl⟩
  obtain ⟨n, hn⟩ : ∃ n : Fin 4096, n.val = 1024 * (t.val % 4) + r.val := ⟨⟨1024 * (t.val % 4) + r.val, by omega⟩, rfl⟩
  show segProbsBlk (blk V c 0 t) (blk V c 1 t) (blk V c 2 t) (blk V c 3 t) (blk V c 4 t) (ix3 (0 : Fin 1) r g)
      = Cert.Heads.segProbs X (V c main_arg1) (V c main_arg2) (V c main_arg3) (V c main_arg4)
          (((cfg0.win 12).blk t).view.emb (ix3 (0 : Fin 1) r g))
  refine (segProbs_point X (blk V c 0 t) (blk V c 1 t) (V c main_arg1) (blk V c 2 t) (V c main_arg2)
    (blk V c 3 t) (V c main_arg3) (blk V c 4 t) (V c main_arg4) b n r g
    (fun k => (xblk_apply V c t r k b n hb hn).trans (hX b n k))
    (wblk1 V c t) (wblk2 V c t) (wblk3 V c t) (wblk4 V c t)).trans ?_
  exact (congrArg (Cert.Heads.segProbs X (V c main_arg1) (V c main_arg2) (V c main_arg3) (V c main_arg4))
    (emb12 t r g b n hb hn)).symm

theorem mem_blk12 (t : Fin cfg0.N) (i : S4x4096x50.Idx) :
    i ∈ ((cfg0.win 12).blk t).view.set ↔ ∀ a : Fin 3, win0_12.index t a * S1x1024x50.size a ≤ (i a).val
      ∧ (i a).val < win0_12.index t a * S1x1024x50.size a + S1x1024x50.size a := by
  show i ∈ ((View.whole main_v1_1).slice (win0_12.rect t)).set ↔ _
  rw [View.set_slice_whole, Rect.mem_set_unit]
  exact Iff.rfl

theorem cover12 (i : S4x4096x50.Idx) :
    ∃ t : Fin cfg0.N, (cfg0.win 12).flush t = true ∧ i ∈ ((cfg0.win 12).blk t).view.set := by
  have h0 : (i 0).val < 4 := (i 0).isLt
  have h1 : (i 1).val < 4096 := (i 1).isLt
  have h2 : (i 2).val < 50 := (i 2).isLt
  have hN : cfg0.N = 16 := N_0
  obtain ⟨t, ht⟩ : ∃ t : Fin cfg0.N, t.val = 4 * (i 0).val + (i 1).val / 1024 :=
    ⟨⟨4 * (i 0).val + (i 1).val / 1024, by rw [hN]; omega⟩, rfl⟩
  obtain ⟨-, -, -, e0, e1, e2, -⟩ := idx_rows t
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1024 ≤ (i 1).val ∧ (i 1).val < win0_12.index t (1 : Fin 3) * 1024 + 1024; omega
  | ⟨2, _⟩ => show win0_12.index t (2 : Fin 3) * 50 ≤ (i 2).val ∧ (i 2).val < win0_12.index t (2 : Fin 3) * 50 + 50; omega

/-- The segment-probability array after the launch. -/
theorem segProbs_final (c : Dev nD)
    (hX : ∀ (b : Fin 4) (n : Fin 4096) (k : Fin 256), V c main_v0 (ix3 b n k) = X (ix4 b n (0 : Fin 1) k)) :
    (dat (F := Ideal) V c).arrAt 12 cfg0.N
      = Cert.Heads.segProbs X (V c main_arg1) (V c main_arg2) (V c main_arg3) (V c main_arg4) :=
  (dat V c).arrAt_eq_of_cover 12 _ (fun t _ => segProbs_flushed V X c hX t) cover12

end Arrays

end Cert.KernelIdeal.HeadsArraysB

end
-- ==== Proof.DistArrays.lean ====
/-
  The second launch, from its blocks to the array. The grid's point with block indices (b, i, j) overwrites block
  (b, i, j) of the [4, 4096, 4096] distance array — rows 1024·i …, columns 1024·j … of batch b — with the distances
  between the rows of two [1, 1024, 128] blocks of the similarity features: block (b, i) and block (b, j). Entry (r, s) of
  the output block depends on row r of the first and row s of the second, that is on rows 1024·i + r and 1024·j + s of
  batch b of the features: exactly the two rows entry (b, 1024·i + r, 1024·j + s) of the whole array asks for. So every
  point writes back its block of ONE function of the feature array, the 4 × 4 × 4 blocks tile the distance array, and the
  array ends holding that function.
-/
import proofs.«118794_j27084063768631_1_alg».proof.Proof.DistLaunch
import proofs.«118794_j27084063768631_1_alg».proof.Proof.Heads
import Idealize.ShloMosaic.Lib.Pipeline.Value
import Idealize.ShloMosaic.Lib.ValueIdx
import proofs.«118794_j27084063768631_1_alg».proof.Proof.PayHeads

set_option maxRecDepth 16384

noncomputable section

namespace Cert.KernelIdeal.DistArrays

open Cert.KernelIdeal Cert.KernelIdeal.Gen Cert.KernelIdeal.Dist1
open Idealize.ShloMosaic Idealize.ShloMosaic.TcCoe Idealize.ShloMosaic.ValueIdx
open Idealize.SL Idealize.SL.Sem
open Idealize.ShloMosaic.Pipeline (Dat)

/-- The distance array as a function of the feature array: entry (b, n, m) is the scaled, clamped squared distance
    between rows n and m of batch b. -/
def distOf (f : (⟨3, ![4, 4096, 128]⟩ : Shape).Idx → EReal) : (⟨3, ![4, 4096, 4096]⟩ : Shape).Idx → EReal :=
  fun i => Cert.Heads.dist (fun d => f (ix3 (i 0) (i 1) d)) (fun d => f (ix3 (i 0) (i 2) d))

theorem distOf_ix (f : (⟨3, ![4, 4096, 128]⟩ : Shape).Idx → EReal) (b : Fin 4) (n m : Fin 4096) :
    distOf f (ix3 b n m) = Cert.Heads.dist (fun d => f (ix3 b n d)) (fun d => f (ix3 b m d)) := rfl

theorem hz : (![0, 0, 0] : Fin 3 → Nat) = fun _ => 0 := funext fun a => by fin_cases a <;> rfl

/-- The index maps, decided over the 64 points: the first input's block is (b, i, 0), the second's (b, j, 0), where
    (b, i, j) is the output's block, and each of b, i, j is below 4. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = win1_2.index t (2 : Fin 3)
    ∧ win1_1.index t (2 : Fin 3) = 0
    ∧ win1_2.index t (0 : Fin 3) ≤ 3 ∧ win1_2.index t (1 : Fin 3) ≤ 3 ∧ win1_2.index t (2 : Fin 3) ≤ 3 :=
  (by decide +kernel : ∀ t : Fin grid1.N, _)

/-- Every block (b, i, j) of the distance array is some point's. -/
theorem idx_onto : ∀ (q0 q1 q2 : Fin 4), ∃ t : Fin cfg1.N, win1_2.index t = ![q0.val, q1.val, q2.val] :=
  (by decide +kernel : ∀ (q0 q1 q2 : Fin 4), ∃ t : Fin grid1.N, win1_2.index t = ![q0.val, q1.val, q2.val])

section Data

variable (V : (c : Dev nD) → (b : Ref sig .tc) → Buf (Elt Ideal) ((c : Thread nD τ).loc b))

/-- The first input's block at point t is rows 1024·i … of batch b of the feature array, (b, i) the block's indices. -/
theorem rowBlock_apply (c : Dev nD) (t : Fin cfg1.N) (x : S1x1024x128.Idx) (k : S4x4096x128.Idx)
    (h0 : (k 0).val = win1_0.index t (0 : Fin 3)) (h1 : (k 1).val = win1_0.index t (1 : Fin 3) * 1024 + (x 1).val)
    (h2 : (k 2).val = (x 2).val) :
    (blk V c 0 t : S1x1024x128.Idx → EReal) x = (V c main_v1_2 : S4x4096x128.Idx → EReal) k := by
  obtain ⟨-, -, e2, -, -, -, -, -, -⟩ := idx_facts t
  unfold blk
  rw [View.read_apply]
  show V c main_v1_2 (((cfg1.win 0).blk t).view.emb x) = V c main_v1_2 k
  refine congrArg (V c main_v1_2) (funext fun a => Fin.ext ?_)
  have hx0 : (x 0).val < 1 := (x 0).isLt
  match a with
  | ⟨0, _⟩ => show win1_0.index t (0 : Fin 3) * 1 + 1 * (x 0).val = (k 0).val; omega
  | ⟨1, _⟩ => show win1_0.index t (1 : Fin 3) * 1024 + 1 * (x 1).val = (k 1).val; omega
  | ⟨2, _⟩ => show win1_0.index t (2 : Fin 3) * 128 + 1 * (x 2).val = (k 2).val; omega

/-- The second input's block at point t is rows 1024·j … of batch b, (b, j) the block's indices. -/
theorem colBlock_apply (c : Dev nD) (t : Fin cfg1.N) (x : S1x1024x128.Idx) (k : S4x4096x128.Idx)
    (h0 : (k 0).val = win1_1.index t (0 : Fin 3)) (h1 : (k 1).val = win1_1.index t (1 : Fin 3) * 1024 + (x 1).val)
    (h2 : (k 2).val = (x 2).val) :
    (blk V c 1 t : S1x1024x128.Idx → EReal) x = (V c main_v1_2 : S4x4096x128.Idx → EReal) k := by
  obtain ⟨-, -, -, -, -, e5, -, -, -⟩ := idx_facts t
  unfold blk
  rw [View.read_apply]
  show V c main_v1_2 (((cfg1.win 1).blk t).view.emb x) = V c main_v1_2 k
  refine congrArg (V c main_v1_2) (funext fun a => Fin.ext ?_)
  have hx0 : (x 0).val < 1 := (x 0).isLt
  match a with
  | ⟨0, _⟩ => show win1_1.index t (0 : Fin 3) * 1 + 1 * (x 0).val = (k 0).val; omega
  | ⟨1, _⟩ => show win1_1.index t (1 : Fin 3) * 1024 + 1 * (x 1).val = (k 1).val; omega
  | ⟨2, _⟩ => show win1_1.index t (2 : Fin 3) * 128 + 1 * (x 2).val = (k 2).val; omega

/-- What point t writes back is block t of the distances of the feature array. -/
theorem flushed_eq (c : Dev nD) (t : Fin cfg1.N) :
    (dat (F := Ideal) V c).flushed 2 t = ((cfg1.win 2).blk t).view.read (Elt Ideal) (distOf (V c main_v1_2)) := by
  show (cfg1.win 2).cut (grid1.coords t) ((dat (F := Ideal) V c).after 2 t) = _
  rw [after_2]
  unfold distBlk
  rw [View.canon_unit_zero hz]
  simp only [View.ld_unit_zero (S := S1x1024x128) hz]
  obtain ⟨e0, e1, -, e3, e4, -, -, -, -⟩ := idx_facts t
  funext j
  obtain ⟨o, r, s, rfl⟩ : ∃ (o : Fin 1) (r s : Fin 1024), j = ix3 o r s := ⟨j 0, j 1, j 2, eq_ix3 j⟩
  obtain rfl : o = 0 := Subsingleton.elim _ _
  rw [View.read_apply]
  show k1_pay1 (F := Ideal) (blk V c 0 t) (blk V c 1 t) (ix3 (0 : Fin 1) r s) = distOf (V c main_v1_2) (((cfg1.win 2).blk t).view.emb (ix3 (0 : Fin 1) r s))
  rw [Cert.KernelIdeal.PayValue.dist_apply]
  have E0 : ((((cfg1.win 2).blk t).view.emb (ix3 (0 : Fin 1) r s)) (0 : Fin 3)).val = win1_2.index t (0 : Fin 3) * 1 + 1 * 0 := rfl
  have E1 : ((((cfg1.win 2).blk t).view.emb (ix3 (0 : Fin 1) r s)) (1 : Fin 3)).val = win1_2.index t (1 : Fin 3) * 1024 + 1 * r.val := rfl
  have E2 : ((((cfg1.win 2).blk t).view.emb (ix3 (0 : Fin 1) r s)) (2 : Fin 3)).val = win1_2.index t (2 : Fin 3) * 1024 + 1 * s.val := rfl
  generalize ((cfg1.win 2).blk t).view.emb (ix3 (0 : Fin 1) r s) = E at E0 E1 E2
  unfold distOf
  refine congrArg₂ Cert.Heads.dist (funext fun d => ?_) (funext fun d => ?_)
  · exact rowBlock_apply V c t (ix3 (0 : Fin 1) r d) _ (by show (E 0).val = _; omega) (by show (E 1).val = _ + r.val; omega) rfl
  · exact colBlock_apply V c t (ix3 (0 : Fin 1) s d) _ (by show (E 0).val = _; omega) (by show (E 2).val = _ + s.val; omega) rfl

/-- An index of the distance array is in point t's block iff each coordinate is in the block's range on its axis. -/
theorem mem_blk (t : Fin cfg1.N) (i : S4x4096x4096.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v2).slice (win1_2.rect t)).set ↔ _
  rw [View.set_slice_whole, Rect.mem_set_unit]
  exact Iff.rfl

/-- The blocks tile the array: entry (b, n, m) is in the block (b, n / 1024, m / 1024). -/
theorem covered (i : S4x4096x4096.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 1024 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- The distance array after the second launch: the distances between the rows of the feature array the launch found. -/
theorem dists_final' (c : Dev nD) :
    (dat (F := Ideal) V c).arrAt 2 cfg1.N = distOf (V c main_v1_2) :=
  (dat (F := Ideal) V c).arrAt_eq_of_cover 2 (distOf (V c main_v1_2)) (fun t _ => flushed_eq V c t) covered

theorem dists_final (c : Dev nD) :
    (dat (F := Ideal) V c).arrAt 2 cfg1.N
      = fun i => Cert.Heads.dist (fun d => V c main_v1_2 (ix3 (i 0) (i 1) d)) (fun d => V c main_v1_2 (ix3 (i 0) (i 2) d)) :=
  dists_final' V c

end Data

end Cert.KernelIdeal.DistArrays

end
-- ==== Proof.Results.lean ====
/-
  What the five result arrays hold when the program ends, on the extended reals. The run ends with every unscoped
  buffer at the last boundary's contents. Read at the result arrays, those contents are: for the four heads of the
  first launch, what its sixteen write-backs leave, one whole-array function of the arrays that launch found — the
  re-laid input and the weights, which the host step leaves as launched —; for the distance array, what the second
  launch's sixty-four write-backs leave, the distances between the rows of the similarity features, themselves the
  first launch's third output. So each result is the specification's function of the eleven argument arrays.
-/
import proofs.«118794_j27084063768631_1_alg».proof.Proof.TwoLaunches
import proofs.«118794_j27084063768631_1_alg».proof.Proof.HeadsArrays
import proofs.«118794_j27084063768631_1_alg».proof.Proof.HeadsArraysB
import proofs.«118794_j27084063768631_1_alg».proof.Proof.DistArrays
import proofs.«118794_j27084063768631_1_alg».proof.Proof.Heads
import Idealize.ShloMosaic.Lib.Pipeline.Value
import Idealize.ShloMosaic.Lib.ValueIdx
import Idealize.ShloMosaic.Lib.StableHlo.Run

set_option maxRecDepth 16384

noncomputable section

namespace Cert.KernelIdeal.Results

open Cert.KernelIdeal Cert.KernelIdeal.Gen Cert.KernelIdeal.Launches
open Idealize.ShloMosaic Idealize.ShloMosaic.TcCoe Idealize.ShloMosaic.ValueIdx Idealize.SL.Sem

variable (m : (ℓ : Loc nD τ sig) → Buf (Elt Ideal) ℓ)

/-- The host step re-lays the input: entry (b, n, k) of the [4, 4096, 256] array is entry (b, n, 0, k) of the argument. -/
theorem relaid (c : Dev nD) (b : Fin 4) (n : Fin 4096) (k : Fin 256) :
    atHeads m c main_v0 (ix3 b n k) = m ((c : Thread nD τ).loc main_arg0) (ix4 b n (0 : Fin 1) k) := by
  have e : (atHeads m c main_v0 : S4x4096x256.Idx → EReal)
      = shapeCast _ (m ((c : Thread nD τ).loc main_arg0)) shapeCasts_S4x4096x1x256_S4x4096x256 := by
    dsimp only [atHeads, W1, hostOps0]; after_results; rfl
  rw [e]
  refine shapeCast_apply _ shapeCasts_S4x4096x1x256_S4x4096x256 (ix3 b n k) (ix4 b n (0 : Fin 1) k) ?_
  rewrite [Shape.rowMajor_val_four, Shape.rowMajor_val_three]
  show ((b.val * 4096 + n.val) * 1 + 0) * 256 + k.val = (b.val * 4096 + n.val) * 256 + k.val
  omega

/-- The host step leaves the weights and biases as launched. -/
theorem kept (c : Dev nD) (b : Ref sig .tc) (hb : b ∉ hostOps0_W) : atHeads m c b = m ((c : Thread nD τ).loc b) :=
  (V1_of m c b hb).trans rfl

/-! ## The four heads -/

theorem segLogits_end (c : Dev nD) : W3 m c (Proc.devRef .tc main_v1_0)
    = Cert.Heads.segLogits (m ((c : Thread nD τ).loc main_arg0)) (m ((c : Thread nD τ).loc main_arg1)) (m ((c : Thread nD τ).loc main_arg2))
        (m ((c : Thread nD τ).loc main_arg3)) (m ((c : Thread nD τ).loc main_arg4)) := by
  rw [W3_of_ne m c main_v1_0 (by decide)]
  refine (W2_arr m c 11).trans ?_
  rw [HeadsArrays.segLogits_final (atHeads m) _ c (relaid m c), kept m c main_arg1 (by decide), kept m c main_arg2 (by decide),
    kept m c main_arg3 (by decide), kept m c main_arg4 (by decide)]

theorem segProbs_end (c : Dev nD) : W3 m c (Proc.devRef .tc main_v1_1)
    = Cert.Heads.segProbs (m ((c : Thread nD τ).loc main_arg0)) (m ((c : Thread nD τ).loc main_arg1)) (m ((c : Thread nD τ).loc main_arg2))
        (m ((c : Thread nD τ).loc main_arg3)) (m ((c : Thread nD τ).loc main_arg4)) := by
  rw [W3_of_ne m c main_v1_1 (by decide)]
  refine (W2_arr m c 12).trans ?_
  rw [HeadsArraysB.segProbs_final (atHeads m) _ c (relaid m c), kept m c main_arg1 (by decide), kept m c main_arg2 (by decide),
    kept m c main_arg3 (by decide), kept m c main_arg4 (by decide)]

theorem simFeats_mid (c : Dev nD) : atDist m c main_v1_2
    = Cert.Heads.simFeats (m ((c : Thread nD τ).loc main_arg0)) (m ((c : Thread nD τ).loc main_arg5)) (m ((c : Thread nD τ).loc main_arg6)) := by
  refine (W2_arr m c 13).trans ?_
  rw [HeadsArrays.simFeats_final (atHeads m) _ c (relaid m c), kept m c main_arg5 (by decide), kept m c main_arg6 (by decide)]

theorem confs_end (c : Dev nD) : W3 m c (Proc.devRef .tc main_v1_3)
    = Cert.Heads.confs (m ((c : Thread nD τ).loc main_arg0)) (m ((c : Thread nD τ).loc main_arg7)) (m ((c : Thread nD τ).loc main_arg8))
        (m ((c : Thread nD τ).loc main_arg9)) (m ((c : Thread nD τ).loc main_arg10)) := by
  rw [W3_of_ne m c main_v1_3 (by decide)]
  refine (W2_arr m c 14).trans ?_
  rw [HeadsArraysB.confs_final (atHeads m) _ c (relaid m c), kept m c main_arg7 (by decide), kept m c main_arg8 (by decide),
    kept m c main_arg9 (by decide), kept m c main_arg10 (by decide)]

theorem confLogits_end (c : Dev nD) : W3 m c (Proc.devRef .tc main_v1_4)
    = Cert.Heads.confLogits (m ((c : Thread nD τ).loc main_arg0)) (m ((c : Thread nD τ).loc main_arg7)) (m ((c : Thread nD τ).loc main_arg8))
        (m ((c : Thread nD τ).loc main_arg9)) (m ((c : Thread nD τ).loc main_arg10)) := by
  rw [W3_of_ne m c main_v1_4 (by decide)]
  refine (W2_arr m c 15).trans ?_
  rw [HeadsArraysB.confLogits_final (atHeads m) _ c (relaid m c), kept m c main_arg7 (by decide), kept m c main_arg8 (by decide),
    kept m c main_arg9 (by decide), kept m c main_arg10 (by decide)]

/-! ## The distances -/

/-- The distance array ends at the distances between the rows of the similarity features the first launch wrote:
    the specification's pairwise distances of the argument arrays. -/
theorem simDists_end (c : Dev nD) : W3 m c (Proc.devRef .tc main_v2)
    = Cert.Heads.simDists (m ((c : Thread nD τ).loc main_arg0)) (m ((c : Thread nD τ).loc main_arg5)) (m ((c : Thread nD τ).loc main_arg6)) := by
  rw [W3_dist, DistArrays.dists_final (atDist m) c, simFeats_mid m c]
  rfl

/-! ## The run, read at the results and the arguments -/

/-- Every weakly fair execution terminates with each result array at the specification's function of the argument
    arrays and each argument array as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_1) = Cert.Heads.segProbs (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_0) = Cert.Heads.segLogits (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v2) = Cert.Heads.simDists (m ((c : Thread nD τ).loc main_arg0)) (m ((c : Thread nD τ).loc main_arg5)) (m ((c : Thread nD τ).loc main_arg6))
      ∧ r.2.mem ((c.tc : Thread nD τ).loc main_v1_3) = Cert.Heads.confs (m ((c : Thread nD τ).loc main_arg0)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v1_4) = Cert.Heads.confLogits (m ((c : Thread nD τ).loc main_arg0)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v1_1 (by decide))).trans (segProbs_end m c),
      (h c _ (mem_uc main_v1_0 (by decide))).trans (segLogits_end m c),
      (h c _ (mem_uc main_v2 (by decide))).trans (simDists_end m c),
      (h c _ (mem_uc main_v1_3 (by decide))).trans (confs_end m c),
      (h c _ (mem_uc main_v1_4 (by decide))).trans (confLogits_end m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.KernelIdeal.Results

end
-- ==== Proof.RefHeads.lean ====
/-
  The reference program, read index by index on the extended reals, is the five result arrays of the point-cloud
  output heads.

  Every branch starts from the same reshape (the unit axis of the input dropped) and a dense layer of 128 channels on a
  point's 256 features. The segment branch puts a second dense layer of 50 channels on top; its probabilities subtract the
  row's maximum — a fold of max from −∞ over the 50 channels, taken once more against −∞ —, exponentiate and divide by
  the row's sum. The similarity branch takes the squared length of each point's features and the inner products of all
  pairs of one batch, and forms max (10 · ((r(n) − 2 · ⟨f(n), f(m)⟩) + r(m))) 0. The confidence branch puts a dense layer
  of one channel on top and, for the confidence, spells 1 / (1 + e^(−ℓ)) with the f32 word of 1.

  A sum from the zero word is the bare sum (0 + s = s); the word of 1 is the extended real 1; nothing else is evaluated.
  No law here needs finiteness: both sides are the same expression once the indices are identified.
-/
import proofs.«118794_j27084063768631_1_alg».proof.Proof.Heads
import proofs.«118794_j27084063768631_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-! ## The shared first layer -/

/-- The reshape [4, 4096, 1, 256] → [4, 4096, 256] reads (b, n, k) at (b, n, 0, k): the row-major position
    (b · 4096 + n) · 256 + k splits back into the same coordinates. -/
theorem reshape_ix (b : Fin 4) (n : Fin 4096) (k : Fin 256) :
    idx_main_v0 (ix3 b n k) = ix4 b n (0 : Fin 1) k := by
  funext a
  apply Fin.ext
  have hb := b.isLt; have hn := n.isLt; have hk := k.isLt
  match a with
  | ⟨0, _⟩ => show ((b.val * 4096 + n.val) * 256 + k.val) / 1048576 = b.val; omega
  | ⟨1, _⟩ => show ((b.val * 4096 + n.val) * 256 + k.val) / 256 % 4096 = n.val; omega
  | ⟨2, _⟩ => rfl
  | ⟨3, _⟩ => show ((b.val * 4096 + n.val) * 256 + k.val) % 256 = k.val; omega

theorem lidx_v1_ix (b : Fin 4) (n : Fin 4096) (d : Fin 128) (k : Fin 256) :
    lidx_main_v1 (ix3 b n d) k = ix3 b n k := by
  funext a; match a with | ⟨0, _⟩ => rfl | ⟨1, _⟩ => rfl | ⟨2, _⟩ => rfl

theorem ridx_v1_ix (b : Fin 4) (n : Fin 4096) (d : Fin 128) (k : Fin 256) :
    ridx_main_v1 (ix3 b n d) k = ix2 k d := by
  funext a; match a with | ⟨0, _⟩ => rfl | ⟨1, _⟩ => rfl

theorem bias_v3_ix (b : Fin 4) (n : Fin 4096) (d : Fin 128) :
    idx_main_v2 (idx_main_v3 (ix3 b n d)) = ix1 d := by
  funext a; match a with | ⟨0, _⟩ => rfl

/-- The semantic features of point (b, n): the reference's first layer of that branch is the dense layer on the
    point's 256 input features. -/
theorem hidden_v4 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (b : Fin 4) (n : Fin 4096) (d : Fin 128) :
    val_main_v4 (F := Ideal) x0 x1 x2 (ix3 b n d) = Cert.Heads.hidden x0 x1 x2 b n d := by
  rw [val_main_v4_apply, val_main_v1_apply, val_main_v3_apply, val_main_v2_apply, bias_v3_ix]
  simp only [Ideal.addf_def, lidx_v1_ix, ridx_v1_ix, val_main_v0_apply, reshape_ix]
  rfl

theorem lidx_v20_ix (b : Fin 4) (n : Fin 4096) (d : Fin 128) (k : Fin 256) :
    lidx_main_v20 (ix3 b n d) k = ix3 b n k := by
  funext a; match a with | ⟨0, _⟩ => rfl | ⟨1, _⟩ => rfl | ⟨2, _⟩ => rfl

theorem ridx_v20_ix (b : Fin 4) (n : Fin 4096) (d : Fin 128) (k : Fin 256) :
    ridx_main_v20 (ix3 b n d) k = ix2 k d := by
  funext a; match a with | ⟨0, _⟩ => rfl | ⟨1, _⟩ => rfl

theorem bias_v22_ix (b : Fin 4) (n : Fin 4096) (d : Fin 128) :
    idx_main_v21 (idx_main_v22 (ix3 b n d)) = ix1 d := by
  funext a; match a with | ⟨0, _⟩ => rfl

/-- The similarity features of point (b, n): the reference's first layer of that branch is the dense layer on the
    point's 256 input features. -/
theorem hidden_v23 (x0 : (⟨S4x4096x1x256, .f32⟩ : BufTy).Contents (Elt Ideal)) (x5 : (⟨S256x128, .f32⟩ : BufTy).Contents (Elt Ideal)) (x6 : (⟨S128, .f32⟩ : BufTy).Contents (Elt Ideal)) (b : Fin 4) (n : Fin 4096) (d : Fin 128) :
    val_main_v23 (F := Ideal) x0 x5 x6 (ix3 b n d) = Cert.Heads.hidden x0 x5 x6 b n d := by
  rw [val_main_v23_apply, val_main_v20_apply, val_main_v22_apply, val_main_v21_apply, bias_v22_ix]
  simp only [Ideal.addf_def, lidx_v20_ix, ridx_v20_ix, val_main_v0_apply, reshape_ix]
  rfl

theorem lidx_v39_ix (b : Fin 4) (n : Fin 4096) (d : Fin 128) (k : Fin 256) :
    lidx_main_v39 (ix3 b n d) k = ix3 b n k := by
  funext a; match a with | ⟨0, _⟩ => rfl | ⟨1, _⟩ => rfl | ⟨2, _⟩ => rfl

theorem ridx_v39_ix (b : Fin 4) (n : Fin 4096) (d : Fin 128) (k : Fin 256) :
    ridx_main_v39 (ix3 b n d) k = ix2 k d := by
  funext a; match a with | ⟨0, _⟩ => rfl | ⟨1, _⟩ => rfl

theorem bias_v41_ix (b : Fin 4) (n : Fin 4096) (d : Fin 128) :
    idx_main_v40 (idx_main_v41 (ix3 b n d)) = ix1 d := by
  funext a; match a with | ⟨0, _⟩ => rfl

/-- The confidence features of point (b, n): the reference's first layer of that branch is the dense layer on the
    point's 256 input features. -/
theorem hidden_v42 (x0 : (⟨S4x4096x1x256, .f32⟩ : BufTy).Contents (Elt Ideal)) (x7 : (⟨S256x128, .f32⟩ : BufTy).Contents (Elt Ideal)) (x8 : (⟨S128, .f32⟩ : BufTy).Contents (Elt Ideal)) (b : Fin 4) (n : Fin 4096) (d : Fin 128) :
    val_main_v42 (F := Ideal) x0 x7 x8 (ix3 b n d) = Cert.Heads.hidden x0 x7 x8 b n d := by
  rw [val_main_v42_apply, val_main_v39_apply, val_main_v41_apply, val_main_v40_apply, bias_v41_ix]
  simp only [Ideal.addf_def, lidx_v39_ix, ridx_v39_ix, val_main_v0_apply, reshape_ix]
  rfl

/-! ## Segment logits -/

theorem lidx_v5_ix (b : Fin 4) (n : Fin 4096) (g : Fin 50) (k : Fin 128) :
    lidx_main_v5 (ix3 b n g) k = ix3 b n k := by
  funext a; match a with | ⟨0, _⟩ => rfl | ⟨1, _⟩ => rfl | ⟨2, _⟩ => rfl

theorem ridx_v5_ix (b : Fin 4) (n : Fin 4096) (g : Fin 50) (k : Fin 128) :
    ridx_main_v5 (ix3 b n g) k = ix2 k g := by
  funext a; match a with | ⟨0, _⟩ => rfl | ⟨1, _⟩ => rfl

theorem bias_v7_ix (b : Fin 4) (n : Fin 4096) (g : Fin 50) :
    idx_main_v6 (idx_main_v7 (ix3 b n g)) = ix1 g := by
  funext a; match a with | ⟨0, _⟩ => rfl

/-- Channel g of the segment logits of point (b, n). -/
theorem segLogit_v8 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) (g : Fin 50) :
    val_main_v8 (F := Ideal) x0 x1 x2 x3 x4 (ix3 b n g) = Cert.Heads.segLogit x0 x1 x2 x3 x4 b n g := by
  rw [val_main_v8_apply, val_main_v5_apply, val_main_v7_apply, val_main_v6_apply, bias_v7_ix]
  simp only [Ideal.addf_def, lidx_v5_ix, ridx_v5_ix, hidden_v4]
  rfl

theorem segLogits_eq (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) :
    val_main_v8 (F := Ideal) x0 x1 x2 x3 x4 = Cert.Heads.segLogits x0 x1 x2 x3 x4 := by
  funext i
  obtain ⟨b, n, g, rfl⟩ : ∃ (b : Fin 4) (n : Fin 4096) (g : Fin 50), i = ix3 b n g := ⟨i 0, i 1, i 2, eq_ix3 i⟩
  exact segLogit_v8 x0 x1 x2 x3 x4 b n g

/-! ## Confidence logits -/

theorem lidx_v43_ix (b : Fin 4) (n : Fin 4096) (o : Fin 1) (k : Fin 128) :
    lidx_main_v43 (ix3 b n o) k = ix3 b n k := by
  funext a; match a with | ⟨0, _⟩ => rfl | ⟨1, _⟩ => rfl | ⟨2, _⟩ => rfl

theorem ridx_v43_ix (b : Fin 4) (n : Fin 4096) (k : Fin 128) :
    ridx_main_v43 (ix3 b n (0 : Fin 1)) k = ix2 k (0 : Fin 1) := by
  funext a; match a with | ⟨0, _⟩ => rfl | ⟨1, _⟩ => rfl

theorem bias_v45_ix (b : Fin 4) (n : Fin 4096) (o : Fin 1) :
    idx_main_v44 (idx_main_v45 (ix3 b n o)) = ix1 (0 : Fin 1) := by
  funext a; match a with | ⟨0, _⟩ => rfl

/-- The confidence logit of point (b, n); the third axis has the one coordinate 0. -/
theorem confLogit_v46 (x0 : (⟨S4x4096x1x256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (b : Fin 4) (n : Fin 4096) (o : Fin 1) :
    val_main_v46 (F := Ideal) x0 x7 x8 x9 x10 (ix3 b n o) = Cert.Heads.confLogit x0 x7 x8 x9 x10 b n := by
  obtain rfl : o = 0 := Subsingleton.elim _ _
  rw [val_main_v46_apply, val_main_v43_apply, val_main_v45_apply, val_main_v44_apply, bias_v45_ix]
  simp only [Ideal.addf_def, lidx_v43_ix, ridx_v43_ix, hidden_v42]
  rfl

theorem confLogits_eq (x0 : (⟨S4x4096x1x256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) :
    val_main_v46 (F := Ideal) x0 x7 x8 x9 x10 = Cert.Heads.confLogits x0 x7 x8 x9 x10 := by
  funext i
  obtain ⟨b, n, o, rfl⟩ : ∃ (b : Fin 4) (n : Fin 4096) (o : Fin 1), i = ix3 b n o := ⟨i 0, i 1, i 2, eq_ix3 i⟩
  exact confLogit_v46 x0 x7 x8 x9 x10 b n o

/-! ## Pairwise distances -/

theorem row_v25_ix (b : Fin 4) (n : Fin 4096) (k : Fin 128) :
    idx_main_v25 (ix2 b n) k = ix3 b n k := by
  funext a; match a with | ⟨0, _⟩ => rfl | ⟨1, _⟩ => rfl | ⟨2, _⟩ => rfl

/-- The sum of squares over the 128 similarity channels of point (b, n), from the zero word: the squared length. -/
theorem sqLen_v25 (x0 : (⟨S4x4096x1x256, .f32⟩ : BufTy).Contents (Elt Ideal)) (x5 : (⟨S256x128, .f32⟩ : BufTy).Contents (Elt Ideal)) (x6 : (⟨S128, .f32⟩ : BufTy).Contents (Elt Ideal)) (b : Fin 4) (n : Fin 4096) :
    val_main_v25 (F := Ideal) x0 x5 x6 (ix2 b n) = Cert.Heads.sqLen (Cert.Heads.hidden x0 x5 x6 b n) := by
  rw [val_main_v25_apply, val_main_cst_2_apply]
  simp only [row_v25_ix, val_main_v24_apply, hidden_v23, Ideal.mulf_def, Ideal.ofBits_def, Ideal.ofBits_zero_f32, zero_add]
  rfl

theorem lidx_v26_ix (b : Fin 4) (n m : Fin 4096) (k : Fin 128) :
    lidx_main_v26 (ix3 b n m) k = ix3 b n k := by
  funext a; match a with | ⟨0, _⟩ => rfl | ⟨1, _⟩ => rfl | ⟨2, _⟩ => rfl

theorem ridx_v26_ix (b : Fin 4) (n m : Fin 4096) (k : Fin 128) :
    ridx_main_v26 (ix3 b n m) k = ix3 b m k := by
  funext a; match a with | ⟨0, _⟩ => rfl | ⟨1, _⟩ => rfl | ⟨2, _⟩ => rfl

/-- The batched contraction over the channels: the inner product of the features of points n and m of batch b. -/
theorem inner_v26 (x0 : (⟨S4x4096x1x256, .f32⟩ : BufTy).Contents (Elt Ideal)) (x5 : (⟨S256x128, .f32⟩ : BufTy).Contents (Elt Ideal)) (x6 : (⟨S128, .f32⟩ : BufTy).Contents (Elt Ideal)) (b : Fin 4) (n m : Fin 4096) :
    val_main_v26 (F := Ideal) x0 x5 x6 (ix3 b n m)
      = Cert.Heads.inner (Cert.Heads.hidden x0 x5 x6 b n) (Cert.Heads.hidden x0 x5 x6 b m) := by
  rw [val_main_v26_apply]
  simp only [lidx_v26_ix, ridx_v26_ix, hidden_v23]
  rfl

theorem rowOf_v30_ix (b : Fin 4) (n m : Fin 4096) :
    idx_main_v27 (idx_main_v30 (ix3 b n m)) = ix2 b n := by
  funext a; match a with | ⟨0, _⟩ => rfl | ⟨1, _⟩ => rfl

theorem colOf_v33_ix (b : Fin 4) (n m : Fin 4096) :
    idx_main_v32 (idx_main_v33 (ix3 b n m)) = ix2 b m := by
  funext a; match a with | ⟨0, _⟩ => rfl | ⟨1, _⟩ => rfl

/-- The distance entry (b, n, m): the squared length of n's features down the rows, that of m's along the columns. -/
theorem dist_v38 (x0 : (⟨S4x4096x1x256, .f32⟩ : BufTy).Contents (Elt Ideal)) (x5 : (⟨S256x128, .f32⟩ : BufTy).Contents (Elt Ideal)) (x6 : (⟨S128, .f32⟩ : BufTy).Contents (Elt Ideal)) (b : Fin 4) (n m : Fin 4096) :
    val_main_v38 (F := Ideal) x0 x5 x6 (ix3 b n m)
      = Cert.Heads.dist (Cert.Heads.hidden x0 x5 x6 b n) (Cert.Heads.hidden x0 x5 x6 b m) := by
  rw [val_main_v38_apply, val_main_v36_apply, val_main_v34_apply, val_main_v31_apply, val_main_v29_apply,
    val_main_v30_apply, val_main_v27_apply, val_main_v33_apply, val_main_v32_apply, val_main_v35_apply, val_main_v28_apply,
    val_main_v37_apply, val_main_cst_3_apply, val_main_cst_4_apply, val_main_cst_5_apply,
    rowOf_v30_ix, colOf_v33_ix, sqLen_v25, sqLen_v25, inner_v26]
  rfl

theorem simDists_eq (x0 : (⟨S4x4096x1x256, .f32⟩ : BufTy).Contents (Elt Ideal)) (x5 : (⟨S256x128, .f32⟩ : BufTy).Contents (Elt Ideal)) (x6 : (⟨S128, .f32⟩ : BufTy).Contents (Elt Ideal)) :
    val_main_v38 (F := Ideal) x0 x5 x6 = Cert.Heads.simDists x0 x5 x6 := by
  funext i
  obtain ⟨b, n, m, rfl⟩ : ∃ (b : Fin 4) (n m : Fin 4096), i = ix3 b n m := ⟨i 0, i 1, i 2, eq_ix3 i⟩
  exact dist_v38 x0 x5 x6 b n m

/-! ## Confidences -/

/-- The f32 word 0x3F800000 is the extended real 1. -/
theorem ofBits_one_f32 : Ideal.ofBits .f32 0x3F800000#32 = 1 := IdealRules.sign_bit.ideal_onePat .f32

/-- 1 / (1 + e^(−ℓ)) spelt with the word of 1 is the logistic function of the confidence logit. -/
theorem conf_v52 (x0 : (⟨S4x4096x1x256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (b : Fin 4) (n : Fin 4096) (o : Fin 1) :
    val_main_v52 (F := Ideal) x0 x7 x8 x9 x10 (ix3 b n o) = Ideal.logistic (Cert.Heads.confLogit x0 x7 x8 x9 x10 b n) := by
  rw [val_main_v52_apply, val_main_v50_apply, val_main_v48_apply, val_main_v47_apply, val_main_v51_apply, val_main_v49_apply,
    val_main_cst_6_apply, val_main_cst_7_apply, confLogit_v46]
  simp only [Ideal.hostDivf_def, Ideal.addf_def, Ideal.hostUnary_exp_def, Ideal.hostNegf_def, Ideal.negf_def, Ideal.ofBits_def,
    ofBits_one_f32]
  rfl

theorem confs_eq (x0 : (⟨S4x4096x1x256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) :
    val_main_v52 (F := Ideal) x0 x7 x8 x9 x10 = Cert.Heads.confs x0 x7 x8 x9 x10 := by
  funext i
  obtain ⟨b, n, o, rfl⟩ : ∃ (b : Fin 4) (n : Fin 4096) (o : Fin 1), i = ix3 b n o := ⟨i 0, i 1, i 2, eq_ix3 i⟩
  exact conf_v52 x0 x7 x8 x9 x10 b n o

/-! ## Segment probabilities -/

/-- The maximum over the channel axis is the fold of max from −∞ over the 50 channels of the row. -/
theorem rowMax_v9 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) :
    val_main_v9 (F := Ideal) x0 x1 x2 x3 x4 (ix2 b n)
      = Cert.Heads.maxFrom (Cert.Heads.segLogit x0 x1 x2 x3 x4 b n) := by
  unfold val_main_v9
  have h : S4x4096x50.Reduces [2] S4x4096 := by decide
  rw [Host.reduce_eq_fold_single FloatOps.maximumf _ _ reducesTo_S4x4096x50_S4x4096_d2 h h_S_, val_main_cst_apply]
  have hf : (val_main_v8 (F := Ideal) x0 x1 x2 x3 x4 ∘ h.lift (ix2 b n)) = Cert.Heads.segLogit x0 x1 x2 x3 x4 b n := by
    funext k
    have e : h.lift (ix2 b n) k = ix3 b n (⟨k.val, k.isLt⟩ : Fin 50) := by
      funext c; apply Fin.ext
      match c with | ⟨0, _⟩ => rfl | ⟨1, _⟩ => rfl | ⟨2, _⟩ => rfl
    show val_main_v8 (F := Ideal) x0 x1 x2 x3 x4 (h.lift (ix2 b n) k) = _
    rw [e, segLogit_v8]
    rfl
  rw [hf]
  rfl

theorem rowOf_v13_ix (b : Fin 4) (n : Fin 4096) (g : Fin 50) :
    idx_main_v12 (idx_main_v13 (ix3 b n g)) = ix2 b n := by
  funext a; match a with | ⟨0, _⟩ => rfl | ⟨1, _⟩ => rfl

/-- What every channel of row (b, n) is shifted by: the row's maximum, taken once more against −∞. -/
theorem shift_v13 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) (g : Fin 50) :
    val_main_v13 (F := Ideal) x0 x1 x2 x3 x4 (ix3 b n g)
      = max Cert.Heads.negInf (Cert.Heads.maxFrom (Cert.Heads.segLogit x0 x1 x2 x3 x4 b n)) := by
  rw [val_main_v13_apply, val_main_v12_apply, val_main_v11_apply, val_main_v10_apply, val_main_cst_0_apply, rowOf_v13_ix,
    rowMax_v9]
  rfl

theorem expShift_v15 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) (g : Fin 50) :
    val_main_v15 (F := Ideal) x0 x1 x2 x3 x4 (ix3 b n g)
      = Ideal.exp (Cert.Heads.segLogit x0 x1 x2 x3 x4 b n g
          - max Cert.Heads.negInf (Cert.Heads.maxFrom (Cert.Heads.segLogit x0 x1 x2 x3 x4 b n))) := by
  rw [val_main_v15_apply, val_main_v14_apply, segLogit_v8, shift_v13]
  rfl

theorem rowOf_v18_ix (b : Fin 4) (n : Fin 4096) (g : Fin 50) :
    idx_main_v17 (idx_main_v18 (ix3 b n g)) = ix2 b n := by
  funext a; match a with | ⟨0, _⟩ => rfl | ⟨1, _⟩ => rfl

theorem row_v16_ix (b : Fin 4) (n : Fin 4096) (k : Fin 50) :
    idx_main_v16 (ix2 b n) k = ix3 b n k := by
  funext a; match a with | ⟨0, _⟩ => rfl | ⟨1, _⟩ => rfl | ⟨2, _⟩ => rfl

/-- The row's sum of shifted exponentials, from the zero word. -/
theorem expSum_v18 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) (g : Fin 50) :
    val_main_v18 (F := Ideal) x0 x1 x2 x3 x4 (ix3 b n g)
      = ∑ g' : Fin 50, Ideal.exp (Cert.Heads.segLogit x0 x1 x2 x3 x4 b n g'
          - max Cert.Heads.negInf (Cert.Heads.maxFrom (Cert.Heads.segLogit x0 x1 x2 x3 x4 b n))) := by
  rw [val_main_v18_apply, val_main_v17_apply, val_main_v16_apply, val_main_cst_1_apply, rowOf_v18_ix]
  simp only [row_v16_ix, expShift_v15, Ideal.ofBits_def, Ideal.ofBits_zero_f32, zero_add]

theorem segProb_v19 (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) (b : Fin 4) (n : Fin 4096) (g : Fin 50) :
    val_main_v19 (F := Ideal) x0 x1 x2 x3 x4 (ix3 b n g)
      = Cert.Heads.softmaxRow (Cert.Heads.segLogit x0 x1 x2 x3 x4 b n) g := by
  rw [val_main_v19_apply, expShift_v15, expSum_v18]
  rfl

theorem segProbs_eq (x0 : (⟨S4x4096x1x256, .f32⟩ : BufTy).Contents (Elt Ideal)) (x1 : (⟨S256x128, .f32⟩ : BufTy).Contents (Elt Ideal)) (x2 : (⟨S128, .f32⟩ : BufTy).Contents (Elt Ideal)) (x3 : (⟨S128x50, .f32⟩ : BufTy).Contents (Elt Ideal)) (x4 : (⟨S50, .f32⟩ : BufTy).Contents (Elt Ideal)) :
    val_main_v19 (F := Ideal) x0 x1 x2 x3 x4 = Cert.Heads.segProbs x0 x1 x2 x3 x4 := by
  funext i
  obtain ⟨b, n, g, rfl⟩ : ∃ (b : Fin 4) (n : Fin 4096) (g : Fin 50), i = ix3 b n g := ⟨i 0, i 1, i 2, eq_ix3 i⟩
  exact segProb_v19 x0 x1 x2 x3 x4 b n g

end Cert.ReferenceIdeal.RefValue

end
-- ==== Proof.lean ====
/-
  The certificate of the point-cloud output heads with pairwise distances. Two launches: the first computes, for
  each of the 4 × 4096 points, three dense hidden layers of its 256 features and from them the segment logits
  and their softmax, the similarity features, and the confidence logit and its logistic; the second computes, for
  every pair of points of one batch, ten times the squared distance between their similarity features,
  |f(n)|² − 2 ⟨f(n), f(m)⟩ + |f(m)|², clamped at zero. The reference computes the same five arrays with whole-array
  matrix products, sums and broadcasts.
  On the extended reals the two programs are the same formulas, operation by operation: a rounding to bf16 before a
  matrix product is the identity there, a matrix product into a zero accumulator is the plain sum the reference's
  contraction is, a lane reduction is the reference's sum or maximum over the last axis, and the kernel's logistic
  is 1 / (1 + e^(−x)) as the reference spells it. What differs is the tiling: the kernel works on blocks of 1024
  points (and 1024 × 1024 pairs), and the block results, written back, tile the result arrays. No law used needs
  the inputs finite, so the precondition is never opened.
  The pieces: Proof/Heads.lean states the five results as functions of the eleven arguments; Proof/HeadsLaunch.lean,
  Proof/DistLaunch.lean and Proof/TwoLaunches.lean run the program (for any float interpretation; Proof/Bits/ holds
  the same for the program as printed at the word level); Proof/PayHeads.lean reads the block computations at an
  index; Proof/HeadsArrays.lean, Proof/HeadsArraysB.lean and Proof/DistArrays.lean go from blocks to arrays;
  Proof/Results.lean reads the run's end at the results; Proof/RefHeads.lean shows the reference computes the
  specification. Below: the frames, the (empty) idealization ledger, and the equality of results.
-/
import proofs.«118794_j27084063768631_1_alg».proof.Defs
import proofs.«118794_j27084063768631_1_alg».proof.Proof.Gen.Kernel
import proofs.«118794_j27084063768631_1_alg».proof.Proof.Gen.KernelIdeal
import proofs.«118794_j27084063768631_1_alg».proof.Proof.Gen.ReferenceIdeal
import proofs.«118794_j27084063768631_1_alg».proof.Proof.Gen.Pre_finite_inputs
import proofs.«118794_j27084063768631_1_alg».proof.Proof.Gen.ReferenceIdeal.Run
import proofs.«118794_j27084063768631_1_alg».proof.Proof.Gen.ReferenceIdeal.Read
import proofs.«118794_j27084063768631_1_alg».proof.Proof.TwoLaunches
import proofs.«118794_j27084063768631_1_alg».proof.Proof.Bits.TwoLaunches
import proofs.«118794_j27084063768631_1_alg».proof.Proof.Results
import proofs.«118794_j27084063768631_1_alg».proof.Proof.RefHeads
import Idealize.ShloMosaic.Adequacy
import Idealize.ShloMosaic.Init

noncomputable section

namespace Cert.Proof

open Idealize.ShloMosaic Idealize.SL.Sem

/-- The program as printed at the word level runs, and leaves its arguments as launched. -/
theorem frame_kernel : Cert.frame_Kernel := fun m ρ _ => Cert.Kernel.Launches.frame (F := Bits) m ρ

/-- So does the program read on the extended reals. -/
theorem frame_kernelIdeal : Cert.frame_KernelIdeal := fun m ρ _ => Cert.KernelIdeal.Launches.frame (F := Ideal) m ρ

/-- The reference runs and leaves its arguments as launched: its run, the five results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing. -/
theorem preserves : Cert.preserves_Kernel_KernelIdeal := trivial

/-- From memories that agree on the arguments both programs run, and both end with the five results at the
    specification's functions of the arguments: the kernel by its run read at the results, the reference by its
    run read one operation at a time. -/
theorem algebraic : Cert.algebraic_KernelIdeal_ReferenceIdeal := by
  intro m ρ m' ρ' _ hagree
  refine ⟨_, _, _, _, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  obtain ⟨h19, h8, h38, h52, h46, hargs⟩ := h c
  refine ⟨?_, ?_, ?_, ?_, ?_, hargs⟩
  · rw [h19, Cert.ReferenceIdeal.Read.val_main_v19_eq, Cert.ReferenceIdeal.RefValue.segProbs_eq, a0, a1, a2, a3, a4]
  · rw [h8, Cert.ReferenceIdeal.Read.val_main_v8_eq, Cert.ReferenceIdeal.RefValue.segLogits_eq, a0, a1, a2, a3, a4]
  · rw [h38, Cert.ReferenceIdeal.Read.val_main_v38_eq, Cert.ReferenceIdeal.RefValue.simDists_eq, a0, a5, a6]
  · rw [h52, Cert.ReferenceIdeal.Read.val_main_v52_eq, Cert.ReferenceIdeal.RefValue.confs_eq, a0, a7, a8, a9, a10]
  · rw [h46, Cert.ReferenceIdeal.Read.val_main_v46_eq, Cert.ReferenceIdeal.RefValue.confLogits_eq, a0, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
